-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S4x512x512 : Shape := ⟨3, ![4, 512, 512]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_v28 : IVec S_ 1) (main_v33 : IVec S4x512x512 1) : IVec S_ 1 :=
  let main_c_12 : IVec S_ 1 := constantI S_ 1 1#1
  let main_v34 : IVec S_ 1 := (fun x v => Host.reduce IntOp.andi x v reducesTo_S4x512x512_S_d0_1_2 h_S_) main_v33 main_c_12
  let main_v35 : IVec S_ 1 := andi main_v28 main_v34
  main_v35

def fn_part1 {F : FTy → Type} [FloatOps F] (main_arg1 : FVec F S4x512x512 .f32) (main_arg4 : FVec F S3x128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x64 .f32 := Host.absf main_arg4
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S4x512x512 .f32 := broadcastInDim S4x512x512 ![] bcast_S_S4x512x512 main_cst_10
  let main_v30 : IVec S4x512x512 1 := cmpf .oeq main_arg1 main_v29
  let main_cst_11 : FVec F S_ .f32 := constant S_ .f32 0x3F800000#32
  let main_v31 : FVec F S4x512x512 .f32 := broadcastInDim S4x512x512 ![] bcast_S_S4x512x512 main_cst_11
  let main_v32 : IVec S4x512x512 1 := cmpf .oeq main_arg1 main_v31
  let main_v33 : IVec S4x512x512 1 := ori main_v30 main_v32
  fn_part2 (F := F) main_v28 main_v33

def fn {F : FTy → Type} [FloatOps F] (main_arg0 : FVec F S4x512x128 .f32) (main_arg1 : FVec F S4x512x512 .f32) (main_arg2 : FVec F S3x128x128 .f32) (main_arg3 : FVec F S128 .f32) (main_arg4 : FVec F S3x128x64 .f32) (main_arg5 : FVec F S64 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_v13 main_v16
-- ==== Kernel.lean ====
abbrev S4x512x128 : Shape := ⟨3, ![4, 512, 128]⟩
abbrev S4x512x512 : Shape := ⟨3, ![4, 512, 512]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x128 : Shape := ⟨2, ![1, 128]⟩
abbrev S1x64 : Shape := ⟨2, ![1, 64]⟩
abbrev S4x512x64 : Shape := ⟨3, ![4, 512, 64]⟩
abbrev S2x512x128 : Shape := ⟨3, ![2, 512, 128]⟩
abbrev S2x512x512 : Shape := ⟨3, ![2, 512, 512]⟩
abbrev S2x512x64 : Shape := ⟨3, ![2, 512, 64]⟩
abbrev S1x512x128 : Shape := ⟨3, ![1, 512, 128]⟩
abbrev S512x128 : Shape := ⟨2, ![512, 128]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S512x64 : Shape := ⟨2, ![512, 64]⟩
abbrev S1x512x64 : Shape := ⟨3, ![1, 512, 64]⟩

abbrev nBuf : Space → Nat
  | .hbm => 10
  | .vmem => 12
  | .smem => 0
  | _ => 0

abbrev bufTy : (tb : Table) → Fin (tcTables nBuf tb) → BufTy
  | .hbm, ⟨0, _⟩ => ⟨S4x512x128, .f32⟩
  | .hbm, ⟨1, _⟩ => ⟨S4x512x512, .f32⟩
  | .hbm, ⟨2, _⟩ => ⟨S3x128x128, .f32⟩
  | .hbm, ⟨3, _⟩ => ⟨S128, .f32⟩
  | .hbm, ⟨4, _⟩ => ⟨S3x128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S4x512x64, .f32⟩
  | .hbm, ⟨9, _⟩ => ⟨S4x512x64, .f32⟩
  | .local _ .vmem, ⟨0, _⟩ => ⟨S2x512x128, .f32⟩
  | .local _ .vmem, ⟨1, _⟩ => ⟨S2x512x128, .f32⟩
  | .local _ .vmem, ⟨2, _⟩ => ⟨S2x512x512, .f32⟩
  | .local _ .vmem, ⟨3, _⟩ => ⟨S2x512x512, .f32⟩
  | .local _ .vmem, ⟨4, _⟩ => ⟨S3x128x128, .f32⟩
  | .local _ .vmem, ⟨5, _⟩ => ⟨S1x128, .f32⟩
  | .local _ .vmem, ⟨6, _⟩ => ⟨S3x128x64, .f32⟩
  | .local _ .vmem, ⟨7, _⟩ => ⟨S1x64, .f32⟩
  | .local _ .vmem, ⟨8, _⟩ => ⟨S2x512x64, .f32⟩
  | .local _ .vmem, ⟨9, _⟩ => ⟨S2x512x64, .f32⟩
  | .local _ .vmem, ⟨10, _⟩ => ⟨S2x512x64, .f32⟩
  | .local _ .vmem, ⟨11, _⟩ => ⟨S2x512x64, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  shapeCasts_S64_S1x64 : S64.ShapeCasts S1x64
  inb_S2x512x128_S1x512x128_0_0_0 : ∀ a, (![0, 0, 0] : Fin 3 → Nat) a + S1x512x128.size a ≤ S2x512x128.size a
  h_S1x512x128 : 0 < S1x512x128.numel
  shapeCasts_S1x512x128_S512x128 : S1x512x128.ShapeCasts S512x128
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  iota_S512x512_d0_w32 : S512x512.Iotas .tc 32 [0]
  iota_S512x512_d1_w32 : S512x512.Iotas .tc 32 [1]
  broadcasts_S512x1_S512x128 : S512x1.Broadcasts S512x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_2_0_0 : ∀ a, (![2, 0, 0] : Fin 3 → Nat) a + S1x128x128.size a ≤ S3x128x128.size a
  inb_S3x128x128_S1x128x128_1_0_0 : ∀ a, (![1, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S512x128 : S1x128.Broadcasts S512x128
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_2_0_0 : ∀ a, (![2, 0, 0] : Fin 3 → Nat) a + S1x128x64.size a ≤ S3x128x64.size a
  inb_S3x128x64_S1x128x64_1_0_0 : ∀ a, (![1, 0, 0] : Fin 3 → Nat) a + S1x128x64.size a ≤ S3x128x64.size a
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S512x64 : S1x64.Broadcasts S512x64
  reduces_S512x64_S512 : S512x64.Reduces [1] S512
  broadcasts_S512x1_S512x64 : S512x1.Broadcasts S512x64
  inb_S2x512x64_S1x512x64_0_0_0 : ∀ a, (![0, 0, 0] : Fin 3 → Nat) a + S1x512x64.size a ≤ S2x512x64.size a
  h_S1x512x64 : 0 < S1x512x64.numel
  shapeCasts_S1x512x64_S512x64 : S1x512x64.ShapeCasts S512x64
  shapeCasts_S512x64_S1x512x64 : S512x64.ShapeCasts S1x512x64
  inb_S2x512x128_S1x512x128_1_0_0 : ∀ a, (![1, 0, 0] : Fin 3 → Nat) a + S1x512x128.size a ≤ S2x512x128.size a
  inb_S2x512x512_S1x512x512_1_0_0 : ∀ a, (![1, 0, 0] : Fin 3 → Nat) a + S1x512x512.size a ≤ S2x512x512.size a
  inb_S2x512x64_S1x512x64_1_0_0 : ∀ a, (![1, 0, 0] : Fin 3 → Nat) a + S1x512x64.size a ≤ S2x512x64.size a
  dot_S512x512_S512x128_S512x128_0_0_1_1_n_n_wf : DotDims.WF S512x512 S512x128 S512x128 [0] [0] [1] [1] [] []
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x128.size a ≤ S4x512x128.size a
  hwx0_0 : ∀ i : grid0.Coords, EltTy.bits .f32 = 32 ∨ (Rect.block (s := S4x512x128) S2x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S4x512x512.size a
  hwx0_1 : ∀ i : grid0.Coords, EltTy.bits .f32 = 32 ∨ (Rect.block (s := S4x512x512) S2x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x64.size a ≤ S3x128x64.size a
  hwx0_4 : ∀ i : grid0.Coords, EltTy.bits .f32 = 32 ∨ (Rect.block (s := S3x128x64) S3x128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x512x64.size a ≤ S4x512x64.size a
  hwx0_6 : ∀ i : grid0.Coords, EltTy.bits .f32 = 32 ∨ (Rect.block (s := S4x512x64) S2x512x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x512x64.size a ≤ S4x512x64.size a
  hwx0_7 : ∀ i : grid0.Coords, EltTy.bits .f32 = 32 ∨ (Rect.block (s := S4x512x64) S2x512x64.size (cc0_transform_7 i) (hinb0_7 i)).WholeWords (EltTy.packing .f32)

variable [Facts₀]

def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S2x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S2x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S2x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S4x512x512 : Shape := ⟨3, ![4, 512, 512]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S4 : Shape := ⟨1, ![4]⟩
abbrev S_ : Shape := ⟨0, ![]⟩
abbrev S4x1x1 : Shape := ⟨3, ![4, 1, 1]⟩
abbrev S512 : Shape := ⟨1, ![512]⟩
abbrev S1x512x1 : Shape := ⟨3, ![1, 512, 1]⟩
abbrev S4x512x1 : Shape := ⟨3, ![4, 512, 1]⟩
abbrev S1048576 : Shape := ⟨1, ![1048576]⟩
abbrev S1x1x512 : Shape := ⟨3, ![1, 1, 512]⟩
abbrev S4x1x512 : Shape := ⟨3, ![4, 1, 512]⟩
abbrev S1x1048576 : Shape := ⟨2, ![1, 1048576]⟩
abbrev S2x1048576 : Shape := ⟨2, ![2, 1048576]⟩
abbrev S2048x128 : Shape := ⟨2, ![2048, 128]⟩
abbrev S2048 : Shape := ⟨1, ![2048]⟩
abbrev S1048576x1 : Shape := ⟨2, ![1048576, 1]⟩
abbrev S1050624 : Shape := ⟨1, ![1050624]⟩
abbrev S1x128x128 : Shape := ⟨3, ![1, 128, 128]⟩
abbrev S128x128 : Shape := ⟨2, ![128, 128]⟩
abbrev S1050624x1 : Shape := ⟨2, ![1050624, 1]⟩
abbrev S1050624x128 : Shape := ⟨2, ![1050624, 128]⟩
abbrev S1x128 : Shape := ⟨2, ![1, 128]⟩
abbrev S1x128x64 : Shape := ⟨3, ![1, 128, 64]⟩
abbrev S128x64 : Shape := ⟨2, ![128, 64]⟩
abbrev S2048x64 : Shape := ⟨2, ![2048, 64]⟩
abbrev S1x64 : Shape := ⟨2, ![1, 64]⟩
abbrev S4x512x64 : Shape := ⟨3, ![4, 512, 64]⟩
abbrev S4x512 : Shape := ⟨2, ![4, 512]⟩

abbrev nBuf : Space → Nat
  | .hbm => 327
  | .vmem => 0
  | .smem => 0
  | _ => 0

abbrev hbmTy0_0 (i : Nat) : BufTy := match i % 128 with
  | 0 => ⟨S4x512x128, .f32⟩
  | 1 => ⟨S4x512x512, .f32⟩
  | 2 => ⟨S3x128x128, .f32⟩
  | 3 => ⟨S128, .f32⟩
  | 4 => ⟨S3x128x64, .f32⟩
  | 5 => ⟨S64, .f32⟩
  | 6 => ⟨S4, .i32⟩
  | 7 => ⟨S_, .i32⟩
  | 8 => ⟨S4, .i32⟩
  | 9 => ⟨S4, .i32⟩
  | 10 => ⟨S4x1x1, .i32⟩
  | 11 => ⟨S512, .i32⟩
  | 12 => ⟨S1x512x1, .i32⟩
  | 13 => ⟨S4x512x1, .i32⟩
  | 14 => ⟨S4x512x1, .i32⟩
  | 15 => ⟨S4x512x1, .i32⟩
  | 16 => ⟨S4x512x512, .i32⟩
  | 17 => ⟨S1048576, .i32⟩
  | 18 => ⟨S512, .i32⟩
  | 19 => ⟨S1x1x512, .i32⟩
  | 20 => ⟨S4x1x512, .i32⟩
  | 21 => ⟨S4x1x512, .i32⟩
  | 22 => ⟨S4x1x512, .i32⟩
  | 23 => ⟨S4x512x512, .i32⟩
  | 24 => ⟨S1048576, .i32⟩
  | 25 => ⟨S_, .f32⟩
  | 26 => ⟨S4x512x512, .f32⟩
  | 27 => ⟨S4x512x512, .i1⟩
  | 28 => ⟨S4x512x512, .f32⟩
  | 29 => ⟨S1048576, .f32⟩
  | 30 => ⟨S1x1048576, .i32⟩
  | 31 => ⟨S1x1048576, .i32⟩
  | 32 => ⟨S2x1048576, .i32⟩
  | 33 => ⟨S2048x128, .f32⟩
  | 34 => ⟨S1x1048576, .i32⟩
  | 35 => ⟨S1048576, .i32⟩
  | 36 => ⟨S1x1048576, .i32⟩
  | 37 => ⟨S1048576, .i32⟩
  | 38 => ⟨S_, .f32⟩
  | 39 => ⟨S2048, .f32⟩
  | 40 => ⟨S_, .i32⟩
  | 41 => ⟨S1048576, .i32⟩
  | 42 => ⟨S1048576, .i1⟩
  | 43 => ⟨S_, .i32⟩
  | 44 => ⟨S1048576, .i32⟩
  | 45 => ⟨S1048576, .i32⟩
  | 46 => ⟨S1048576, .i32⟩
  | 47 => ⟨S1048576x1, .i32⟩
  | 48 => ⟨S2048, .f32⟩
  | 49 => ⟨S_, .f32⟩
  | 50 => ⟨S2048, .f32⟩
  | 51 => ⟨S2048, .i1⟩
  | 52 => ⟨S_, .f32⟩
  | 53 => ⟨S2048, .f32⟩
  | 54 => ⟨S2048, .f32⟩
  | 55 => ⟨S_, .f32⟩
  | 56 => ⟨S_, .f32⟩
  | 57 => ⟨S2048, .f32⟩
  | 58 => ⟨S2048, .f32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i32⟩
  | 65 => ⟨S1048576, .i32⟩
  | 66 => ⟨S1048576x1, .i32⟩
  | 67 => ⟨S1048576, .f32⟩
  | 68 => ⟨S1048576, .f32⟩
  | 69 => ⟨S1048576, .f32⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S1048576x1, .i32⟩
  | 78 => ⟨S1048576, .f32⟩
  | 79 => ⟨S1048576, .f32⟩
  | 80 => ⟨S2048, .i32⟩
  | 81 => ⟨S1050624, .i32⟩
  | 82 => ⟨S1050624, .i32⟩
  | 83 => ⟨S_, .f32⟩
  | 84 => ⟨S2048, .f32⟩
  | 85 => ⟨S1050624, .f32⟩
  | 86 => ⟨S_, .f32⟩
  | 87 => ⟨S1050624, .f32⟩
  | 88 => ⟨S1050624, .f32⟩
  | 89 => ⟨S_, .f32⟩
  | 90 => ⟨S1050624, .f32⟩
  | 91 => ⟨S1050624, .f32⟩
  | 92 => ⟨S1050624, .f32⟩
  | 93 => ⟨S_, .f32⟩
  | 94 => ⟨S1050624, .f32⟩
  | 95 => ⟨S1050624, .i1⟩
  | 96 => ⟨S_, .f32⟩
  | 97 => ⟨S_, .f32⟩
  | 98 => ⟨S1050624, .f32⟩
  | 99 => ⟨S1050624, .f32⟩
  | 100 => ⟨S1050624, .i1⟩
  | 101 => ⟨S1050624, .f32⟩
  | 102 => ⟨S_, .f32⟩
  | 103 => ⟨S2048, .f32⟩
  | 104 => ⟨S1050624, .f32⟩
  | 105 => ⟨S1050624, .f32⟩
  | 106 => ⟨S1050624, .f32⟩
  | 107 => ⟨S1x128x128, .f32⟩
  | 108 => ⟨S128x128, .f32⟩
  | 109 => ⟨S2048x128, .f32⟩
  | 110 => ⟨S_, .f32⟩
  | 111 => ⟨S2048x128, .f32⟩
  | 112 => ⟨S1050624x1, .f32⟩
  | 113 => ⟨S_, .i32⟩
  | 114 => ⟨S1050624, .i32⟩
  | 115 => ⟨S1050624, .i1⟩
  | 116 => ⟨S_, .i32⟩
  | 117 => ⟨S1050624, .i32⟩
  | 118 => ⟨S1050624, .i32⟩
  | 119 => ⟨S1050624, .i32⟩
  | 120 => ⟨S1050624x1, .i32⟩
  | 121 => ⟨S1050624x128, .f32⟩
  | 122 => ⟨S1050624x128, .f32⟩
  | 123 => ⟨S1050624x128, .f32⟩
  | 124 => ⟨S_, .i32⟩
  | 125 => ⟨S1050624, .i32⟩
  | 126 => ⟨S1050624, .i1⟩
  | 127 => ⟨S_, .i32⟩
  | _ => ⟨S4x512x128, .f32⟩

abbrev hbmTy0_1 (i : Nat) : BufTy := match i % 128 with
  | 0 => ⟨S1050624, .i32⟩
  | 1 => ⟨S1050624, .i32⟩
  | 2 => ⟨S1050624, .i32⟩
  | 3 => ⟨S1050624x1, .i32⟩
  | 4 => ⟨S2048x128, .f32⟩
  | 5 => ⟨S1x128x128, .f32⟩
  | 6 => ⟨S128x128, .f32⟩
  | 7 => ⟨S2048x128, .f32⟩
  | 8 => ⟨S2048x128, .f32⟩
  | 9 => ⟨S_, .f32⟩
  | 10 => ⟨S2048x128, .f32⟩
  | 11 => ⟨S1050624x1, .f32⟩
  | 12 => ⟨S_, .i32⟩
  | 13 => ⟨S1050624, .i32⟩
  | 14 => ⟨S1050624, .i1⟩
  | 15 => ⟨S_, .i32⟩
  | 16 => ⟨S1050624, .i32⟩
  | 17 => ⟨S1050624, .i32⟩
  | 18 => ⟨S1050624, .i32⟩
  | 19 => ⟨S1050624x1, .i32⟩
  | 20 => ⟨S1050624x128, .f32⟩
  | 21 => ⟨S1050624x128, .f32⟩
  | 22 => ⟨S1050624x128, .f32⟩
  | 23 => ⟨S_, .i32⟩
  | 24 => ⟨S1050624, .i32⟩
  | 25 => ⟨S1050624, .i1⟩
  | 26 => ⟨S_, .i32⟩
  | 27 => ⟨S1050624, .i32⟩
  | 28 => ⟨S1050624, .i32⟩
  | 29 => ⟨S1050624, .i32⟩
  | 30 => ⟨S1050624x1, .i32⟩
  | 31 => ⟨S2048x128, .f32⟩
  | 32 => ⟨S_, .f32⟩
  | 33 => ⟨S2048x128, .f32⟩
  | 34 => ⟨S2048x128, .f32⟩
  | 35 => ⟨S2048x128, .f32⟩
  | 36 => ⟨S1x128x128, .f32⟩
  | 37 => ⟨S128x128, .f32⟩
  | 38 => ⟨S2048x128, .f32⟩
  | 39 => ⟨S2048x128, .f32⟩
  | 40 => ⟨S1x128, .f32⟩
  | 41 => ⟨S2048x128, .f32⟩
  | 42 => ⟨S2048x128, .f32⟩
  | 43 => ⟨S_, .f32⟩
  | 44 => ⟨S2048x128, .f32⟩
  | 45 => ⟨S2048x128, .f32⟩
  | 46 => ⟨S1x1048576, .i32⟩
  | 47 => ⟨S1048576, .i32⟩
  | 48 => ⟨S1x1048576, .i32⟩
  | 49 => ⟨S1048576, .i32⟩
  | 50 => ⟨S_, .f32⟩
  | 51 => ⟨S2048, .f32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S1048576x1, .i32⟩
  | 60 => ⟨S2048, .f32⟩
  | 61 => ⟨S_, .f32⟩
  | 62 => ⟨S2048, .f32⟩
  | 63 => ⟨S2048, .i1⟩
  | 64 => ⟨S_, .f32⟩
  | 65 => ⟨S2048, .f32⟩
  | 66 => ⟨S2048, .f32⟩
  | 67 => ⟨S_, .f32⟩
  | 68 => ⟨S_, .f32⟩
  | 69 => ⟨S2048, .f32⟩
  | 70 => ⟨S2048, .f32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S1048576x1, .i32⟩
  | 79 => ⟨S1048576, .f32⟩
  | 80 => ⟨S1048576, .f32⟩
  | 81 => ⟨S1048576, .f32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S1048576, .f32⟩
  | 91 => ⟨S1048576, .f32⟩
  | 92 => ⟨S2048, .i32⟩
  | 93 => ⟨S1050624, .i32⟩
  | 94 => ⟨S1050624, .i32⟩
  | 95 => ⟨S_, .f32⟩
  | 96 => ⟨S2048, .f32⟩
  | 97 => ⟨S1050624, .f32⟩
  | 98 => ⟨S_, .f32⟩
  | 99 => ⟨S1050624, .f32⟩
  | 100 => ⟨S1050624, .f32⟩
  | 101 => ⟨S_, .f32⟩
  | 102 => ⟨S1050624, .f32⟩
  | 103 => ⟨S1050624, .f32⟩
  | 104 => ⟨S1050624, .f32⟩
  | 105 => ⟨S_, .f32⟩
  | 106 => ⟨S1050624, .f32⟩
  | 107 => ⟨S1050624, .i1⟩
  | 108 => ⟨S_, .f32⟩
  | 109 => ⟨S_, .f32⟩
  | 110 => ⟨S1050624, .f32⟩
  | 111 => ⟨S1050624, .f32⟩
  | 112 => ⟨S1050624, .i1⟩
  | 113 => ⟨S1050624, .f32⟩
  | 114 => ⟨S_, .f32⟩
  | 115 => ⟨S2048, .f32⟩
  | 116 => ⟨S1050624, .f32⟩
  | 117 => ⟨S1050624, .f32⟩
  | 118 => ⟨S1050624, .f32⟩
  | 119 => ⟨S1x128x64, .f32⟩
  | 120 => ⟨S128x64, .f32⟩
  | 121 => ⟨S2048x64, .f32⟩
  | 122 => ⟨S_, .f32⟩
  | 123 => ⟨S2048x128, .f32⟩
  | 124 => ⟨S1050624x1, .f32⟩
  | 125 => ⟨S_, .i32⟩
  | 126 => ⟨S1050624, .i32⟩
  | 127 => ⟨S1050624, .i1⟩
  | _ => ⟨S4x512x128, .f32⟩

abbrev hbmTy0_2 (i : Nat) : BufTy := match i % 128 with
  | 0 => ⟨S_, .i32⟩
  | 1 => ⟨S1050624, .i32⟩
  | 2 => ⟨S1050624, .i32⟩
  | 3 => ⟨S1050624, .i32⟩
  | 4 => ⟨S1050624x1, .i32⟩
  | 5 => ⟨S1050624x128, .f32⟩
  | 6 => ⟨S1050624x128, .f32⟩
  | 7 => ⟨S1050624x128, .f32⟩
  | 8 => ⟨S_, .i32⟩
  | 9 => ⟨S1050624, .i32⟩
  | 10 => ⟨S1050624, .i1⟩
  | 11 => ⟨S_, .i32⟩
  | 12 => ⟨S1050624, .i32⟩
  | 13 => ⟨S1050624, .i32⟩
  | 14 => ⟨S1050624, .i32⟩
  | 15 => ⟨S1050624x1, .i32⟩
  | 16 => ⟨S2048x128, .f32⟩
  | 17 => ⟨S1x128x64, .f32⟩
  | 18 => ⟨S128x64, .f32⟩
  | 19 => ⟨S2048x64, .f32⟩
  | 20 => ⟨S2048x64, .f32⟩
  | 21 => ⟨S_, .f32⟩
  | 22 => ⟨S2048x128, .f32⟩
  | 23 => ⟨S1050624x1, .f32⟩
  | 24 => ⟨S_, .i32⟩
  | 25 => ⟨S1050624, .i32⟩
  | 26 => ⟨S1050624, .i1⟩
  | 27 => ⟨S_, .i32⟩
  | 28 => ⟨S1050624, .i32⟩
  | 29 => ⟨S1050624, .i32⟩
  | 30 => ⟨S1050624, .i32⟩
  | 31 => ⟨S1050624x1, .i32⟩
  | 32 => ⟨S1050624x128, .f32⟩
  | 33 => ⟨S1050624x128, .f32⟩
  | 34 => ⟨S1050624x128, .f32⟩
  | 35 => ⟨S_, .i32⟩
  | 36 => ⟨S1050624, .i32⟩
  | 37 => ⟨S1050624, .i1⟩
  | 38 => ⟨S_, .i32⟩
  | 39 => ⟨S1050624, .i32⟩
  | 40 => ⟨S1050624, .i32⟩
  | 41 => ⟨S1050624, .i32⟩
  | 42 => ⟨S1050624x1, .i32⟩
  | 43 => ⟨S2048x128, .f32⟩
  | 44 => ⟨S_, .f32⟩
  | 45 => ⟨S2048x128, .f32⟩
  | 46 => ⟨S2048x128, .f32⟩
  | 47 => ⟨S2048x128, .f32⟩
  | 48 => ⟨S1x128x64, .f32⟩
  | 49 => ⟨S128x64, .f32⟩
  | 50 => ⟨S2048x64, .f32⟩
  | 51 => ⟨S2048x64, .f32⟩
  | 52 => ⟨S1x64, .f32⟩
  | 53 => ⟨S2048x64, .f32⟩
  | 54 => ⟨S2048x64, .f32⟩
  | 55 => ⟨S4x512x64, .f32⟩
  | 56 => ⟨S_, .f32⟩
  | 57 => ⟨S4x512, .f32⟩
  | 58 => ⟨S_, .f32⟩
  | 59 => ⟨S4x512, .f32⟩
  | 60 => ⟨S4x512, .f32⟩
  | 61 => ⟨S4x512x1, .f32⟩
  | 62 => ⟨S4x512x64, .f32⟩
  | 63 => ⟨S4x512x64, .f32⟩
  | 64 => ⟨S4x512x64, .f32⟩
  | 65 => ⟨S_, .f32⟩
  | 66 => ⟨S4x512, .f32⟩
  | 67 => ⟨S4x512x1, .f32⟩
  | 68 => ⟨S4x512x1, .f32⟩
  | 69 => ⟨S4x512x64, .f32⟩
  | 70 => ⟨S4x512x64, .f32⟩
  | _ => ⟨S4x512x128, .f32⟩

abbrev hbmTy (i : Nat) : BufTy := match i / 128 with
  | 0 => hbmTy0_0 i
  | 1 => hbmTy0_1 i
  | 2 => hbmTy0_2 i
  | _ => ⟨S4x512x128, .f32⟩

abbrev bufTy : (tb : Table) → Fin (tcTables nBuf tb) → BufTy
  | .hbm, ⟨i, _⟩ => hbmTy i
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_c_1 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_call1_v0 : Ref sig .tc := ⟨.hbm, 92, rfl⟩
abbrev main_call1_cst : Ref sig .tc := ⟨.hbm, 93, rfl⟩
abbrev main_call1_v1 : Ref sig .tc := ⟨.hbm, 94, rfl⟩
abbrev main_v69 : Ref sig .tc := ⟨.hbm, 95, rfl⟩
abbrev main_cst_13 : Ref sig .tc := ⟨.hbm, 96, rfl⟩
abbrev main_call2_v0 : Ref sig .tc := ⟨.hbm, 97, rfl⟩
abbrev main_call2_v1 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_18 : Ref sig .tc := ⟨.hbm, 124, rfl⟩
abbrev main_v91 : Ref sig .tc := ⟨.hbm, 125, rfl⟩
abbrev main_v92 : Ref sig .tc := ⟨.hbm, 126, rfl⟩
abbrev main_c_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_v103 : Ref sig .tc := ⟨.hbm, 139, rfl⟩
abbrev main_c_21 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_23 : Ref sig .tc := ⟨.hbm, 151, rfl⟩
abbrev main_v113 : Ref sig .tc := ⟨.hbm, 152, rfl⟩
abbrev main_v114 : Ref sig .tc := ⟨.hbm, 153, rfl⟩
abbrev main_c_24 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_25 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_call3_cst : Ref sig .tc := ⟨.hbm, 171, rfl⟩
abbrev main_call3_v0 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_26 : Ref sig .tc := ⟨.hbm, 178, rfl⟩
abbrev main_v135 : Ref sig .tc := ⟨.hbm, 179, rfl⟩
abbrev main_c_27 : Ref sig .tc := ⟨.hbm, 180, rfl⟩
abbrev main_v136 : Ref sig .tc := ⟨.hbm, 181, rfl⟩
abbrev main_v137 : Ref sig .tc := ⟨.hbm, 182, rfl⟩
abbrev main_c_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_29 : Ref sig .tc := ⟨.hbm, 189, rfl⟩
abbrev main_v143 : Ref sig .tc := ⟨.hbm, 190, rfl⟩
abbrev main_v144 : Ref sig .tc := ⟨.hbm, 191, rfl⟩
abbrev main_cst_30 : Ref sig .tc := ⟨.hbm, 192, rfl⟩
abbrev main_v145 : Ref sig .tc := ⟨.hbm, 193, rfl⟩
abbrev main_v146 : Ref sig .tc := ⟨.hbm, 194, rfl⟩
abbrev main_cst_31 : Ref sig .tc := ⟨.hbm, 195, rfl⟩
abbrev main_call4_v0 : Ref sig .tc := ⟨.hbm, 196, rfl⟩
abbrev main_call4_v1 : Ref sig .tc := ⟨.hbm, 197, rfl⟩
abbrev main_v147 : Ref sig .tc := ⟨.hbm, 198, rfl⟩
abbrev main_c_32 : Ref sig .tc := ⟨.hbm, 199, rfl⟩
abbrev main_v148 : Ref sig .tc := ⟨.hbm, 200, rfl⟩
abbrev main_v149 : Ref sig .tc := ⟨.hbm, 201, rfl⟩
abbrev main_c_33 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_34 : Ref sig .tc := ⟨.hbm, 210, rfl⟩
abbrev main_v157 : Ref sig .tc := ⟨.hbm, 211, rfl⟩
abbrev main_v158 : Ref sig .tc := ⟨.hbm, 212, rfl⟩
abbrev main_c_35 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_36 : Ref sig .tc := ⟨.hbm, 223, rfl⟩
abbrev main_v168 : Ref sig .tc := ⟨.hbm, 224, rfl⟩
abbrev main_v169 : Ref sig .tc := ⟨.hbm, 225, rfl⟩
abbrev main_cst_37 : Ref sig .tc := ⟨.hbm, 226, rfl⟩
abbrev main_v170 : Ref sig .tc := ⟨.hbm, 227, rfl⟩
abbrev main_v171 : Ref sig .tc := ⟨.hbm, 228, rfl⟩
abbrev main_cst_38 : Ref sig .tc := ⟨.hbm, 229, rfl⟩
abbrev main_v172 : Ref sig .tc := ⟨.hbm, 230, rfl⟩
abbrev main_v173 : Ref sig .tc := ⟨.hbm, 231, rfl⟩
abbrev main_call5_v0 : Ref sig .tc := ⟨.hbm, 232, rfl⟩
abbrev main_call5_cst : Ref sig .tc := ⟨.hbm, 233, rfl⟩
abbrev main_call5_v1 : Ref sig .tc := ⟨.hbm, 234, rfl⟩
abbrev main_v174 : Ref sig .tc := ⟨.hbm, 235, rfl⟩
abbrev main_cst_39 : Ref sig .tc := ⟨.hbm, 236, rfl⟩
abbrev main_call6_v0 : Ref sig .tc := ⟨.hbm, 237, rfl⟩
abbrev main_call6_v1 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_cst_40 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_41 : Ref sig .tc := ⟨.hbm, 250, rfl⟩
abbrev main_v185 : Ref sig .tc := ⟨.hbm, 251, rfl⟩
abbrev main_v186 : Ref sig .tc := ⟨.hbm, 252, rfl⟩
abbrev main_c_42 : Ref sig .tc := ⟨.hbm, 253, rfl⟩
abbrev main_v187 : Ref sig .tc := ⟨.hbm, 254, rfl⟩
abbrev main_v188 : Ref sig .tc := ⟨.hbm, 255, rfl⟩
abbrev main_c_43 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_c_44 : Ref sig .tc := ⟨.hbm, 264, rfl⟩
abbrev main_v196 : Ref sig .tc := ⟨.hbm, 265, rfl⟩
abbrev main_v197 : Ref sig .tc := ⟨.hbm, 266, rfl⟩
abbrev main_c_45 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_cst_46 : Ref sig .tc := ⟨.hbm, 277, rfl⟩
abbrev main_v207 : Ref sig .tc := ⟨.hbm, 278, rfl⟩
abbrev main_v208 : Ref sig .tc := ⟨.hbm, 279, rfl⟩
abbrev main_c_47 : Ref sig .tc := ⟨.hbm, 280, rfl⟩
abbrev main_v209 : Ref sig .tc := ⟨.hbm, 281, rfl⟩
abbrev main_v210 : Ref sig .tc := ⟨.hbm, 282, rfl⟩
abbrev main_c_48 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_c_49 : Ref sig .tc := ⟨.hbm, 291, rfl⟩
abbrev main_v218 : Ref sig .tc := ⟨.hbm, 292, rfl⟩
abbrev main_v219 : Ref sig .tc := ⟨.hbm, 293, rfl⟩
abbrev main_c_50 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_cst_51 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_call7_cst : Ref sig .tc := ⟨.hbm, 312, rfl⟩
abbrev main_call7_v0 : Ref sig .tc := ⟨.hbm, 313, rfl⟩
abbrev main_call7_cst_0 : Ref sig .tc := ⟨.hbm, 314, rfl⟩
abbrev main_call7_v1 : Ref sig .tc := ⟨.hbm, 315, rfl⟩
abbrev main_call7_v2 : Ref sig .tc := ⟨.hbm, 316, rfl⟩
abbrev main_call7_v3 : Ref sig .tc := ⟨.hbm, 317, rfl⟩
abbrev main_call7_v4 : Ref sig .tc := ⟨.hbm, 318, rfl⟩
abbrev main_call7_v5 : Ref sig .tc := ⟨.hbm, 319, rfl⟩
abbrev main_call7_v6 : Ref sig .tc := ⟨.hbm, 320, rfl⟩
abbrev main_call7_cst_1 : Ref sig .tc := ⟨.hbm, 321, rfl⟩
abbrev main_call7_v7 : Ref sig .tc := ⟨.hbm, 322, rfl⟩
abbrev main_call7_v8 : Ref sig .tc := ⟨.hbm, 323, rfl⟩
abbrev main_call7_v9 : Ref sig .tc := ⟨.hbm, 324, rfl⟩
abbrev main_call7_v10 : Ref sig .tc := ⟨.hbm, 325, rfl⟩
abbrev main_v236 : Ref sig .tc := ⟨.hbm, 326, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1x1_0 : S4.BroadcastsInDim S4x1x1 (![0] : Fin 1 → Fin S4x1x1.rank)
  bcast_S512_S1x512x1_1 : S512.BroadcastsInDim S1x512x1 (![1] : Fin 1 → Fin S1x512x1.rank)
  bcast_S4x1x1_S4x512x1_0_1_2 : S4x1x1.BroadcastsInDim S4x512x1 (![0, 1, 2] : Fin 3 → Fin S4x512x1.rank)
  bcast_S1x512x1_S4x512x1_0_1_2 : S1x512x1.BroadcastsInDim S4x512x1 (![0, 1, 2] : Fin 3 → Fin S4x512x1.rank)
  bcast_S4x512x1_S4x512x512_0_1_2 : S4x512x1.BroadcastsInDim S4x512x512 (![0, 1, 2] : Fin 3 → Fin S4x512x512.rank)
  shapeCasts_S4x512x512_S1048576 : S4x512x512.ShapeCasts S1048576
  bcast_S512_S1x1x512_2 : S512.BroadcastsInDim S1x1x512 (![2] : Fin 1 → Fin S1x1x512.rank)
  bcast_S4x1x1_S4x1x512_0_1_2 : S4x1x1.BroadcastsInDim S4x1x512 (![0, 1, 2] : Fin 3 → Fin S4x1x512.rank)
  bcast_S1x1x512_S4x1x512_0_1_2 : S1x1x512.BroadcastsInDim S4x1x512 (![0, 1, 2] : Fin 3 → Fin S4x1x512.rank)
  bcast_S4x1x512_S4x512x512_0_1_2 : S4x1x512.BroadcastsInDim S4x512x512 (![0, 1, 2] : Fin 3 → Fin S4x512x512.rank)
  bcast_S_S4x512x512 : S_.BroadcastsInDim S4x512x512 (![] : Fin 0 → Fin S4x512x512.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  shapeCasts_S4x512x128_S2048x128 : S4x512x128.ShapeCasts S2048x128
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S2048 : S_.BroadcastsInDim S2048 (![] : Fin 0 → Fin S2048.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576_S2048_S1050624_d0 : Shape.Concatenates [S1048576, S2048] S1050624 0
  bcast_S_S1050624 : S_.BroadcastsInDim S1050624 (![] : Fin 0 → Fin S1050624.rank)
  slices_S3x128x128_S1x128x128_0_0_0 : S3x128x128.Slices ![0, 0, 0] S1x128x128
  shapeCasts_S1x128x128_S128x128 : S1x128x128.ShapeCasts S128x128
  bcast_S_S2048x128 : S_.BroadcastsInDim S2048x128 (![] : Fin 0 → Fin S2048x128.rank)
  bcast_S1050624_S1050624x1_0 : S1050624.BroadcastsInDim S1050624x1 (![0] : Fin 1 → Fin S1050624x1.rank)
  bcast_S1050624x1_S1050624x128_0_1 : S1050624x1.BroadcastsInDim S1050624x128 (![0, 1] : Fin 2 → Fin S1050624x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  shapeCasts_S2048x64_S4x512x64 : S2048x64.ShapeCasts S4x512x64
  reducesTo_S4x512x64_S4x512_d2 : S4x512x64.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x64_0_1_2 : S4x512x1.BroadcastsInDim S4x512x64 (![0, 1, 2] : Fin 3 → Fin S4x512x64.rank)
  scatter_S2048_S1048576x1_S1048576_n_0_0_1_wf : ScatterDims.WF S2048 S1048576x1 S1048576 [] [0] [0] 1
  gather_S2048_S1048576x1_S1048576_n_0_n_n_0_1_1_wf : GatherDims.WF S2048 S1048576x1 S1048576 [] [0] [] [0] [] 1 ![1]
  dot_S2048x128_S128x128_S2048x128_1_0_0_1_n_n_wf : DotDims.WF S2048x128 S128x128 S2048x128 [1] [0] [0] [1] [] []
  gather_S2048x128_S1050624x1_S1050624x128_1_0_n_n_0_1_1128_wf : GatherDims.WF S2048x128 S1050624x1 S1050624x128 [1] [0] [] [0] [] 1 ![1, 128]
  scatter_S2048x128_S1050624x1_S1050624x128_1_0_0_1_wf : ScatterDims.WF S2048x128 S1050624x1 S1050624x128 [1] [0] [0] 1
  dot_S2048x128_S128x64_S2048x64_1_0_0_1_n_n_wf : DotDims.WF S2048x128 S128x64 S2048x64 [1] [0] [0] [1] [] []

variable [Facts₀]

def scatter_S2048_S1048576x1_S1048576_n_0_0_1 : ScatterDims S2048 S1048576x1 S1048576 where
  updateWindowDims := []
  insertedWindowDims := [0]
  scatterDimsToOperandDims := [0]
  indexVectorDim := 1
  wf := scatter_S2048_S1048576x1_S1048576_n_0_0_1_wf
def gather_S2048_S1048576x1_S1048576_n_0_n_n_0_1_1 : GatherDims S2048 S1048576x1 S1048576 where
  offsetDims := []
  collapsedSliceDims := [0]
  operandBatchingDims := []
  startIndicesBatchingDims := []
  startIndexMap := [0]
  indexVectorDim := 1
  sliceSizes := ![1]
  wf := gather_S2048_S1048576x1_S1048576_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S2048x128_S1050624x1_S1050624x128_1_0_n_n_0_1_1128 : GatherDims S2048x128 S1050624x1 S1050624x128 where
  offsetDims := [1]
  collapsedSliceDims := [0]
  operandBatchingDims := []
  startIndicesBatchingDims := []
  startIndexMap := [0]
  indexVectorDim := 1
  sliceSizes := ![1, 128]
  wf := gather_S2048x128_S1050624x1_S1050624x128_1_0_n_n_0_1_1128_wf
def scatter_S2048x128_S1050624x1_S1050624x128_1_0_0_1 : ScatterDims S2048x128 S1050624x1 S1050624x128 where
  updateWindowDims := [1]
  insertedWindowDims := [0]
  scatterDimsToOperandDims := [0]
  indexVectorDim := 1
  wf := scatter_S2048x128_S1050624x1_S1050624x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

class Facts : Prop extends Facts₀ where

variable [Facts]
-- ==== Proof.RefRun.lean ====
/-
  The reference's run, at most thirty-two operations at a time.

  The reference is a straight line of 321 host operations, so after it every buffer holds the fold of the operations'
  results over the launch contents.  Evaluating that fold for a result buffer in one pass re-derives each intermediate
  once per use; instead the fold is peeled at most thirty-two operations at a time: after each stretch the contents reached so
  far are forgotten except for what the buffers still to be read hold — each its stage, the value of its operation as
  a function of the argument arrays — and the next stretch is evaluated from those.  At the end the two result buffers
  hold their stages, and the argument arrays, which no operation writes, what they began with.
-/
import proofs.«126667_g78520592106144_cont_sun_c4_372_13_alg».proof.Proof.RunOps
import proofs.«126667_g78520592106144_cont_sun_c4_372_13_alg».proof.Proof.ReadP
import Idealize.ShloMosaic.Lib.StableHlo.Run

set_option maxRecDepth 65536

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- A concatenation of two arrays with the two arrays as its own arguments (the printed form keeps them inside a list of
    shape–array pairs, which rewriting does not enter). -/
def concat2 {α : Type} (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

/-- The printed concatenation of two arrays is concat2 of them. -/
theorem concatenate_pair {α : Type} (t : Shape) (ax : Fin t.rank) (s1 s2 : Shape) (a : s1.Idx → α) (b : s2.Idx → α)
    (h : Shape.Concatenates [s1, s2] t ax) :
    concatenate t ax [⟨s1, a⟩, ⟨s2, b⟩] h = concat2 t ax s1 s2 h a b := rfl

/-- To prove something of the contents after a line of operations, it is enough to prove it from any contents equal
    to the ones the line starts from: the starting contents can then be forgotten but for what is recorded of them. -/
theorem gen_step {l : List (HloOp τ sig (Elt F))} {W : Valuation τ sig (Elt F)} {Q : Valuation τ sig (Elt F) → Prop}
    (h : ∀ W' : Valuation τ sig (Elt F), W' = W → Q (after l W')) : Q (after l W) := h W rfl

/-- What is to be shown of the contents after the whole line: the two result buffers at their stages, the argument arrays as they began. -/
def Goal (V : Valuation τ sig (Elt F)) (X : Valuation τ sig (Elt F)) : Prop :=
  X (Proc.devRef .tc main_v236) = val_main_v236 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))
    ∧ X (Proc.devRef .tc main_v235) = val_main_v235 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))
    ∧ X (Proc.devRef .tc main_arg0) = V (Proc.devRef .tc main_arg0)
    ∧ X (Proc.devRef .tc main_arg1) = V (Proc.devRef .tc main_arg1)
    ∧ X (Proc.devRef .tc main_arg2) = V (Proc.devRef .tc main_arg2)
    ∧ X (Proc.devRef .tc main_arg3) = V (Proc.devRef .tc main_arg3)
    ∧ X (Proc.devRef .tc main_arg4) = V (Proc.devRef .tc main_arg4)
    ∧ X (Proc.devRef .tc main_arg5) = V (Proc.devRef .tc main_arg5)

open Lean Parser Tactic in
/-- Evaluate a stretch of operations at one buffer, from contents of which nothing is recorded. -/
macro "stage0 " h:ident : tactic =>
  `(tactic| (rw [$h:ident]; simp (disch := decide) only [nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair, cast_cast, cast_eq] <;> rfl))

open Lean Parser Tactic in
/-- Evaluate a stretch of operations at one buffer, from contents of which the listed facts are recorded. -/
macro "stage " h:ident " [" fs:simpLemma,* "]" : tactic =>
  `(tactic| (rw [$h:ident]; simp (disch := decide) only [nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair, cast_cast, cast_eq, $fs,*] <;> rfl))

set_option maxHeartbeats 4000000 in
/-- After the 321 operations, from any contents V, the two result buffers hold their stages of the argument arrays and the arguments are unchanged. -/
theorem after_ops (V : Valuation τ sig (Elt F)) : Goal V (after (ops (F := F)) V) := by
  unfold ops
  -- operations 0 … 31: what the buffers still to be read hold afterwards
  iterate 32 rw [after_cons]
  refine gen_step (Q := Goal V) ?_
  intro W1 hW1
  have f1_main_v21 : W1 (Proc.devRef .tc main_v21) = val_main_v21 (F := F) (V (Proc.devRef .tc main_arg1)) := by
    stage0 hW1
  have f1_main_v24 : W1 (Proc.devRef .tc main_v24) = val_main_v24 (F := F) := by
    stage0 hW1
  have f1_main_v25 : W1 (Proc.devRef .tc main_v25) = val_main_v25 (F := F) (V (Proc.devRef .tc main_arg0)) := by
    stage0 hW1
  have f1_main_v27 : W1 (Proc.devRef .tc main_v27) = val_main_v27 (F := F) := by
    stage0 hW1
  have f1_main_v29 : W1 (Proc.devRef .tc main_v29) = val_main_v29 (F := F) := by
    stage0 hW1
  have f1_main_arg0 : W1 (Proc.devRef .tc main_arg0) = V (Proc.devRef .tc main_arg0) := by
    stage0 hW1
  have f1_main_arg1 : W1 (Proc.devRef .tc main_arg1) = V (Proc.devRef .tc main_arg1) := by
    stage0 hW1
  have f1_main_arg2 : W1 (Proc.devRef .tc main_arg2) = V (Proc.devRef .tc main_arg2) := by
    stage0 hW1
  have f1_main_arg3 : W1 (Proc.devRef .tc main_arg3) = V (Proc.devRef .tc main_arg3) := by
    stage0 hW1
  have f1_main_arg4 : W1 (Proc.devRef .tc main_arg4) = V (Proc.devRef .tc main_arg4) := by
    stage0 hW1
  have f1_main_arg5 : W1 (Proc.devRef .tc main_arg5) = V (Proc.devRef .tc main_arg5) := by
    stage0 hW1
  clear hW1
  -- operations 32 … 63: what the buffers still to be read hold afterwards
  iterate 32 rw [after_cons]
  refine gen_step (Q := Goal V) ?_
  intro W2 hW2
  have f2_main_v21 : W2 (Proc.devRef .tc main_v21) = val_main_v21 (F := F) (V (Proc.devRef .tc main_arg1)) := by
    stage hW2 [f1_main_v21, f1_main_v24, f1_main_v25, f1_main_v27, f1_main_v29, f1_main_arg0, f1_main_arg1, f1_main_arg2, f1_main_arg3, f1_main_arg4, f1_main_arg5]
  have f2_main_v24 : W2 (Proc.devRef .tc main_v24) = val_main_v24 (F := F) := by
    stage hW2 [f1_main_v21, f1_main_v24, f1_main_v25, f1_main_v27, f1_main_v29, f1_main_arg0, f1_main_arg1, f1_main_arg2, f1_main_arg3, f1_main_arg4, f1_main_arg5]
  have f2_main_v25 : W2 (Proc.devRef .tc main_v25) = val_main_v25 (F := F) (V (Proc.devRef .tc main_arg0)) := by
    stage hW2 [f1_main_v21, f1_main_v24, f1_main_v25, f1_main_v27, f1_main_v29, f1_main_arg0, f1_main_arg1, f1_main_arg2, f1_main_arg3, f1_main_arg4, f1_main_arg5]
  have f2_main_v27 : W2 (Proc.devRef .tc main_v27) = val_main_v27 (F := F) := by
    stage hW2 [f1_main_v21, f1_main_v24, f1_main_v25, f1_main_v27, f1_main_v29, f1_main_arg0, f1_main_arg1, f1_main_arg2, f1_main_arg3, f1_main_arg4, f1_main_arg5]
  have f2_main_v29 : W2 (Proc.devRef .tc main_v29) = val_main_v29 (F := F) := by
    stage hW2 [f1_main_v21, f1_main_v24, f1_main_v25, f1_main_v27, f1_main_v29, f1_main_arg0, f1_main_arg1, f1_main_arg2, f1_main_arg3, f1_main_arg4, f1_main_arg5]
  have f2_main_v42 : W2 (Proc.devRef .tc main_v42) = val_main_v42 (F := F) (V (Proc.devRef .tc main_arg1)) := by
    stage hW2 [f1_main_v21, f1_main_v24, f1_main_v25, f1_main_v27, f1_main_v29, f1_main_arg0, f1_main_arg1, f1_main_arg2, f1_main_arg3, f1_main_arg4, f1_main_arg5]
  have f2_main_v51 : W2 (Proc.devRef .tc main_v51) = val_main_v51 (F := F) (V (Proc.devRef .tc main_arg1)) := by
    stage hW2 [f1_main_v21, f1_main_v24, f1_main_v25, f1_main_v27, f1_main_v29, f1_main_arg0, f1_main_arg1, f1_main_arg2, f1_main_arg3, f1_main_arg4, f1_main_arg5]
  have f2_main_arg0 : W2 (Proc.devRef .tc main_arg0) = V (Proc.devRef .tc main_arg0) := by
    stage hW2 [f1_main_v21, f1_main_v24, f1_main_v25, f1_main_v27, f1_main_v29, f1_main_arg0, f1_main_arg1, f1_main_arg2, f1_main_arg3, f1_main_arg4, f1_main_arg5]
  have f2_main_arg1 : W2 (Proc.devRef .tc main_arg1) = V (Proc.devRef .tc main_arg1) := by
    stage hW2 [f1_main_v21, f1_main_v24, f1_main_v25, f1_main_v27, f1_main_v29, f1_main_arg0, f1_main_arg1, f1_main_arg2, f1_main_arg3, f1_main_arg4, f1_main_arg5]
  have f2_main_arg2 : W2 (Proc.devRef .tc main_arg2) = V (Proc.devRef .tc main_arg2) := by
    stage hW2 [f1_main_v21, f1_main_v24, f1_main_v25, f1_main_v27, f1_main_v29, f1_main_arg0, f1_main_arg1, f1_main_arg2, f1_main_arg3, f1_main_arg4, f1_main_arg5]
  have f2_main_arg3 : W2 (Proc.devRef .tc main_arg3) = V (Proc.devRef .tc main_arg3) := by
    stage hW2 [f1_main_v21, f1_main_v24, f1_main_v25, f1_main_v27, f1_main_v29, f1_main_arg0, f1_main_arg1, f1_main_arg2, f1_main_arg3, f1_main_arg4, f1_main_arg5]
  have f2_main_arg4 : W2 (Proc.devRef .tc main_arg4) = V (Proc.devRef .tc main_arg4) := by
    stage hW2 [f1_main_v21, f1_main_v24, f1_main_v25, f1_main_v27, f1_main_v29, f1_main_arg0, f1_main_arg1, f1_main_arg2, f1_main_arg3, f1_main_arg4, f1_main_arg5]
  have f2_main_arg5 : W2 (Proc.devRef .tc main_arg5) = V (Proc.devRef .tc main_arg5) := by
    stage hW2 [f1_main_v21, f1_main_v24, f1_main_v25, f1_main_v27, f1_main_v29, f1_main_arg0, f1_main_arg1, f1_main_arg2, f1_main_arg3, f1_main_arg4, f1_main_arg5]
  clear hW2 f1_main_v21 f1_main_v24 f1_main_v25 f1_main_v27 f1_main_v29 f1_main_arg0 f1_main_arg1 f1_main_arg2 f1_main_arg3 f1_main_arg4 f1_main_arg5
  -- operations 64 … 95: what the buffers still to be read hold afterwards
  iterate 32 rw [after_cons]
  refine gen_step (Q := Goal V) ?_
  intro W3 hW3
  have f3_main_v21 : W3 (Proc.devRef .tc main_v21) = val_main_v21 (F := F) (V (Proc.devRef .tc main_arg1)) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_v24 : W3 (Proc.devRef .tc main_v24) = val_main_v24 (F := F) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_v25 : W3 (Proc.devRef .tc main_v25) = val_main_v25 (F := F) (V (Proc.devRef .tc main_arg0)) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_v61 : W3 (Proc.devRef .tc main_v61) = val_main_v61 (F := F) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_v62 : W3 (Proc.devRef .tc main_v62) = val_main_v62 (F := F) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_v70 : W3 (Proc.devRef .tc main_v70) = val_main_v70 (F := F) (V (Proc.devRef .tc main_arg1)) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_v72 : W3 (Proc.devRef .tc main_v72) = val_main_v72 (F := F) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_arg0 : W3 (Proc.devRef .tc main_arg0) = V (Proc.devRef .tc main_arg0) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_arg1 : W3 (Proc.devRef .tc main_arg1) = V (Proc.devRef .tc main_arg1) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_arg2 : W3 (Proc.devRef .tc main_arg2) = V (Proc.devRef .tc main_arg2) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_arg3 : W3 (Proc.devRef .tc main_arg3) = V (Proc.devRef .tc main_arg3) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_arg4 : W3 (Proc.devRef .tc main_arg4) = V (Proc.devRef .tc main_arg4) := by
    stage hW3 [f2_main_v21, f2_main_v24, f2_main_v25, f2_main_v27, f2_main_v29, f2_main_v42, f2_main_v51, f2_main_arg0, f2_main_arg1, f2_main_arg2, f2_main_arg3, f2_main_arg4, f2_main_arg5]
  have f3_main_arg5 : W3 (Proc.devRef .tc main_arg5) = V (Proc.devRef .tc main_arg5) := by
    stage hW3 [f2_main_v21, f2_main_v24, f2_main_v25, f2_main_v27, f2_main_v29, f2_main_v42, f2_main_v51, f2_main_arg0, f2_main_arg1, f2_main_arg2, f2_main_arg3, f2_main_arg4, f2_main_arg5]
  clear hW3 f2_main_v21 f2_main_v24 f2_main_v25 f2_main_v27 f2_main_v29 f2_main_v42 f2_main_v51 f2_main_arg0 f2_main_arg1 f2_main_arg2 f2_main_arg3 f2_main_arg4 f2_main_arg5
  -- operations 96 … 127: what the buffers still to be read hold afterwards
  iterate 32 rw [after_cons]
  refine gen_step (Q := Goal V) ?_
  intro W4 hW4
  have f4_main_v21 : W4 (Proc.devRef .tc main_v21) = val_main_v21 (F := F) (V (Proc.devRef .tc main_arg1)) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_v24 : W4 (Proc.devRef .tc main_v24) = val_main_v24 (F := F) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_v25 : W4 (Proc.devRef .tc main_v25) = val_main_v25 (F := F) (V (Proc.devRef .tc main_arg0)) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_v61 : W4 (Proc.devRef .tc main_v61) = val_main_v61 (F := F) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_v62 : W4 (Proc.devRef .tc main_v62) = val_main_v62 (F := F) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_v76 : W4 (Proc.devRef .tc main_v76) = val_main_v76 (F := F) (V (Proc.devRef .tc main_arg1)) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_v79 : W4 (Proc.devRef .tc main_v79) = val_main_v79 (F := F) (V (Proc.devRef .tc main_arg0)) (V (Proc.devRef .tc main_arg2)) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_v97 : W4 (Proc.devRef .tc main_v97) = val_main_v97 (F := F) (V (Proc.devRef .tc main_arg0)) (V (Proc.devRef .tc main_arg1)) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_v98 : W4 (Proc.devRef .tc main_v98) = val_main_v98 (F := F) (V (Proc.devRef .tc main_arg2)) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_arg0 : W4 (Proc.devRef .tc main_arg0) = V (Proc.devRef .tc main_arg0) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_arg1 : W4 (Proc.devRef .tc main_arg1) = V (Proc.devRef .tc main_arg1) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_arg2 : W4 (Proc.devRef .tc main_arg2) = V (Proc.devRef .tc main_arg2) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_arg3 : W4 (Proc.devRef .tc main_arg3) = V (Proc.devRef .tc main_arg3) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_arg4 : W4 (Proc.devRef .tc main_arg4) = V (Proc.devRef .tc main_arg4) := by
    stage hW4 [f3_main_v21, f3_main_v24, f3_main_v25, f3_main_v61, f3_main_v62, f3_main_v70, f3_main_v72, f3_main_arg0, f3_main_arg1, f3_main_arg2, f3_main_arg3, f3_main_arg4, f3_main_arg5]
  have f4_main_arg5 : W4 (Proc.devRef .tc main_arg5) = V (Proc.devRef .tc main_arg5) := by
    stage hW4 [f3_main_v21, f3_main_v24, f3_main_v25, f3_main_v61, f3_main_v62, f3_main_v70, f3_main_v72, f3_main_arg0, f3_main_arg1, f3_main_arg2, f3_main_arg3, f3_main_arg4, f3_main_arg5]
  clear hW4 f3_main_v21 f3_main_v24 f3_main_v25 f3_main_v61 f3_main_v62 f3_main_v70 f3_main_v72 f3_main_arg0 f3_main_arg1 f3_main_arg2 f3_main_arg3 f3_main_arg4 f3_main_arg5
  -- operations 128 … 159: what the buffers still to be read hold afterwards
  iterate 32 rw [after_cons]
  refine gen_step (Q := Goal V) ?_
  intro W5 hW5
  have f5_main_v21 : W5 (Proc.devRef .tc main_v21) = val_main_v21 (F := F) (V (Proc.devRef .tc main_arg1)) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_v24 : W5 (Proc.devRef .tc main_v24) = val_main_v24 (F := F) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_v101 : W5 (Proc.devRef .tc main_v101) = val_main_v101 (F := F) (V (Proc.devRef .tc main_arg0)) (V (Proc.devRef .tc main_arg1)) (V (Proc.devRef .tc main_arg2)) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_v122 : W5 (Proc.devRef .tc main_v122) = val_main_v122 (F := F) (V (Proc.devRef .tc main_arg0)) (V (Proc.devRef .tc main_arg1)) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_v124 : W5 (Proc.devRef .tc main_v124) = val_main_v124 (F := F) (V (Proc.devRef .tc main_arg2)) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_arg0 : W5 (Proc.devRef .tc main_arg0) = V (Proc.devRef .tc main_arg0) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_arg1 : W5 (Proc.devRef .tc main_arg1) = V (Proc.devRef .tc main_arg1) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_arg2 : W5 (Proc.devRef .tc main_arg2) = V (Proc.devRef .tc main_arg2) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_arg3 : W5 (Proc.devRef .tc main_arg3) = V (Proc.devRef .tc main_arg3) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_arg4 : W5 (Proc.devRef .tc main_arg4) = V (Proc.devRef .tc main_arg4) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  have f5_main_arg5 : W5 (Proc.devRef .tc main_arg5) = V (Proc.devRef .tc main_arg5) := by
    stage hW5 [f4_main_v21, f4_main_v24, f4_main_v25, f4_main_v61, f4_main_v62, f4_main_v76, f4_main_v79, f4_main_v97, f4_main_v98, f4_main_arg0, f4_main_arg1, f4_main_arg2, f4_main_arg3, f4_main_arg4, f4_main_arg5]
  clear hW5 f4_main_v21 f4_main_v24 f4_main_v25 f4_main_v61 f4_main_v62 f4_main_v76 f4_main_v79 f4_main_v97 f4_main_v98 f4_main_arg0 f4_main_arg1 f4_main_arg2 f4_main_arg3 f4_main_arg4 f4_main_arg5
  -- operations 160 … 191: what the buffers still to be read hold afterwards
  iterate 32 rw [after_cons]
  refine gen_step (Q := Goal V) ?_
  intro W6 hW6
  have f6_main_v21 : W6 (Proc.devRef .tc main_v21) = val_main_v21 (F := F) (V (Proc.devRef .tc main_arg1)) := by
    stage hW6 [f5_main_v21, f5_main_v24, f5_main_v101, f5_main_v122, f5_main_v124, f5_main_arg0, f5_main_arg1, f5_main_arg2, f5_main_arg3, f5_main_arg4, f5_main_arg5]
  have f6_main_v130 : W6 (Proc.devRef .tc main_v130) = val_main_v130 (F := F) (V (Proc.devRef .tc main_arg0)) (V (Proc.devRef .tc main_arg1)) (V (Proc.devRef .tc main_arg2)) (V (Proc.devRef .tc main_arg3)) := by
    stage hW6 [f5_main_v21, f5_main_v24, f5_main_v101, f5_main_v122, f5_main_v124, f5_main_arg0, f5_main_arg1, f5_main_arg2, f5_main_arg3, f5_main_arg4, f5_main_arg5]
  have f6_main_v132 : W6 (Proc.devRef .tc main_v132) = val_main_v132 (F := F) := by
    stage hW6 [f5_main_v21, f5_main_v24, f5_main_v101, f5_main_v122, f5_main_v124, f5_main_arg0, f5_main_arg1, f5_main_arg2, f5_main_arg3, f5_main_arg4, f5_main_arg5]
  have f6_main_v134 : W6 (Proc.devRef .tc main_v134) = val_main_v134 (F := F) := by
    stage hW6 [f5_main_v21, f5_main_v24, f5_main_v101, f5_main_v122, f5_main_v124, f5_main_arg0, f5_main_arg1, f5_main_arg2, f5_main_arg3, f5_main_arg4, f5_main_arg5]
  have f6_main_v144 : W6 (Proc.devRef .tc main_v144) = val_main_v144 (F := F) (V (Proc.devRef .tc main_arg1)) := by
    stage hW6 [f5_main_v21, f5_main_v24, f5_main_v101, f5_main_v122, f5_main_v124, f5_main_arg0, f5_main_arg1, f5_main_arg2, f5_main_arg3, f5_main_arg4, f5_main_arg5]
  have f6_main_v146 : W6 (Proc.devRef .tc main_v146) = val_main_v146 (F := F) (V (Proc.devRef .tc main_arg1)) := by
    stage hW6 [f5_main_v21, f5_main_v24, f5_main_v101, f5_main_v122, f5_main_v124, f5_main_arg0, f5_main_arg1, f5_main_arg2, f5_main_arg3, f5_main_arg4, f5_main_arg5]
  have f6_main_call4_v1 : W6 (Proc.devRef .tc main_call4_v1) = val_main_call4_v1 (F := F) := by
    stage hW6 [f5_main_v21, f5_main_v24, f5_main_v101, f5_main_v122, f5_main_v124, f5_main_arg0, f5_main_arg1, f5_main_arg2, f5_main_arg3, f5_main_arg4, f5_main_arg5]
  have f6_main_arg0 : W6 (Proc.devRef .tc main_arg0) = V (Proc.devRef .tc main_arg0) := by
    stage hW6 [f5_main_v21, f5_main_v24, f5_main_v101, f5_main_v122, f5_main_v124, f5_main_arg0, f5_main_arg1, f5_main_arg2, f5_main_arg3, f5_main_arg4, f5_main_arg5]
  have f6_main_arg1 : W6 (Proc.devRef .tc main_arg1) = V (Proc.devRef .tc main_arg1) := by
    stage hW6 [f5_main_v21, f5_main_v24, f5_main_v101, f5_main_v122, f5_main_v124, f5_main_arg0, f5_main_arg1, f5_main_arg2, f5_main_arg3, f5_main_arg4, f5_main_arg5]
  have f6_main_arg2 : W6 (Proc.devRef .tc main_arg2) = V (Proc.devRef .tc main_arg2) := by
    stage hW6 [f5_main_v21, f5_main_v24, f5_main_v101, f5_main_v122, f5_main_v124, f5_main_arg0, f5_main_arg1, f5_main_arg2, f5_main_arg3, f5_main_arg4, f5_main_arg5]
  have f6_main_arg3 : W6 (Proc.devRef .tc main_arg3) = V (Proc.devRef .tc main_arg3) := by
    stage hW6 [f5_main_v21, f5_main_v24, f5_main_v101, f5_main_v122, f5_main_v124, f5_main_arg0, f5_main_arg1, f5_main_arg2, f5_main_arg3, f5_main_arg4, f5_main_arg5]
  have f6_main_arg4 : W6 (Proc.devRef .tc main_arg4) = V (Proc.devRef .tc main_arg4) := by
    stage hW6 [f5_main_v21, f5_main_v24, f5_main_v101, f5_main_v122, f5_main_v124, f5_main_arg0, f5_main_arg1, f5_main_arg2, f5_main_arg3, f5_main_arg4, f5_main_arg5]
  have f6_main_arg5 : W6 (Proc.devRef .tc main_arg5) = V (Proc.devRef .tc main_arg5) := by
    stage hW6 [f5_main_v21, f5_main_v24, f5_main_v101, f5_main_v122, f5_main_v124, f5_main_arg0, f5_main_arg1, f5_main_arg2, f5_main_arg3, f5_main_arg4, f5_main_arg5]
  clear hW6 f5_main_v21 f5_main_v24 f5_main_v101 f5_main_v122 f5_main_v124 f5_main_arg0 f5_main_arg1 f5_main_arg2 f5_main_arg3 f5_main_arg4 f5_main_arg5
  -- operations 192 … 223: what the buffers still to be read hold afterwards
  iterate 32 rw [after_cons]
  refine gen_step (Q := Goal V) ?_
  intro W7 hW7
  have c7_main_v144 : (TRef.of (T := ⟨S2048, .i1⟩) main_v144).ofBuf (val_main_v144 (F := F) (V (Proc.devRef .tc main_arg1))) = val_main_v144 (F := F) (V (Proc.devRef .tc main_arg1)) := rfl
  have c7_main_v146 : (TRef.of (T := ⟨S2048, .f32⟩) main_v146).ofBuf (val_main_v146 (F := F) (V (Proc.devRef .tc main_arg1))) = val_main_v146 (F := F) (V (Proc.devRef .tc main_arg1)) := rfl
  have c7_main_call4_v1 : (TRef.of (T := ⟨S2048, .f32⟩) main_call4_v1).ofBuf (val_main_call4_v1 (F := F)) = val_main_call4_v1 (F := F) := rfl
  have f7_main_v21 : W7 (Proc.devRef .tc main_v21) = val_main_v21 (F := F) (V (Proc.devRef .tc main_arg1)) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_v130 : W7 (Proc.devRef .tc main_v130) = val_main_v130 (F := F) (V (Proc.devRef .tc main_arg0)) (V (Proc.devRef .tc main_arg1)) (V (Proc.devRef .tc main_arg2)) (V (Proc.devRef .tc main_arg3)) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_v166 : W7 (Proc.devRef .tc main_v166) = val_main_v166 (F := F) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_v167 : W7 (Proc.devRef .tc main_v167) = val_main_v167 (F := F) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_v171 : W7 (Proc.devRef .tc main_v171) = val_main_v171 (F := F) (V (Proc.devRef .tc main_arg1)) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_cst_38 : W7 (Proc.devRef .tc main_cst_38) = val_main_cst_38 (F := F) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_arg0 : W7 (Proc.devRef .tc main_arg0) = V (Proc.devRef .tc main_arg0) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_arg1 : W7 (Proc.devRef .tc main_arg1) = V (Proc.devRef .tc main_arg1) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_arg2 : W7 (Proc.devRef .tc main_arg2) = V (Proc.devRef .tc main_arg2) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_arg3 : W7 (Proc.devRef .tc main_arg3) = V (Proc.devRef .tc main_arg3) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_arg4 : W7 (Proc.devRef .tc main_arg4) = V (Proc.devRef .tc main_arg4) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  have f7_main_arg5 : W7 (Proc.devRef .tc main_arg5) = V (Proc.devRef .tc main_arg5) := by
    stage hW7 [f6_main_v21, f6_main_v130, f6_main_v132, f6_main_v134, f6_main_v144, f6_main_v146, f6_main_call4_v1, f6_main_arg0, f6_main_arg1, f6_main_arg2, f6_main_arg3, f6_main_arg4, f6_main_arg5, c7_main_v144, c7_main_v146, c7_main_call4_v1]
  clear c7_main_v144 c7_main_v146 c7_main_call4_v1
  clear hW7 f6_main_v21 f6_main_v130 f6_main_v132 f6_main_v134 f6_main_v144 f6_main_v146 f6_main_call4_v1 f6_main_arg0 f6_main_arg1 f6_main_arg2 f6_main_arg3 f6_main_arg4 f6_main_arg5
  -- operations 224 … 255: what the buffers still to be read hold afterwards
  iterate 32 rw [after_cons]
  refine gen_step (Q := Goal V) ?_
  intro W8 hW8
  have f8_main_v130 : W8 (Proc.devRef .tc main_v130) = val_main_v130 (F := F) (V (Proc.devRef .tc main_arg0)) (V (Proc.devRef .tc main_arg1)) (V (Proc.devRef .tc main_arg2)) (V (Proc.devRef .tc main_arg3)) := by
    stage hW8 [f7_main_v21, f7_main_v130, f7_main_v166, f7_main_v167, f7_main_v171, f7_main_cst_38, f7_main_arg0, f7_main_arg1, f7_main_arg2, f7_main_arg3, f7_main_arg4, f7_main_arg5]
  have f8_main_v166 : W8 (Proc.devRef .tc main_v166) = val_main_v166 (F := F) := by
    stage hW8 [f7_main_v21, f7_main_v130, f7_main_v166, f7_main_v167, f7_main_v171, f7_main_cst_38, f7_main_arg0, f7_main_arg1, f7_main_arg2, f7_main_arg3, f7_main_arg4, f7_main_arg5]
  have f8_main_v167 : W8 (Proc.devRef .tc main_v167) = val_main_v167 (F := F) := by
    stage hW8 [f7_main_v21, f7_main_v130, f7_main_v166, f7_main_v167, f7_main_v171, f7_main_cst_38, f7_main_arg0, f7_main_arg1, f7_main_arg2, f7_main_arg3, f7_main_arg4, f7_main_arg5]
  have f8_main_v181 : W8 (Proc.devRef .tc main_v181) = val_main_v181 (F := F) (V (Proc.devRef .tc main_arg1)) := by
    stage hW8 [f7_main_v21, f7_main_v130, f7_main_v166, f7_main_v167, f7_main_v171, f7_main_cst_38, f7_main_arg0, f7_main_arg1, f7_main_arg2, f7_main_arg3, f7_main_arg4, f7_main_arg5]
  have f8_main_v184 : W8 (Proc.devRef .tc main_v184) = val_main_v184 (F := F) (V (Proc.devRef .tc main_arg0)) (V (Proc.devRef .tc main_arg1)) (V (Proc.devRef .tc main_arg2)) (V (Proc.devRef .tc main_arg3)) (V (Proc.devRef .tc main_arg4)) := by
    stage hW8 [f7_main_v21, f7_main_v130, f7_main_v166, f7_main_v167, f7_main_v171, f7_main_cst_38, f7_main_arg0, f7_main_arg1, f7_main_arg2, f7_main_arg3, f7_main_arg4, f7_main_arg5]
  have f8_main_v185 : W8 (Proc.devRef .tc main_v185) = val_main_v185 (F := F) := by
    stage hW8 [f7_main_v21, f7_main_v130, f7_main_v166, f7_main_v167, f7_main_v171, f7_main_cst_38, f7_main_arg0, f7_main_arg1, f7_main_arg2, f7_main_arg3, f7_main_arg4, f7_main_arg5]
  have f8_main_v186 : W8 (Proc.devRef .tc main_v186) = val_main_v186 (F := F) (V (Proc.devRef .tc main_arg1)) := by
    stage hW8 [f7_main_v21, f7_main_v130, f7_main_v166, f7_main_v167, f7_main_v171, f7_main_cst_38, f7_main_arg0, f7_main_arg1, f7_main_arg2, f7_main_arg3, f7_main_arg4, f7_main_arg5]
  have f8_main_v193 : W8 (Proc.devRef .tc main_v193) = val_main_v193 (F := F) (V (Proc.devRef .tc main_arg0)) (V (Proc.devRef .tc main_arg1)) (V (Proc.devRef .tc main_arg2)) (V (Proc.devRef .tc main_arg3)) := by
    stage hW8 [f7_main_v21, f7_main_v130, f7_main_v166, f7_main_v167, f7_main_v171, f7_main_cst_38, f7_main_arg0, f7_main_arg1, f7_main_arg2, f7_main_arg3, f7_main_arg4, f7_main_arg5]
  have f8_main_arg0 : W8 (Proc.devRef .tc main_arg0) = V (Proc.devRef .tc main_arg0) := by
    stage hW8 [f7_main_v21, f7_main_v130, f7_main_v166, f7_main_v167, f7_main_v171, f7_main_cst_38, f7_main_arg0, f7_main_arg1, f7_main_arg2, f7_main_arg3, f7_main_arg4, f7_main_arg5]
  have f8_main_arg1 : W8 (Proc.devRef .tc main_arg1) = V (Proc.devRef .tc main_arg1) := by
    stage hW8 [f7_main_v21, f7_main_v130, f7_main_v166, f7_main_v167, f7_main_v171, f7_main_cst_38, f7_main_arg0, f7_main_arg1, f7_main_arg2, f7_main_arg3, f7_main_arg4, f7_main_arg5]
  have f8_main_arg2 : W8 (Proc.devRef .tc main_arg2) = V (Proc.devRef .tc main_arg2) := by
    stage hW8 [f7_main_v21, f7_main_v130, f7_main_v166, f7_main_v167, f7_main_v171, f7_main_cst_38, f7_main_arg0, f7_main_arg1, f7_main_arg2, f7_main_arg3, f7_main_arg4, f7_main_arg5]
  have f8_main_arg3 : W8 (Proc.devRef .tc main_arg3) = V (Proc.devRef .tc main_arg3) := by
    stage hW8 [f7_main_v21, f7_main_v130, f7_main_v166, f7_main_v167, f7_main_v171, f7_main_cst_38, f7_main_arg0, f7_main_arg1, f7_main_arg2, f7_main_arg3, f7_main_arg4, f7_main_arg5]
  have f8_main_arg4 : W8 (Proc.devRef .tc main_arg4) = V (Proc.devRef .tc main_arg4) := by
    stage hW8 [f7_main_v21, f7_main_v130, f7_main_v166, f7_main_v167, f7_main_v171, f7_main_cst_38, f7_main_arg0, f7_main_arg1, f7_main_arg2, f7_main_arg3, f7_main_arg4, f7_main_arg5]
  have f8_main_arg5 : W8 (Proc.devRef .tc main_arg5) = V (Proc.devRef .tc main_arg5) := by
    stage hW8 [f7_main_v21, f7_main_v130, f7_main_v166, f7_main_v167, f7_main_v171, f7_main_cst_38, f7_main_arg0, f7_main_arg1, f7_main_arg2, f7_main_arg3, f7_main_arg4, f7_main_arg5]
  clear hW8 f7_main_v21 f7_main_v130 f7_main_v166 f7_main_v167 f7_main_v171 f7_main_cst_38 f7_main_arg0 f7_main_arg1 f7_main_arg2 f7_main_arg3 f7_main_arg4 f7_main_arg5
  -- operations 256 … 287: what the buffers still to be read hold afterwards
  iterate 32 rw [after_cons]
  refine gen_step (Q := Goal V) ?_
  intro W9 hW9
  have f9_main_v130 : W9 (Proc.devRef .tc main_v130) = val_main_v130 (F := F) (V (Proc.devRef .tc main_arg0)) (V (Proc.devRef .tc main_arg1)) (V (Proc.devRef .tc main_arg2)) (V (Proc.devRef .tc main_arg3)) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_v167 : W9 (Proc.devRef .tc main_v167) = val_main_v167 (F := F) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_v206 : W9 (Proc.devRef .tc main_v206) = val_main_v206 (F := F) (V (Proc.devRef .tc main_arg0)) (V (Proc.devRef .tc main_arg1)) (V (Proc.devRef .tc main_arg2)) (V (Proc.devRef .tc main_arg3)) (V (Proc.devRef .tc main_arg4)) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_v207 : W9 (Proc.devRef .tc main_v207) = val_main_v207 (F := F) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_v217 : W9 (Proc.devRef .tc main_v217) = val_main_v217 (F := F) (V (Proc.devRef .tc main_arg0)) (V (Proc.devRef .tc main_arg1)) (V (Proc.devRef .tc main_arg2)) (V (Proc.devRef .tc main_arg3)) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_v219 : W9 (Proc.devRef .tc main_v219) = val_main_v219 (F := F) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_arg0 : W9 (Proc.devRef .tc main_arg0) = V (Proc.devRef .tc main_arg0) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_arg1 : W9 (Proc.devRef .tc main_arg1) = V (Proc.devRef .tc main_arg1) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_arg2 : W9 (Proc.devRef .tc main_arg2) = V (Proc.devRef .tc main_arg2) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_arg3 : W9 (Proc.devRef .tc main_arg3) = V (Proc.devRef .tc main_arg3) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_arg4 : W9 (Proc.devRef .tc main_arg4) = V (Proc.devRef .tc main_arg4) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  have f9_main_arg5 : W9 (Proc.devRef .tc main_arg5) = V (Proc.devRef .tc main_arg5) := by
    stage hW9 [f8_main_v130, f8_main_v166, f8_main_v167, f8_main_v181, f8_main_v184, f8_main_v185, f8_main_v186, f8_main_v193, f8_main_arg0, f8_main_arg1, f8_main_arg2, f8_main_arg3, f8_main_arg4, f8_main_arg5]
  clear hW9 f8_main_v130 f8_main_v166 f8_main_v167 f8_main_v181 f8_main_v184 f8_main_v185 f8_main_v186 f8_main_v193 f8_main_arg0 f8_main_arg1 f8_main_arg2 f8_main_arg3 f8_main_arg4 f8_main_arg5
  -- operations 288 … 305: what the buffers still to be read hold afterwards
  iterate 18 rw [after_cons]
  refine gen_step (Q := Goal V) ?_
  intro W10 hW10
  have f10_main_v235 : W10 (Proc.devRef .tc main_v235) = val_main_v235 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
    stage hW10 [f9_main_v130, f9_main_v167, f9_main_v206, f9_main_v207, f9_main_v217, f9_main_v219, f9_main_arg0, f9_main_arg1, f9_main_arg2, f9_main_arg3, f9_main_arg4, f9_main_arg5]
  have f10_main_arg0 : W10 (Proc.devRef .tc main_arg0) = V (Proc.devRef .tc main_arg0) := by
    stage hW10 [f9_main_v130, f9_main_v167, f9_main_v206, f9_main_v207, f9_main_v217, f9_main_v219, f9_main_arg0, f9_main_arg1, f9_main_arg2, f9_main_arg3, f9_main_arg4, f9_main_arg5]
  have f10_main_arg1 : W10 (Proc.devRef .tc main_arg1) = V (Proc.devRef .tc main_arg1) := by
    stage hW10 [f9_main_v130, f9_main_v167, f9_main_v206, f9_main_v207, f9_main_v217, f9_main_v219, f9_main_arg0, f9_main_arg1, f9_main_arg2, f9_main_arg3, f9_main_arg4, f9_main_arg5]
  have f10_main_arg2 : W10 (Proc.devRef .tc main_arg2) = V (Proc.devRef .tc main_arg2) := by
    stage hW10 [f9_main_v130, f9_main_v167, f9_main_v206, f9_main_v207, f9_main_v217, f9_main_v219, f9_main_arg0, f9_main_arg1, f9_main_arg2, f9_main_arg3, f9_main_arg4, f9_main_arg5]
  have f10_main_arg3 : W10 (Proc.devRef .tc main_arg3) = V (Proc.devRef .tc main_arg3) := by
    stage hW10 [f9_main_v130, f9_main_v167, f9_main_v206, f9_main_v207, f9_main_v217, f9_main_v219, f9_main_arg0, f9_main_arg1, f9_main_arg2, f9_main_arg3, f9_main_arg4, f9_main_arg5]
  have f10_main_arg4 : W10 (Proc.devRef .tc main_arg4) = V (Proc.devRef .tc main_arg4) := by
    stage hW10 [f9_main_v130, f9_main_v167, f9_main_v206, f9_main_v207, f9_main_v217, f9_main_v219, f9_main_arg0, f9_main_arg1, f9_main_arg2, f9_main_arg3, f9_main_arg4, f9_main_arg5]
  have f10_main_arg5 : W10 (Proc.devRef .tc main_arg5) = V (Proc.devRef .tc main_arg5) := by
    stage hW10 [f9_main_v130, f9_main_v167, f9_main_v206, f9_main_v207, f9_main_v217, f9_main_v219, f9_main_arg0, f9_main_arg1, f9_main_arg2, f9_main_arg3, f9_main_arg4, f9_main_arg5]
  clear hW10 f9_main_v130 f9_main_v167 f9_main_v206 f9_main_v207 f9_main_v217 f9_main_v219 f9_main_arg0 f9_main_arg1 f9_main_arg2 f9_main_arg3 f9_main_arg4 f9_main_arg5
  -- operations 306 … 319: what the buffers still to be read hold afterwards
  iterate 14 rw [after_cons]
  refine gen_step (Q := Goal V) ?_
  intro W11 hW11
  have c11_main_v235 : (TRef.of (T := ⟨S4x512x64, .f32⟩) main_v235).ofBuf (val_main_v235 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))) = val_main_v235 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := rfl
  have f11_main_v235 : W11 (Proc.devRef .tc main_v235) = val_main_v235 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
    stage hW11 [f10_main_v235, f10_main_arg0, f10_main_arg1, f10_main_arg2, f10_main_arg3, f10_main_arg4, f10_main_arg5, c11_main_v235]
  have f11_main_call7_v5 : W11 (Proc.devRef .tc main_call7_v5) = val_main_call7_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
    stage hW11 [f10_main_v235, f10_main_arg0, f10_main_arg1, f10_main_arg2, f10_main_arg3, f10_main_arg4, f10_main_arg5, c11_main_v235]
  have f11_main_call7_v10 : W11 (Proc.devRef .tc main_call7_v10) = val_main_call7_v10 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
    stage hW11 [f10_main_v235, f10_main_arg0, f10_main_arg1, f10_main_arg2, f10_main_arg3, f10_main_arg4, f10_main_arg5, c11_main_v235]
  have f11_main_arg0 : W11 (Proc.devRef .tc main_arg0) = V (Proc.devRef .tc main_arg0) := by
    stage hW11 [f10_main_v235, f10_main_arg0, f10_main_arg1, f10_main_arg2, f10_main_arg3, f10_main_arg4, f10_main_arg5, c11_main_v235]
  have f11_main_arg1 : W11 (Proc.devRef .tc main_arg1) = V (Proc.devRef .tc main_arg1) := by
    stage hW11 [f10_main_v235, f10_main_arg0, f10_main_arg1, f10_main_arg2, f10_main_arg3, f10_main_arg4, f10_main_arg5, c11_main_v235]
  have f11_main_arg2 : W11 (Proc.devRef .tc main_arg2) = V (Proc.devRef .tc main_arg2) := by
    stage hW11 [f10_main_v235, f10_main_arg0, f10_main_arg1, f10_main_arg2, f10_main_arg3, f10_main_arg4, f10_main_arg5, c11_main_v235]
  have f11_main_arg3 : W11 (Proc.devRef .tc main_arg3) = V (Proc.devRef .tc main_arg3) := by
    stage hW11 [f10_main_v235, f10_main_arg0, f10_main_arg1, f10_main_arg2, f10_main_arg3, f10_main_arg4, f10_main_arg5, c11_main_v235]
  have f11_main_arg4 : W11 (Proc.devRef .tc main_arg4) = V (Proc.devRef .tc main_arg4) := by
    stage hW11 [f10_main_v235, f10_main_arg0, f10_main_arg1, f10_main_arg2, f10_main_arg3, f10_main_arg4, f10_main_arg5, c11_main_v235]
  have f11_main_arg5 : W11 (Proc.devRef .tc main_arg5) = V (Proc.devRef .tc main_arg5) := by
    stage hW11 [f10_main_v235, f10_main_arg0, f10_main_arg1, f10_main_arg2, f10_main_arg3, f10_main_arg4, f10_main_arg5, c11_main_v235]
  clear c11_main_v235
  clear hW11 f10_main_v235 f10_main_arg0 f10_main_arg1 f10_main_arg2 f10_main_arg3 f10_main_arg4 f10_main_arg5
  -- operations 320 … 320: what the buffers still to be read hold afterwards
  iterate 1 rw [after_cons]
  refine gen_step (Q := Goal V) ?_
  intro W12 hW12
  have c12_main_call7_v5 : (TRef.of (T := ⟨S4x512x64, .f32⟩) main_call7_v5).ofBuf (val_main_call7_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))) = val_main_call7_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := rfl
  have c12_main_call7_v10 : (TRef.of (T := ⟨S4x512x64, .f32⟩) main_call7_v10).ofBuf (val_main_call7_v10 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))) = val_main_call7_v10 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := rfl
  have f12_main_v235 : W12 (Proc.devRef .tc main_v235) = val_main_v235 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
    stage hW12 [f11_main_v235, f11_main_call7_v5, f11_main_call7_v10, f11_main_arg0, f11_main_arg1, f11_main_arg2, f11_main_arg3, f11_main_arg4, f11_main_arg5, c12_main_call7_v5, c12_main_call7_v10]
  have f12_main_v236 : W12 (Proc.devRef .tc main_v236) = val_main_v236 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
    stage hW12 [f11_main_v235, f11_main_call7_v5, f11_main_call7_v10, f11_main_arg0, f11_main_arg1, f11_main_arg2, f11_main_arg3, f11_main_arg4, f11_main_arg5, c12_main_call7_v5, c12_main_call7_v10]
  have f12_main_arg0 : W12 (Proc.devRef .tc main_arg0) = V (Proc.devRef .tc main_arg0) := by
    stage hW12 [f11_main_v235, f11_main_call7_v5, f11_main_call7_v10, f11_main_arg0, f11_main_arg1, f11_main_arg2, f11_main_arg3, f11_main_arg4, f11_main_arg5, c12_main_call7_v5, c12_main_call7_v10]
  have f12_main_arg1 : W12 (Proc.devRef .tc main_arg1) = V (Proc.devRef .tc main_arg1) := by
    stage hW12 [f11_main_v235, f11_main_call7_v5, f11_main_call7_v10, f11_main_arg0, f11_main_arg1, f11_main_arg2, f11_main_arg3, f11_main_arg4, f11_main_arg5, c12_main_call7_v5, c12_main_call7_v10]
  have f12_main_arg2 : W12 (Proc.devRef .tc main_arg2) = V (Proc.devRef .tc main_arg2) := by
    stage hW12 [f11_main_v235, f11_main_call7_v5, f11_main_call7_v10, f11_main_arg0, f11_main_arg1, f11_main_arg2, f11_main_arg3, f11_main_arg4, f11_main_arg5, c12_main_call7_v5, c12_main_call7_v10]
  have f12_main_arg3 : W12 (Proc.devRef .tc main_arg3) = V (Proc.devRef .tc main_arg3) := by
    stage hW12 [f11_main_v235, f11_main_call7_v5, f11_main_call7_v10, f11_main_arg0, f11_main_arg1, f11_main_arg2, f11_main_arg3, f11_main_arg4, f11_main_arg5, c12_main_call7_v5, c12_main_call7_v10]
  have f12_main_arg4 : W12 (Proc.devRef .tc main_arg4) = V (Proc.devRef .tc main_arg4) := by
    stage hW12 [f11_main_v235, f11_main_call7_v5, f11_main_call7_v10, f11_main_arg0, f11_main_arg1, f11_main_arg2, f11_main_arg3, f11_main_arg4, f11_main_arg5, c12_main_call7_v5, c12_main_call7_v10]
  have f12_main_arg5 : W12 (Proc.devRef .tc main_arg5) = V (Proc.devRef .tc main_arg5) := by
    stage hW12 [f11_main_v235, f11_main_call7_v5, f11_main_call7_v10, f11_main_arg0, f11_main_arg1, f11_main_arg2, f11_main_arg3, f11_main_arg4, f11_main_arg5, c12_main_call7_v5, c12_main_call7_v10]
  clear c12_main_call7_v5 c12_main_call7_v10
  clear hW12 f11_main_v235 f11_main_call7_v5 f11_main_call7_v10 f11_main_arg0 f11_main_arg1 f11_main_arg2 f11_main_arg3 f11_main_arg4 f11_main_arg5
  unfold Goal
  exact ⟨f12_main_v236, f12_main_v235, f12_main_arg0, f12_main_arg1, f12_main_arg2, f12_main_arg3, f12_main_arg4, f12_main_arg5⟩

/-- The run: every weakly fair execution of the reference terminates with the two results at their stages of the argument
    arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v236) = val_main_v236 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v235) = val_main_v235 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      have g := after_ops (F := F) (launchContents m c)
      unfold Goal at g
      exact ⟨(h c main_v236).trans g.1, (h c main_v235).trans g.2.1, (h c main_arg0).trans g.2.2.1, (h c main_arg1).trans g.2.2.2.1,
        (h c main_arg2).trans g.2.2.2.2.1, (h c main_arg3).trans g.2.2.2.2.2.1, (h c main_arg4).trans g.2.2.2.2.2.2.1, (h c main_arg5).trans g.2.2.2.2.2.2.2⟩)
    (run_seq scopedRefs_eq scopedSems_eq defs main (fun _ => ops) main_eq (fun _ => ops_sub) m ρ)

end Cert.ReferenceIdeal.RefRun

end
-- ==== Proof.Consts.lean ====
/-
  The float constants the two programs spell, as the extended reals their bit patterns denote at the
  ideal instance: `0`, `1`, `2`, `-1/2` and the two infinities.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

end Cert.Consts

end
-- ==== Proof.LibERealCoe.lean ====
/-
  Real numbers inside the extended reals: the coercion `ℝ → EReal` commutes with finite sums and with
  the maximum of a finite family, and on a real argument inside their domains the reciprocal square
  root, the power `-1/2`, the exponential and the logarithm of the ideal instance are the coerced real
  functions.  With these a computation on finite inputs is carried out in `ℝ` once and for all.
-/
import Idealize.ShloMosaic.PureOps.Ideal

noncomputable section

namespace Cert.Lib

open Idealize.ShloMosaic

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a finite nonempty family of coerced reals is the coerced maximum. -/
theorem coe_sup' {ι : Type*} (s : Finset ι) (h : s.Nonempty) (f : ι → ℝ) :
    ((s.sup' h f : ℝ) : EReal) = s.sup' h (fun i => ((f i : ℝ) : EReal)) :=
  Finset.comp_sup'_eq_sup'_comp h (fun x : ℝ => (x : EReal)) (fun a b => EReal.coe_strictMono.monotone.map_max)

/-- The larger of two coerced reals is the coerced larger one. -/
theorem coe_max (a b : ℝ) : max ((a : ℝ) : EReal) ((b : ℝ) : EReal) = ((max a b : ℝ) : EReal) :=
  (EReal.coe_strictMono.monotone.map_max).symm

/-- `1/√d` at a positive real. -/
theorem rsqrt_coe_pos {d : ℝ} (h : 0 < d) : Ideal.rsqrt (d : EReal) = (((Real.sqrt d)⁻¹ : ℝ) : EReal) := by
  rw [Ideal.rsqrt_coe, if_neg (not_lt.mpr h.le), if_neg h.ne']

/-- `d ^ (-1/2)` at a positive real is `1/√d`. -/
theorem pow_neg_half_coe_pos {d : ℝ} (h : 0 < d) :
    Ideal.pow (d : EReal) (((-(1 / 2) : ℝ)) : EReal) = (((Real.sqrt d)⁻¹ : ℝ) : EReal) := by
  rw [Ideal.pow_coe_coe]
  congr 1
  show d ^ (-(1 / 2) : ℝ) = _
  rw [Real.rpow_neg h.le, Real.sqrt_eq_rpow]

/-- The exponential of a real. -/
theorem exp_coe' (r : ℝ) : Ideal.exp (r : EReal) = ((Real.exp r : ℝ) : EReal) := rfl

/-- The logarithm at a positive real. -/
theorem log_coe_pos {r : ℝ} (h : 0 < r) : Ideal.log (r : EReal) = ((Real.log r : ℝ) : EReal) := by
  rw [Ideal.log_coe, if_neg (not_le.mpr h)]

/-- A coerced real is not an infinity: its absolute value is below `⊤`. -/
theorem abs_coe_lt_top (r : ℝ) : ((|r| : ℝ) : EReal) < ⊤ := EReal.coe_lt_top _

end Cert.Lib

end
-- ==== Proof.RScalar.lean ====
/-
  The scalar steps of the edge arrangement at the ideal instance, on real arguments: the 0/1 mask of an
  adjacency entry that is 0 or 1 is the entry itself; the select of a positive degree's power -1/2 against 0 is
  the real dinv; doubling then halving a real is the identity; a real is not an infinity; and the 32-bit integer
  arithmetic of the node numbers (all below 2^31) is the arithmetic of the naturals.
-/
import Idealize.ShloMosaic.PureOps.Ideal
import Idealize.ShloMosaic.PureOps.Ideal.Laws
import Idealize.ShloMosaic.Lib.ValueIdx
import proofs.«126667_g78520592106144_cont_sun_c4_372_13_alg».proof.Proof.Consts
import proofs.«126667_g78520592106144_cont_sun_c4_372_13_alg».proof.Proof.LibERealCoe

noncomputable section

namespace Cert.RefLib

open Idealize.ShloMosaic

/-! ### Floats -/

theorem mask_val (a : ℝ) (h : a = 0 ∨ a = 1) :
    (FloatOps.uitofp .f32 (FloatOps.cmpf (F := Ideal) (φ := .f32) .une (a : EReal) (FloatOps.ofBits .f32 0x00000000#32)) : Ideal .f32)
      = (a : EReal) := by
  show (((Ideal.cmp .une (a : EReal) (Ideal.ofBits .f32 0x00000000#32)).toNat : ℝ) : EReal) = (a : EReal)
  rw [Cert.Consts.ofBits_zero]
  rcases h with rfl | rfl
  · simp [Ideal.cmp]
  · simp [Ideal.cmp]

theorem dinv_val (d : ℝ) :
    Scalar.select (FloatOps.cmpf (F := Ideal) (φ := .f32) .ogt (d : EReal) (FloatOps.ofBits .f32 0x00000000#32))
        (FloatOps.hostPowf (F := Ideal) (φ := .f32) (d : EReal) (FloatOps.ofBits .f32 0xBF000000#32))
        (FloatOps.ofBits (F := Ideal) .f32 0x00000000#32)
      = (((if 0 < d then (Real.sqrt d)⁻¹ else 0 : ℝ)) : EReal) := by
  show Scalar.select (Ideal.cmp .ogt (d : EReal) (Ideal.ofBits .f32 0x00000000#32))
      (Ideal.pow (d : EReal) (Ideal.ofBits .f32 0xBF000000#32)) (Ideal.ofBits .f32 0x00000000#32) = _
  rw [Cert.Consts.ofBits_zero, Cert.Consts.ofBits_neg_half]
  by_cases hd : 0 < d
  · have hc : Ideal.cmp .ogt (d : EReal) 0 = 1#1 := by
      simp [Ideal.cmp, hd]
    rw [hc, if_pos hd, ValueIdx.select_one, Cert.Lib.pow_neg_half_coe_pos hd]
  · have hc : Ideal.cmp .ogt (d : EReal) 0 = 0#1 := by
      simp [Ideal.cmp, hd]
    rw [hc, if_neg hd, ValueIdx.select_zero]
    simp

/-- Doubling, halving, and the test for an infinity, on a real weight. -/
theorem scale_val (w : ℝ) :
    Scalar.select
        (FloatOps.cmpf (F := Ideal) (φ := .f32) .oeq
          (FloatOps.hostAbsf (F := Ideal) (φ := .f32)
            (FloatOps.hostDivf (F := Ideal) (φ := .f32) (FloatOps.mulf (F := Ideal) (φ := .f32) (FloatOps.ofBits .f32 0x40000000#32) (w : EReal)) (FloatOps.ofBits .f32 0x40000000#32)))
          (FloatOps.ofBits .f32 0x7F800000#32))
        (FloatOps.ofBits (F := Ideal) .f32 0x00000000#32)
        (FloatOps.hostDivf (F := Ideal) (φ := .f32) (FloatOps.mulf (F := Ideal) (φ := .f32) (FloatOps.ofBits .f32 0x40000000#32) (w : EReal)) (FloatOps.ofBits .f32 0x40000000#32))
      = (w : EReal) := by
  have hdiv : FloatOps.hostDivf (F := Ideal) (φ := .f32) (FloatOps.mulf (F := Ideal) (φ := .f32) (FloatOps.ofBits .f32 0x40000000#32) (w : EReal)) (FloatOps.ofBits .f32 0x40000000#32)
      = (w : EReal) := by
    show Ideal.div (Ideal.ofBits .f32 0x40000000#32 * (w : EReal)) (Ideal.ofBits .f32 0x40000000#32) = _
    rw [Cert.Consts.ofBits_two, Ideal.div_coe (by norm_num : (2 : ℝ) ≠ 0), ← EReal.coe_mul, ← EReal.coe_mul]
    congr 1
    ring
  rw [hdiv]
  show Scalar.select (Ideal.cmp .oeq (max (w : EReal) (-(w : EReal))) (Ideal.ofBits .f32 0x7F800000#32))
    (Ideal.ofBits .f32 0x00000000#32) (w : EReal) = _
  rw [Cert.Consts.ofBits_top]
  have hne : max (w : EReal) (-(w : EReal)) ≠ ⊤ := by
    rw [← EReal.coe_neg, Cert.Lib.coe_max]
    exact EReal.coe_ne_top _
  have hc : Ideal.cmp .oeq (max (w : EReal) (-(w : EReal))) ⊤ = 0#1 := by
    simp [Ideal.cmp, hne]
  rw [hc, ValueIdx.select_zero]

/-! ### Integers -/

theorem toInt_ofNat32 (n : Nat) (h : n < 2147483648) : (BitVec.ofNat 32 n).toInt = (n : Int) := by
  rw [BitVec.toInt_ofNat']
  have : ((n : Int)).bmod (2 ^ 32) = n := by
    rw [Int.bmod_eq_of_le] <;> omega
  exact this

/-- The wrap of a negative index is the identity on a node number. -/
theorem wrap_val (n : Nat) (h : n < 2147483648) :
    Scalar.select (IntOp.cmpi .slt (BitVec.ofNat 32 n) 0#32) (IntOp.addi (BitVec.ofNat 32 n) 2048#32) (BitVec.ofNat 32 n)
      = BitVec.ofNat 32 n := by
  have hc : IntOp.cmpi .slt (BitVec.ofNat 32 n) 0#32 = 0#1 := by
    unfold IntOp.cmpi
    have : (BitVec.ofNat 32 n).slt 0#32 = false := by
      rw [BitVec.slt_eq_decide, toInt_ofNat32 n h]
      simp
    simp [this]
  rw [hc, ValueIdx.select_zero]

theorem node_val (g i : Nat) (hg : g < 4) (hi : i < 512) :
    IntOp.addi (IntOp.muli (BitVec.ofNat 32 g) 512#32) (BitVec.ofNat 32 i) = BitVec.ofNat 32 (g * 512 + i) := by
  unfold IntOp.addi IntOp.muli
  apply BitVec.eq_of_toNat_eq
  simp only [BitVec.toNat_add, BitVec.toNat_mul, BitVec.toNat_ofNat]
  omega

/-- The 0/1 word of an equality test of two node numbers, as a float. -/
theorem eq_val (a b : Nat) (ha : a < 2147483648) (hb : b < 2147483648) :
    (FloatOps.uitofp .f32 (IntOp.cmpi .eq (BitVec.ofNat 32 a) (BitVec.ofNat 32 b)) : Ideal .f32)
      = (((if a = b then 1 else 0 : ℝ)) : EReal) := by
  show ((((IntOp.cmpi .eq (BitVec.ofNat 32 a) (BitVec.ofNat 32 b)).toNat : ℝ)) : EReal) = _
  unfold IntOp.cmpi
  by_cases hab : a = b
  · subst hab; simp
  · have : (BitVec.ofNat 32 a == BitVec.ofNat 32 b) = false := by
      rw [beq_eq_false_iff_ne]
      intro h
      have := congrArg BitVec.toNat h
      simp only [BitVec.toNat_ofNat] at this
      omega
    simp [this, hab]

end Cert.RefLib

end
-- ==== Proof.RScatter.lean ====
/-
  A scatter with an addition body, into a vector or into the rows of a matrix, from one row number per
  update: which update indices land on a given element, and the scattered value as a sum over them.
-/
import Idealize.ShloMosaic.PureOps.Ideal
import Idealize.ShloMosaic.Lib.ValueIdx

noncomputable section

namespace Cert.RefLib

open Idealize.ShloMosaic Idealize.ShloMosaic.ValueIdx

/-- The dimension numbers of a scatter into a vector [N] of R scalar updates, one start index per update on the
    index vector's axis 1 of [R, 1]. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The dimension numbers of a scatter into the rows of a matrix [N, C] of R row updates [R, C], one row
    number per update on the index vector's axis 1 of [R, 1]. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Vec

variable {N R w : Nat} (wf : ScatterDims.WF ⟨1, ![N]⟩ ⟨2, ![R, 1]⟩ ⟨1, ![R]⟩ [] [0] [0] 1)

theorem vec_start (e : Fin R) (idx : IVec ⟨2, ![R, 1]⟩ w) :
    (vecScatterDims N R wf).start (ix1 e) idx 0 = (idx (ix2 e (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vec_window (e : Fin R) : (vecScatterDims N R wf).window (ix1 e) 0 = 0 := by
  unfold ScatterDims.window
  rw [dif_neg]
  intro h
  simp [ScatterDims.sKept, Shape.kept, List.mem_filter, List.mem_finRange] at h

/-- Update e lands on element u exactly when its start index, read signed, is u. -/
theorem vec_resultIdx_iff (e : Fin R) (idx : IVec ⟨2, ![R, 1]⟩ w) (u : Fin N) :
    (vecScatterDims N R wf).resultIdx? (ix1 e) idx = some (ix1 u) ↔ (idx (ix2 e (0 : Fin 1))).toInt = (u.val : Int) := by
  unfold ScatterDims.resultIdx?
  constructor
  · intro h
    split at h
    · next H =>
      have := congrFun (Option.some.inj h) 0
      have hv := congrArg Fin.val this
      simp only [vec_start, vec_window] at hv
      have h0 := (H 0).1
      simp only [vec_start, vec_window] at h0
      have hv' : ((idx (ix2 e (0 : Fin 1))).toInt + ((0 : Nat) : Int)).toNat = u.val := hv
      omega
    · exact absurd h (by simp)
  · intro h
    have H : ∀ a, 0 ≤ (vecScatterDims N R wf).start (ix1 e) idx a + (vecScatterDims N R wf).window (ix1 e) a ∧
        (vecScatterDims N R wf).start (ix1 e) idx a + (vecScatterDims N R wf).window (ix1 e) a < (⟨1, ![N]⟩ : Shape).size a := by
      intro a
      obtain rfl : a = 0 := Subsingleton.elim _ _
      rw [vec_start, vec_window, h]
      have := u.isLt
      show 0 ≤ (u.val : Int) + ((0 : Nat) : Int) ∧ (u.val : Int) + ((0 : Nat) : Int) < (N : Int)
      omega
    rw [dif_pos H]
    congr 1
    funext a
    obtain rfl : a = 0 := Subsingleton.elim _ _
    refine Fin.ext ?_
    show ((vecScatterDims N R wf).start (ix1 e) idx 0 + (vecScatterDims N R wf).window (ix1 e) 0).toNat = u.val
    rw [vec_start, vec_window, h]
    omega

end Vec

/-- A one-axis index set is its one coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N R w : Nat} (wf : ScatterDims.WF ⟨1, ![N]⟩ ⟨2, ![R, 1]⟩ ⟨1, ![R]⟩ [] [0] [0] 1)

/-- The scatter-add into a vector, read at u: the operand there plus the sum of the updates whose start index is u. -/
theorem vecScatterAdd_apply (x : (⟨1, ![N]⟩ : Shape).Idx → EReal) (idx : IVec ⟨2, ![R, 1]⟩ w)
    (upd : (⟨1, ![R]⟩ : Shape).Idx → EReal) (u : Fin N) :
    Ideal.hostScatterAdd (vecScatterDims N R wf) x idx upd (ix1 u)
      = x (ix1 u) + ∑ e : Fin R, if (idx (ix2 e (0 : Fin 1))).toInt = (u.val : Int) then upd (ix1 e) else 0 := by
  unfold Ideal.hostScatterAdd
  congr 1
  rw [Finset.sum_filter, sum_idx1]
  refine Finset.sum_congr rfl fun e _ => ?_
  simp only [vec_resultIdx_iff]

end Vec

section Row

variable {N R C w : Nat} (wf : ScatterDims.WF ⟨2, ![N, C]⟩ ⟨2, ![R, 1]⟩ ⟨2, ![R, C]⟩ [1] [0] [0] 1)

theorem row_start0 (e : Fin R) (k : Fin C) (idx : IVec ⟨2, ![R, 1]⟩ w) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem row_start1 (e : Fin R) (k : Fin C) (idx : IVec ⟨2, ![R, 1]⟩ w) :
    (rowScatterDims N R C wf).start (ix2 e k) idx 1 = 0 := by
  unfold ScatterDims.start
  rw [dif_neg (fun h => Nat.one_ne_zero (congrArg Fin.val (List.mem_singleton.mp h)))]

theorem row_window0 (e : Fin R) (k : Fin C) : (rowScatterDims N R C wf).window (ix2 e k) 0 = 0 := by
  unfold ScatterDims.window
  rw [dif_neg]
  intro h
  simp [ScatterDims.sKept, Shape.kept, List.mem_filter, List.mem_finRange] at h

theorem row_window1 (e : Fin R) (k : Fin C) : (rowScatterDims N R C wf).window (ix2 e k) 1 = k.val := by
  unfold ScatterDims.window
  have hmem : (1 : Fin 2) ∈ (rowScatterDims N R C wf).sKept := by
    simp [ScatterDims.sKept, Shape.kept, List.mem_filter, List.mem_finRange]
  rw [dif_pos hmem]
  rfl

/-- Update (e, k) lands on element (u, k') exactly when its row number, read signed, is u and k = k'. -/
theorem row_resultIdx_iff (e : Fin R) (k : Fin C) (idx : IVec ⟨2, ![R, 1]⟩ w) (u : Fin N) (k' : Fin C) :
    (rowScatterDims N R C wf).resultIdx? (ix2 e k) idx = some (ix2 u k')
      ↔ (idx (ix2 e (0 : Fin 1))).toInt = (u.val : Int) ∧ k = k' := by
  unfold ScatterDims.resultIdx?
  constructor
  · intro h
    split at h
    · next H =>
      have e0 := congrArg Fin.val (congrFun (Option.some.inj h) 0)
      have e1 := congrArg Fin.val (congrFun (Option.some.inj h) 1)
      have h0 := (H 0).1
      simp only [row_start0, row_window0] at h0
      simp only [row_start0, row_window0] at e0
      simp only [row_start1, row_window1] at e1
      have e0' : ((idx (ix2 e (0 : Fin 1))).toInt + ((0 : Nat) : Int)).toNat = u.val := e0
      have e1' : ((0 : Int) + ((k.val : Nat) : Int)).toNat = k'.val := e1
      exact ⟨by omega, Fin.ext (by omega)⟩
    · exact absurd h (by simp)
  · rintro ⟨h, rfl⟩
    have H : ∀ a, 0 ≤ (rowScatterDims N R C wf).start (ix2 e k) idx a + (rowScatterDims N R C wf).window (ix2 e k) a ∧
        (rowScatterDims N R C wf).start (ix2 e k) idx a + (rowScatterDims N R C wf).window (ix2 e k) a
          < (⟨2, ![N, C]⟩ : Shape).size a := by
      intro a
      match a with
      | ⟨0, _⟩ =>
        show 0 ≤ (rowScatterDims N R C wf).start (ix2 e k) idx 0 + (rowScatterDims N R C wf).window (ix2 e k) 0 ∧
          (rowScatterDims N R C wf).start (ix2 e k) idx 0 + (rowScatterDims N R C wf).window (ix2 e k) 0 < (N : Int)
        rw [row_start0, row_window0, h]
        have := u.isLt
        omega
      | ⟨1, _⟩ =>
        show 0 ≤ (rowScatterDims N R C wf).start (ix2 e k) idx 1 + (rowScatterDims N R C wf).window (ix2 e k) 1 ∧
          (rowScatterDims N R C wf).start (ix2 e k) idx 1 + (rowScatterDims N R C wf).window (ix2 e k) 1 < (C : Int)
        rw [row_start1, row_window1]
        have := k.isLt
        omega
    rw [dif_pos H]
    congr 1
    funext a
    refine Fin.ext ?_
    match a with
    | ⟨0, _⟩ =>
      show ((rowScatterDims N R C wf).start (ix2 e k) idx 0 + (rowScatterDims N R C wf).window (ix2 e k) 0).toNat = u.val
      rw [row_start0, row_window0, h]
      omega
    | ⟨1, _⟩ =>
      show ((rowScatterDims N R C wf).start (ix2 e k) idx 1 + (rowScatterDims N R C wf).window (ix2 e k) 1).toNat = k.val
      rw [row_start1, row_window1]
      omega

/-- The scatter-add into the rows of a matrix, read at (u, k): the operand there plus the sum over the updates whose
    row number is u of their column k. -/
theorem rowScatterAdd_apply (x : (⟨2, ![N, C]⟩ : Shape).Idx → EReal) (idx : IVec ⟨2, ![R, 1]⟩ w)
    (upd : (⟨2, ![R, C]⟩ : Shape).Idx → EReal) (u : Fin N) (k : Fin C) :
    Ideal.hostScatterAdd (rowScatterDims N R C wf) x idx upd (ix2 u k)
      = x (ix2 u k) + ∑ e : Fin R, if (idx (ix2 e (0 : Fin 1))).toInt = (u.val : Int) then upd (ix2 e k) else 0 := by
  unfold Ideal.hostScatterAdd
  congr 1
  rw [Finset.sum_filter, sum_idx2]
  refine Finset.sum_congr rfl fun e _ => ?_
  simp only [row_resultIdx_iff]
  rw [Finset.sum_eq_single k]
  · simp
  · intro b _ hb
    rw [if_neg (fun h => hb h.2)]
  · intro h; exact absurd (Finset.mem_univ k) h

end Row

/-- The same for any record of scatter dimension numbers with those four fields. -/
theorem vecScatterAdd_apply' {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![R, 1]⟩ w)
    (upd : (⟨1, ![R]⟩ : Shape).Idx → EReal) (u : Fin N) :
    Ideal.hostScatterAdd d x idx upd (ix1 u)
      = x (ix1 u) + ∑ e : Fin R, if (idx (ix2 e (0 : Fin 1))).toInt = (u.val : Int) then upd (ix1 e) else 0 := by
  obtain ⟨a, b, c, iv, wf⟩ := d
  simp only at h1 h2 h3 h4
  subst h1 h2 h3 h4
  exact vecScatterAdd_apply wf x idx upd u

theorem rowScatterAdd_apply' {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (u : Fin N) (k : Fin C) :
    Ideal.hostScatterAdd d x idx upd (ix2 u k)
      = x (ix2 u k) + ∑ e : Fin R, if (idx (ix2 e (0 : Fin 1))).toInt = (u.val : Int) then upd (ix2 e k) else 0 := by
  obtain ⟨a, b, c, iv, wf⟩ := d
  simp only at h1 h2 h3 h4
  subst h1 h2 h3 h4
  exact rowScatterAdd_apply wf x idx upd u k

end Cert.RefLib

end
-- ==== Proof.RSum.lean ====
/-
  Sums over the list of candidate edges of 4 graphs of 512 nodes.  Edge e = (g·512 + i)·512 + j, for
  e < 1048576, has row node g·512 + i = e / 512 and column node g·512 + j = (e / 262144)·512 + e mod 512;
  the 2048 appended edges 1048576 + u join node u to itself.  The edges with a given row node u are the
  512 consecutive ones from u·512; the edges with a given column node u are the 512 edges
  ((u / 512)·512 + i)·512 + u mod 512 and the appended edge 1048576 + u.
-/
import Mathlib.Algebra.BigOperators.Group.Finset.Basic
import Mathlib.Algebra.BigOperators.Fin
import Mathlib.Tactic

namespace Cert.RefLib

open Finset

/-- The row node of a candidate edge, and of an appended edge. -/
def rowN (e : Nat) : Nat := if e < 1048576 then e / 512 else e - 1048576

/-- The column node of a candidate edge, and of an appended edge. -/
def colN (e : Nat) : Nat := if e < 1048576 then e / 262144 * 512 + e % 512 else e - 1048576

/-- The candidate edge from node i to node j of the graph of node u. -/
def edgeOf (u : Fin 2048) (i j : Fin 512) : Fin 1048576 :=
  ⟨(u.val / 512 * 512 + i.val) * 512 + j.val, by have := u.isLt; have := i.isLt; have := j.isLt; omega⟩

/-- The candidate edges whose row node is u are the 512 consecutive ones from u·512. -/
theorem sum_row_filter {M : Type*} [AddCommMonoid M] (f : Fin 1048576 → M) (u : Fin 2048) :
    (∑ e : Fin 1048576, if ((e.val / 512 : Nat) : Int) = (u.val : Int) then f e else 0)
      = ∑ j : Fin 512, f ⟨u.val * 512 + j.val, by have := u.isLt; have := j.isLt; omega⟩ := by
  rw [← Finset.sum_filter]
  have hset : (Finset.univ.filter fun e : Fin 1048576 => ((e.val / 512 : Nat) : Int) = (u.val : Int))
      = Finset.univ.image (fun j : Fin 512 => (⟨u.val * 512 + j.val, by have := u.isLt; have := j.isLt; omega⟩ : Fin 1048576)) := by
    ext e
    simp only [Finset.mem_filter, Finset.mem_univ, true_and, Finset.mem_image]
    constructor
    · intro h
      refine ⟨⟨e.val % 512, by omega⟩, Fin.ext ?_⟩
      show u.val * 512 + e.val % 512 = e.val
      omega
    · rintro ⟨j, rfl⟩
      have := j.isLt
      show (((u.val * 512 + j.val) / 512 : Nat) : Int) = (u.val : Int)
      omega
  rw [hset, Finset.sum_image]
  intro a _ b _ h
  have := congrArg Fin.val h
  exact Fin.ext (by simp only at this; omega)

/-- The edges of the full list whose column node is u: the 512 candidate edges into u and the appended one. -/
theorem sum_col_filter {M : Type*} [AddCommMonoid M] (f : Fin 1050624 → M) (u : Fin 2048) :
    (∑ e : Fin 1050624, if ((colN e.val : Nat) : Int) = (u.val : Int) then f e else 0)
      = (∑ i : Fin 512, f ⟨(u.val / 512 * 512 + i.val) * 512 + u.val % 512, by have := u.isLt; have := i.isLt; omega⟩)
        + f ⟨1048576 + u.val, by have := u.isLt; omega⟩ := by
  rw [← Finset.sum_filter]
  have hset : (Finset.univ.filter fun e : Fin 1050624 => ((colN e.val : Nat) : Int) = (u.val : Int))
      = Finset.univ.image (fun i : Fin 512 =>
          (⟨(u.val / 512 * 512 + i.val) * 512 + u.val % 512, by have := u.isLt; have := i.isLt; omega⟩ : Fin 1050624))
        ∪ {(⟨1048576 + u.val, by have := u.isLt; omega⟩ : Fin 1050624)} := by
    ext e
    simp only [Finset.mem_filter, Finset.mem_univ, true_and, Finset.mem_union, Finset.mem_image, Finset.mem_singleton]
    unfold colN
    have hu := u.isLt
    have he := e.isLt
    constructor
    · intro h
      by_cases hlt : e.val < 1048576
      · rw [if_pos hlt] at h
        left
        refine ⟨⟨e.val / 512 % 512, by omega⟩, Fin.ext ?_⟩
        show (u.val / 512 * 512 + e.val / 512 % 512) * 512 + u.val % 512 = e.val
        omega
      · rw [if_neg hlt] at h
        right
        exact Fin.ext (by show e.val = 1048576 + u.val; omega)
    · rintro (⟨i, rfl⟩ | rfl)
      · have := i.isLt
        show ((if (u.val / 512 * 512 + i.val) * 512 + u.val % 512 < 1048576 then
          ((u.val / 512 * 512 + i.val) * 512 + u.val % 512) / 262144 * 512 + ((u.val / 512 * 512 + i.val) * 512 + u.val % 512) % 512
          else (u.val / 512 * 512 + i.val) * 512 + u.val % 512 - 1048576 : Nat) : Int) = (u.val : Int)
        rw [if_pos (by omega)]
        omega
      · show ((if 1048576 + u.val < 1048576 then (1048576 + u.val) / 262144 * 512 + (1048576 + u.val) % 512
          else 1048576 + u.val - 1048576 : Nat) : Int) = (u.val : Int)
        rw [if_neg (by omega)]
        omega
  rw [hset, Finset.sum_union, Finset.sum_image, Finset.sum_singleton]
  · intro a _ b _ h
    have := congrArg Fin.val h
    exact Fin.ext (by simp only at this; omega)
  · rw [Finset.disjoint_singleton_right]
    simp only [Finset.mem_image, Finset.mem_univ, true_and, not_exists]
    intro i h
    have hv : (u.val / 512 * 512 + i.val) * 512 + u.val % 512 = 1048576 + u.val := congrArg Fin.val h
    have := i.isLt
    have := u.isLt
    omega

end Cert.RefLib
-- ==== Proof.Spec.lean ====
/-
  A two-layer Chebyshev graph convolution (order K = 3) with a relu between the layers and a row-wise
  log-softmax at the end, on ONE graph of `n` nodes, over the real numbers, in the two arrangements that
  are compared.

  With `deg i = ∑ j, A i j` (row sums) and `dinv i = deg i ^ (-1/2)` where `deg i > 0`, `0` elsewhere:

  * the DENSE arrangement propagates by `Q v = dinv ⊙ (Aᵀ · (dinv ⊙ v)) + diag A ⊙ v` and folds the
    Chebyshev recurrence `T₀ = v, T₁ = -Q v, T₂ = 2·Q(Q v) - v` into the weights:
    `v·(W₀ - W₂) - (Q v)·W₁ + (Q (Q v))·(2 W₂) + b`;
  * the EDGE arrangement sums over every candidate edge `(r, c)` with the weight
    `edgeW r c = -dinv r · A r c · dinv c - [r = c]·A r c`: `P v c = ∑ r, edgeW r c · v r`, and runs the
    recurrence as written: `v·W₀ + (P v)·W₁ + (2·P(P v) - v)·W₂ + b`.

  `P v = -(Q v)` (split the sum; the Kronecker term picks `r = c`), `P` is linear, so `P (P v) = Q (Q v)`, and
  the two layers agree by distributing the matrix products over the sums: all of it in a commutative
  ring, nothing about `A` beyond being real.  The two log-softmax arrangements differ by
  `a - (m + l) = (a - m) - l`.
-/
import Idealize.ShloMosaic.PureOps.Ideal

noncomputable section

namespace Cert.ChebSpec

open Finset

variable {n p q : ℕ}

/-- The degree of node `i`: the `i`-th row sum of the adjacency matrix. -/
def deg (A : Fin n → Fin n → ℝ) (i : Fin n) : ℝ := ∑ j, A i j

/-- `deg ^ (-1/2)` where the degree is positive, `0` elsewhere. -/
def dinv (A : Fin n → Fin n → ℝ) (i : Fin n) : ℝ :=
  if 0 < deg A i then (Real.sqrt (deg A i))⁻¹ else 0

/-- A matrix product `v · W`. -/
def mm (v : Fin n → Fin p → ℝ) (W : Fin p → Fin q → ℝ) : Fin n → Fin q → ℝ :=
  fun i k => ∑ l, v i l * W l k

/-- `max v 0`, entry by entry. -/
def relu (v : Fin n → Fin p → ℝ) : Fin n → Fin p → ℝ := fun i k => max (v i k) 0

/-! ### The dense arrangement -/

/-- `dinv ⊙ (Aᵀ · (dinv ⊙ v)) + diag A ⊙ v`. -/
def Q (A : Fin n → Fin n → ℝ) (v : Fin n → Fin p → ℝ) : Fin n → Fin p → ℝ :=
  fun c k => dinv A c * (∑ r, A r c * (dinv A r * v r k)) + A c c * v c k

/-- One layer, the recurrence folded into the weights. -/
def layerK (A : Fin n → Fin n → ℝ) (W : Fin 3 → Fin p → Fin q → ℝ) (b : Fin q → ℝ) (v : Fin n → Fin p → ℝ) :
    Fin n → Fin q → ℝ :=
  fun i k => mm v (fun l k => W 0 l k - W 2 l k) i k - mm (Q A v) (W 1) i k
    + mm (Q A (Q A v)) (fun l k => 2 * W 2 l k) i k + b k

/-- Both layers. -/
def outK (x : Fin n → Fin p → ℝ) (A : Fin n → Fin n → ℝ) (W1 : Fin 3 → Fin p → Fin p → ℝ) (b1 : Fin p → ℝ)
    (W2 : Fin 3 → Fin p → Fin q → ℝ) (b2 : Fin q → ℝ) : Fin n → Fin q → ℝ :=
  layerK A W2 b2 (relu (layerK A W1 b1 x))

/-! ### The edge arrangement -/

/-- The weight of the candidate edge `(r, c)`. -/
def edgeW (A : Fin n → Fin n → ℝ) (r c : Fin n) : ℝ :=
  -(dinv A r) * A r c * dinv A c - (if r = c then A r c else 0)

/-- Every edge `(r, c)` sends `edgeW r c · v r` to its target `c`. -/
def P (A : Fin n → Fin n → ℝ) (v : Fin n → Fin p → ℝ) : Fin n → Fin p → ℝ :=
  fun c k => ∑ r, edgeW A r c * v r k

/-- One layer, the recurrence as written. -/
def layerR (A : Fin n → Fin n → ℝ) (W : Fin 3 → Fin p → Fin q → ℝ) (b : Fin q → ℝ) (v : Fin n → Fin p → ℝ) :
    Fin n → Fin q → ℝ :=
  fun i k => mm v (W 0) i k + mm (P A v) (W 1) i k
    + mm (fun i l => 2 * P A (P A v) i l - v i l) (W 2) i k + b k

/-- Both layers. -/
def outR (x : Fin n → Fin p → ℝ) (A : Fin n → Fin n → ℝ) (W1 : Fin 3 → Fin p → Fin p → ℝ) (b1 : Fin p → ℝ)
    (W2 : Fin 3 → Fin p → Fin q → ℝ) (b2 : Fin q → ℝ) : Fin n → Fin q → ℝ :=
  layerR A W2 b2 (relu (layerR A W1 b1 x))

/-! ### The log-softmax over a row of 64 -/

/-- The largest entry of row `i`. -/
def rowMax (o : Fin n → Fin 64 → ℝ) (i : Fin n) : ℝ := Finset.univ.sup' Finset.univ_nonempty (o i)

/-- `o - (m + log ∑ exp (o - m))`. -/
def lsmK (o : Fin n → Fin 64 → ℝ) : Fin n → Fin 64 → ℝ :=
  fun i k => o i k - (rowMax o i + Real.log (∑ k', Real.exp (o i k' - rowMax o i)))

/-- `(o - m) - log ∑ exp (o - m)`. -/
def lsmR (o : Fin n → Fin 64 → ℝ) : Fin n → Fin 64 → ℝ :=
  fun i k => (o i k - rowMax o i) - Real.log (∑ k', Real.exp (o i k' - rowMax o i))

/-! ### The two arrangements agree -/

/-- The edge sum is minus the dense propagation. -/
theorem P_eq_neg_Q (A : Fin n → Fin n → ℝ) (v : Fin n → Fin p → ℝ) : P A v = fun c k => -(Q A v c k) := by
  funext c k
  unfold P Q edgeW
  have h1 : ∀ r : Fin n, (-(dinv A r) * A r c * dinv A c - (if r = c then A r c else 0)) * v r k
      = -(dinv A c * (A r c * (dinv A r * v r k))) - (if r = c then A r c * v r k else 0) := by
    intro r
    by_cases h : r = c
    · simp only [h, if_true]; ring
    · simp only [h, if_false]; ring
  simp only [h1, Finset.sum_sub_distrib, Finset.sum_neg_distrib, ← Finset.mul_sum, Finset.sum_ite_eq', Finset.mem_univ, if_true]
  ring

/-- The edge sum of a negated array. -/
theorem P_neg (A : Fin n → Fin n → ℝ) (v : Fin n → Fin p → ℝ) :
    P A (fun c k => -(v c k)) = fun c k => -(P A v c k) := by
  funext c k
  unfold P
  simp only [mul_neg, Finset.sum_neg_distrib]

/-- Two edge sums are two dense propagations. -/
theorem PP_eq_QQ (A : Fin n → Fin n → ℝ) (v : Fin n → Fin p → ℝ) : P A (P A v) = Q A (Q A v) := by
  rw [P_eq_neg_Q A v, P_neg, P_eq_neg_Q]
  funext c k
  simp only [neg_neg]

/-- One layer in the two arrangements. -/
theorem layerK_eq_layerR (A : Fin n → Fin n → ℝ) (W : Fin 3 → Fin p → Fin q → ℝ) (b : Fin q → ℝ)
    (v : Fin n → Fin p → ℝ) : layerK A W b v = layerR A W b v := by
  funext i k
  unfold layerK layerR mm
  rw [PP_eq_QQ, P_eq_neg_Q]
  simp only [mul_sub, sub_mul, neg_mul, Finset.sum_sub_distrib, Finset.sum_neg_distrib]
  have h2 : ∀ l : Fin p, Q A (Q A v) i l * (2 * W 2 l k) = 2 * Q A (Q A v) i l * W 2 l k := fun l => by ring
  simp only [h2]
  ring

/-- Both layers in the two arrangements. -/
theorem outK_eq_outR (x : Fin n → Fin p → ℝ) (A : Fin n → Fin n → ℝ) (W1 : Fin 3 → Fin p → Fin p → ℝ) (b1 : Fin p → ℝ)
    (W2 : Fin 3 → Fin p → Fin q → ℝ) (b2 : Fin q → ℝ) : outK x A W1 b1 W2 b2 = outR x A W1 b1 W2 b2 := by
  unfold outK outR
  rw [layerK_eq_layerR, layerK_eq_layerR]

/-- The two log-softmax arrangements. -/
theorem lsmK_eq_lsmR (o : Fin n → Fin 64 → ℝ) : lsmK o = lsmR o := by
  funext i k
  unfold lsmK lsmR
  ring

end Cert.ChebSpec

end
-- ==== Proof.RProp.lean ====
/-
  The degree vector and one propagation of the edge arrangement, as scatter-adds over the edge list.

  With the row node of candidate edge e equal to e / 512, the scatter-add of the adjacency entries by row node is
  the vector of row sums.  With the column node colN e, an update (e, k) equal to the edge weight of e times the
  value of the source array at the row node of e, and the appended self-loop edges carrying weight 0, the
  scatter-add by column node at node g·512 + c is the edge sum P of graph g at c.
-/
import proofs.«126667_g78520592106144_cont_sun_c4_372_13_alg».proof.Proof.RScatter
import proofs.«126667_g78520592106144_cont_sun_c4_372_13_alg».proof.Proof.RSum
import proofs.«126667_g78520592106144_cont_sun_c4_372_13_alg».proof.Proof.Spec
import proofs.«126667_g78520592106144_cont_sun_c4_372_13_alg».proof.Proof.LibERealCoe

noncomputable section

namespace Cert.RefLib

open Idealize.ShloMosaic Idealize.ShloMosaic.ValueIdx Cert.ChebSpec

/-- Node g·512 + i of the batch of 4 graphs. -/
def node (g : Fin 4) (i : Fin 512) : Fin 2048 := ⟨g.val * 512 + i.val, by have := g.isLt; have := i.isLt; omega⟩

/-- The graph, the row and the column of a candidate edge. -/
def eG (e : Nat) (h : e < 1048576) : Fin 4 := ⟨e / 262144, by omega⟩
def eR (e : Nat) : Fin 512 := ⟨e / 512 % 512, by omega⟩
def eC (e : Nat) : Fin 512 := ⟨e % 512, by omega⟩

/-- The weight of an edge of the full list: the candidate edge's weight, and 0 on an appended self-loop. -/
def fullW (A : Fin 4 → Fin 512 → Fin 512 → ℝ) (e : Fin 1050624) : ℝ :=
  if h : e.val < 1048576 then edgeW (A (eG e.val h)) (eR e.val) (eC e.val) else 0

/-- The source array's row at the row node of an edge of the full list. -/
def srcAt (v : Fin 4 → Fin 512 → Fin 128 → ℝ) (e : Fin 1050624) (k : Fin 128) : ℝ :=
  v ⟨rowN e.val / 512 % 4, by omega⟩ ⟨rowN e.val % 512, by omega⟩ k

theorem deg_apply (A : Fin 4 → Fin 512 → Fin 512 → ℝ)
    (d : ScatterDims ⟨1, ![2048]⟩ ⟨2, ![1048576, 1]⟩ ⟨1, ![1048576]⟩)
    (h1 : d.updateWindowDims = []) (h2 : d.insertedWindowDims = [0]) (h3 : d.scatterDimsToOperandDims = [0])
    (h4 : d.indexVectorDim = 1)
    (zeros : (⟨1, ![2048]⟩ : Shape).Idx → EReal) (idx : IVec ⟨2, ![1048576, 1]⟩ 32)
    (upd : (⟨1, ![1048576]⟩ : Shape).Idx → EReal)
    (hz : ∀ u : Fin 2048, zeros (ix1 u) = 0)
    (hidx : ∀ e : Fin 1048576, (idx (ix2 e (0 : Fin 1))).toInt = ((e.val / 512 : Nat) : Int))
    (hupd : ∀ e : Fin 1048576, upd (ix1 e) = ((A (eG e.val e.isLt) (eR e.val) (eC e.val) : ℝ) : EReal))
    (g : Fin 4) (i : Fin 512) :
    Ideal.hostScatterAdd d zeros idx upd (ix1 (node g i)) = ((deg (A g) i : ℝ) : EReal) := by
  rw [vecScatterAdd_apply' d h1 h2 h3 h4, hz, zero_add]
  simp only [hidx]
  rw [sum_row_filter (fun e => upd (ix1 e)) (node g i)]
  simp only [hupd]
  rw [Cert.Lib.coe_sum]
  unfold deg
  congr 1
  refine Finset.sum_congr rfl fun j _ => ?_
  have hg := g.isLt; have hi := i.isLt; have hj := j.isLt
  have e1 : eG ((node g i).val * 512 + j.val) (by show (g.val * 512 + i.val) * 512 + j.val < 1048576; omega) = g :=
    Fin.ext (by show ((g.val * 512 + i.val) * 512 + j.val) / 262144 = g.val; omega)
  have e2 : eR ((node g i).val * 512 + j.val) = i :=
    Fin.ext (by show ((g.val * 512 + i.val) * 512 + j.val) / 512 % 512 = i.val; omega)
  have e3 : eC ((node g i).val * 512 + j.val) = j :=
    Fin.ext (by show ((g.val * 512 + i.val) * 512 + j.val) % 512 = j.val; omega)
  rw [e1, e2, e3]

theorem prop_apply (A : Fin 4 → Fin 512 → Fin 512 → ℝ) (v : Fin 4 → Fin 512 → Fin 128 → ℝ)
    (d : ScatterDims ⟨2, ![2048, 128]⟩ ⟨2, ![1050624, 1]⟩ ⟨2, ![1050624, 128]⟩)
    (h1 : d.updateWindowDims = [1]) (h2 : d.insertedWindowDims = [0]) (h3 : d.scatterDimsToOperandDims = [0])
    (h4 : d.indexVectorDim = 1)
    (zeros : (⟨2, ![2048, 128]⟩ : Shape).Idx → EReal) (ci : IVec ⟨2, ![1050624, 1]⟩ 32)
    (upd : (⟨2, ![1050624, 128]⟩ : Shape).Idx → EReal)
    (hz : ∀ (u : Fin 2048) (k : Fin 128), zeros (ix2 u k) = 0)
    (hci : ∀ e : Fin 1050624, (ci (ix2 e (0 : Fin 1))).toInt = ((colN e.val : Nat) : Int))
    (hupd : ∀ (e : Fin 1050624) (k : Fin 128), upd (ix2 e k) = ((fullW A e * srcAt v e k : ℝ) : EReal))
    (g : Fin 4) (c : Fin 512) (k : Fin 128) :
    Ideal.hostScatterAdd d zeros ci upd (ix2 (node g c) k) = ((P (A g) (v g) c k : ℝ) : EReal) := by
  rw [rowScatterAdd_apply' d h1 h2 h3 h4, hz, zero_add]
  simp only [hci]
  rw [sum_col_filter (fun e => upd (ix2 e k)) (node g c)]
  simp only [hupd]
  have hg := g.isLt; have hc := c.isLt
  have hloop : fullW A ⟨1048576 + (node g c).val, by show 1048576 + (g.val * 512 + c.val) < 1050624; omega⟩ = 0 := by
    unfold fullW
    rw [dif_neg (by show ¬ (1048576 + (g.val * 512 + c.val) < 1048576); omega)]
  rw [hloop, zero_mul, EReal.coe_zero, add_zero, Cert.Lib.coe_sum]
  unfold P
  congr 1
  refine Finset.sum_congr rfl fun i _ => ?_
  have hi := i.isLt
  have hlt : ((node g c).val / 512 * 512 + i.val) * 512 + (node g c).val % 512 < 1048576 := by
    show ((g.val * 512 + c.val) / 512 * 512 + i.val) * 512 + (g.val * 512 + c.val) % 512 < 1048576; omega
  have hw : fullW A ⟨((node g c).val / 512 * 512 + i.val) * 512 + (node g c).val % 512, by omega⟩ = edgeW (A g) i c := by
    unfold fullW
    rw [dif_pos hlt]
    have e1 : eG (((node g c).val / 512 * 512 + i.val) * 512 + (node g c).val % 512) hlt = g :=
      Fin.ext (by show (((g.val * 512 + c.val) / 512 * 512 + i.val) * 512 + (g.val * 512 + c.val) % 512) / 262144 = g.val; omega)
    have e2 : eR (((node g c).val / 512 * 512 + i.val) * 512 + (node g c).val % 512) = i :=
      Fin.ext (by show (((g.val * 512 + c.val) / 512 * 512 + i.val) * 512 + (g.val * 512 + c.val) % 512) / 512 % 512 = i.val; omega)
    have e3 : eC (((node g c).val / 512 * 512 + i.val) * 512 + (node g c).val % 512) = c :=
      Fin.ext (by show (((g.val * 512 + c.val) / 512 * 512 + i.val) * 512 + (g.val * 512 + c.val) % 512) % 512 = c.val; omega)
    rw [e1, e2, e3]
  have hs : srcAt v ⟨((node g c).val / 512 * 512 + i.val) * 512 + (node g c).val % 512, by omega⟩ k = v g i k := by
    unfold srcAt
    have hr : rowN (((node g c).val / 512 * 512 + i.val) * 512 + (node g c).val % 512)
        = (((g.val * 512 + c.val) / 512 * 512 + i.val) * 512 + (g.val * 512 + c.val) % 512) / 512 := by
      unfold rowN; exact if_pos hlt
    exact (show ∀ (a : Fin 4) (b : Fin 512), a = g → b = i → v a b k = v g i k by rintro _ _ rfl rfl; rfl) _ _
      (Fin.ext (by
        show rowN (((node g c).val / 512 * 512 + i.val) * 512 + (node g c).val % 512) / 512 % 4 = g.val
        rw [hr]; omega))
      (Fin.ext (by
        show rowN (((node g c).val / 512 * 512 + i.val) * 512 + (node g c).val % 512) % 512 = i.val
        rw [hr]; omega))
  rw [hw, hs]

/-- The same two statements over the host operation at the ideal instance (its value there is the exact sum). -/
theorem deg_applyH (A : Fin 4 → Fin 512 → Fin 512 → ℝ)
    (d : ScatterDims ⟨1, ![2048]⟩ ⟨2, ![1048576, 1]⟩ ⟨1, ![1048576]⟩)
    (h1 : d.updateWindowDims = []) (h2 : d.insertedWindowDims = [0]) (h3 : d.scatterDimsToOperandDims = [0])
    (h4 : d.indexVectorDim = 1)
    (zeros : FVec Ideal ⟨1, ![2048]⟩ .f32) (idx : IVec ⟨2, ![1048576, 1]⟩ 32)
    (upd : FVec Ideal ⟨1, ![1048576]⟩ .f32)
    (hz : ∀ u : Fin 2048, zeros (ix1 u) = 0)
    (hidx : ∀ e : Fin 1048576, (idx (ix2 e (0 : Fin 1))).toInt = ((e.val / 512 : Nat) : Int))
    (hupd : ∀ e : Fin 1048576, upd (ix1 e) = ((A (eG e.val e.isLt) (eR e.val) (eC e.val) : ℝ) : EReal))
    (g : Fin 4) (i : Fin 512) :
    Host.scatterAdd (F := Ideal) (φ := .f32) d zeros idx upd (ix1 (node g i)) = ((deg (A g) i : ℝ) : EReal) :=
  deg_apply A d h1 h2 h3 h4 zeros idx upd hz hidx hupd g i

theorem prop_applyH (A : Fin 4 → Fin 512 → Fin 512 → ℝ) (v : Fin 4 → Fin 512 → Fin 128 → ℝ)
    (d : ScatterDims ⟨2, ![2048, 128]⟩ ⟨2, ![1050624, 1]⟩ ⟨2, ![1050624, 128]⟩)
    (h1 : d.updateWindowDims = [1]) (h2 : d.insertedWindowDims = [0]) (h3 : d.scatterDimsToOperandDims = [0])
    (h4 : d.indexVectorDim = 1)
    (zeros : FVec Ideal ⟨2, ![2048, 128]⟩ .f32) (ci : IVec ⟨2, ![1050624, 1]⟩ 32)
    (upd : FVec Ideal ⟨2, ![1050624, 128]⟩ .f32)
    (hz : ∀ (u : Fin 2048) (k : Fin 128), zeros (ix2 u k) = 0)
    (hci : ∀ e : Fin 1050624, (ci (ix2 e (0 : Fin 1))).toInt = ((colN e.val : Nat) : Int))
    (hupd : ∀ (e : Fin 1050624) (k : Fin 128), upd (ix2 e k) = ((fullW A e * srcAt v e k : ℝ) : EReal))
    (g : Fin 4) (c : Fin 512) (k : Fin 128) :
    Host.scatterAdd (F := Ideal) (φ := .f32) d zeros ci upd (ix2 (node g c) k) = ((P (A g) (v g) c k : ℝ) : EReal) :=
  prop_apply A v d h1 h2 h3 h4 zeros ci upd hz hci hupd g c k

end Cert.RefLib

end
-- ==== Proof.RIdx.lean ====
import proofs.«126667_g78520592106144_cont_sun_c4_372_13_alg».proof.Proof.ReadP
import proofs.«126667_g78520592106144_cont_sun_c4_372_13_alg».proof.Proof.RScalar
import proofs.«126667_g78520592106144_cont_sun_c4_372_13_alg».proof.Proof.RProp

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

/-- The row node of candidate edge e, as the program computes it. -/
theorem v10_val (e : Fin 1048576) : val_main_v10 (F := Ideal) (ix1 e) = BitVec.ofNat 32 (e.val / 512) := by
  simp only [val_main_v10_apply, val_main_v9_apply, val_main_v8_apply, val_main_v6_apply, val_main_v3_apply,
    val_main_v2_apply, val_main_v0_apply, val_main_v1_apply, val_main_c_apply, val_main_v7_apply, val_main_v5_apply,
    val_main_v4_apply]
  have he := e.isLt
  show IntOp.addi (IntOp.muli (BitVec.ofNat 32 (e.val / 262144)) 512#32) (BitVec.ofNat 32 (e.val / 512 % 512)) = _
  rw [node_val _ _ (by omega) (by omega)]
  congr 1
  omega

/-- The column node of candidate edge e. -/
theorem v17_val (e : Fin 1048576) :
    val_main_v17 (F := Ideal) (ix1 e) = BitVec.ofNat 32 (e.val / 262144 * 512 + e.val % 512) := by
  simp only [val_main_v17_apply, val_main_v16_apply, val_main_v15_apply, val_main_v13_apply, val_main_v3_apply,
    val_main_v2_apply, val_main_v0_apply, val_main_v1_apply, val_main_c_apply, val_main_v14_apply, val_main_v12_apply,
    val_main_v11_apply]
  have he := e.isLt
  show IntOp.addi (IntOp.muli (BitVec.ofNat 32 (e.val / 262144)) 512#32) (BitVec.ofNat 32 (e.val % 512)) = _
  rw [node_val _ _ (by omega) (by omega)]

theorem at_ix1 {α : Type} {n : Nat} (f : (⟨1, ![n]⟩ : Shape).Idx → α) (j : (⟨1, ![n]⟩ : Shape).Idx) :
    f j = f (ix1 (j 0)) := congrArg f (eq_ix1 j)

theorem at_ix2 {α : Type} {n0 n1 : Nat} (f : (⟨2, ![n0, n1]⟩ : Shape).Idx → α) (j : (⟨2, ![n0, n1]⟩ : Shape).Idx) :
    f j = f (ix2 (j 0) (j 1)) := congrArg f (eq_ix2 j)

theorem at_ix3 {α : Type} {n0 n1 n2 : Nat} (f : (⟨3, ![n0, n1, n2]⟩ : Shape).Idx → α)
    (j : (⟨3, ![n0, n1, n2]⟩ : Shape).Idx) : f j = f (ix3 (j 0) (j 1) (j 2)) := congrArg f (eq_ix3 j)

/-- The two rows of the stacked edge index array. -/
theorem v24_row0 (e : Fin 1048576) :
    val_main_v24 (F := Ideal) (ix2 (0 : Fin 2) e) = BitVec.ofNat 32 (e.val / 512) := by
  unfold val_main_v24
  rw [concatenate_pair_apply_left (t := S2x1048576) (s₁ := S1x1048576) (s₂ := S1x1048576) (0 : Fin 2) _ _ _
    (ix2 (0 : Fin 2) e) rfl (ix2 (0 : Fin 1) e)
    (fun b => by match b with | ⟨0, _⟩ => rfl | ⟨1, _⟩ => rfl)]
  rw [val_main_v22_apply]
  exact (at_ix1 _ _).trans (v10_val e)

theorem v24_row1 (e : Fin 1048576) :
    val_main_v24 (F := Ideal) (ix2 (1 : Fin 2) e) = BitVec.ofNat 32 (e.val / 262144 * 512 + e.val % 512) := by
  unfold val_main_v24
  rw [concatenate_pair_apply_right (t := S2x1048576) (s₁ := S1x1048576) (s₂ := S1x1048576) (0 : Fin 2) _ _ _
    (ix2 (1 : Fin 2) e) rfl rfl (ix2 (0 : Fin 1) e)
    (fun b hb => by match b with | ⟨0, _⟩ => exact absurd rfl hb | ⟨1, _⟩ => rfl) rfl]
  rw [val_main_v23_apply]
  exact (at_ix1 _ _).trans (v17_val e)

theorem v27_val (e : Fin 1048576) : val_main_v27 (F := Ideal) (ix1 e) = BitVec.ofNat 32 (e.val / 512) := by
  rw [val_main_v27_apply, val_main_v26_apply]
  refine (at_ix2 _ _).trans ?_
  have he := e.isLt
  have : (⟨e.val % 1048576, by omega⟩ : Fin 1048576) = e := Fin.ext (by show e.val % 1048576 = e.val; omega)
  show val_main_v24 (F := Ideal) (ix2 (0 : Fin 2) (⟨e.val % 1048576, by omega⟩ : Fin 1048576)) = _
  rw [this]
  exact v24_row0 e

theorem v29_val (e : Fin 1048576) :
    val_main_v29 (F := Ideal) (ix1 e) = BitVec.ofNat 32 (e.val / 262144 * 512 + e.val % 512) := by
  rw [val_main_v29_apply, val_main_v28_apply]
  refine (at_ix2 _ _).trans ?_
  have he := e.isLt
  have : (⟨e.val % 1048576, by omega⟩ : Fin 1048576) = e := Fin.ext (by show e.val % 1048576 = e.val; omega)
  show val_main_v24 (F := Ideal) (ix2 (1 : Fin 2) (⟨e.val % 1048576, by omega⟩ : Fin 1048576)) = _
  rw [this]
  exact v24_row1 e

theorem rowN_lt (e : Fin 1050624) : rowN e.val < 2048 := by
  have := e.isLt; unfold rowN; split <;> omega

theorem colN_lt (e : Fin 1050624) : colN e.val < 2048 := by
  have := e.isLt; unfold colN; split <;> omega

/-- Reading an array at an index given by its coordinates' values. -/
theorem read1 {α : Type} {n : Nat} (f : (⟨1, ![n]⟩ : Shape).Idx → α) (j : (⟨1, ![n]⟩ : Shape).Idx) (a : Fin n)
    (h0 : (j 0).val = a.val) : f j = f (ix1 a) := by
  congr 1; funext d
  match d with
  | ⟨0, _⟩ => exact Fin.ext h0

theorem read2 {α : Type} {n0 n1 : Nat} (f : (⟨2, ![n0, n1]⟩ : Shape).Idx → α) (j : (⟨2, ![n0, n1]⟩ : Shape).Idx)
    (a : Fin n0) (b : Fin n1) (h0 : (j 0).val = a.val) (h1 : (j 1).val = b.val) : f j = f (ix2 a b) := by
  congr 1; funext d
  match d with
  | ⟨0, _⟩ => exact Fin.ext h0
  | ⟨1, _⟩ => exact Fin.ext h1

theorem read3 {α : Type} {n0 n1 n2 : Nat} (f : (⟨3, ![n0, n1, n2]⟩ : Shape).Idx → α)
    (j : (⟨3, ![n0, n1, n2]⟩ : Shape).Idx) (a : Fin n0) (b : Fin n1) (c : Fin n2)
    (h0 : (j 0).val = a.val) (h1 : (j 1).val = b.val) (h2 : (j 2).val = c.val) : f j = f (ix3 a b c) := by
  congr 1; funext d
  match d with
  | ⟨0, _⟩ => exact Fin.ext h0
  | ⟨1, _⟩ => exact Fin.ext h1
  | ⟨2, _⟩ => exact Fin.ext h2

/-- The row and column nodes of the full edge list: the candidate edges, then the appended self-loops. -/
theorem v61_val (e : Fin 1050624) : val_main_v61 (F := Ideal) (ix1 e) = BitVec.ofNat 32 (rowN e.val) := by
  unfold val_main_v61 rowN
  have he := e.isLt
  by_cases h : e.val < 1048576
  · rw [if_pos h, concatenate_pair_apply_left (t := S1050624) (s₁ := S1048576) (s₂ := S2048) (0 : Fin 1) _ _ _
      (ix1 e) rfl (ix1 (⟨e.val, h⟩ : Fin 1048576)) (fun b => by match b with | ⟨0, _⟩ => rfl)]
    exact v27_val ⟨e.val, h⟩
  · rw [if_neg h, concatenate_pair_apply_right (t := S1050624) (s₁ := S1048576) (s₂ := S2048) (0 : Fin 1) _ _ _
      (ix1 e) rfl rfl (ix1 (⟨e.val - 1048576, by omega⟩ : Fin 2048))
      (fun b hb => absurd (Subsingleton.elim _ _) hb) (by show e.val - 1048576 + 1048576 = e.val; omega)]
    rfl

theorem v62_val (e : Fin 1050624) : val_main_v62 (F := Ideal) (ix1 e) = BitVec.ofNat 32 (colN e.val) := by
  unfold val_main_v62 colN
  have he := e.isLt
  by_cases h : e.val < 1048576
  · rw [if_pos h, concatenate_pair_apply_left (t := S1050624) (s₁ := S1048576) (s₂ := S2048) (0 : Fin 1) _ _ _
      (ix1 e) rfl (ix1 (⟨e.val, h⟩ : Fin 1048576)) (fun b => by match b with | ⟨0, _⟩ => rfl)]
    exact v29_val ⟨e.val, h⟩
  · rw [if_neg h, concatenate_pair_apply_right (t := S1050624) (s₁ := S1048576) (s₂ := S2048) (0 : Fin 1) _ _ _
      (ix1 e) rfl rfl (ix1 (⟨e.val - 1048576, by omega⟩ : Fin 2048))
      (fun b hb => absurd (Subsingleton.elim _ _) hb) (by show e.val - 1048576 + 1048576 = e.val; omega)]
    rfl

/-! The index arrays after the wrap of negative indices (the identity here) as columns [R, 1]. -/

theorem v36_val (e : Fin 1048576) :
    val_main_v36 (F := Ideal) (ix2 e (0 : Fin 1)) = BitVec.ofNat 32 (e.val / 512) := by
  rw [val_main_v36_apply]
  refine (at_ix1 _ _).trans ?_
  show val_main_v35 (F := Ideal) (ix1 e) = _
  rw [val_main_v35_apply, val_main_v32_apply, val_main_v34_apply, val_main_v31_apply, val_main_c_1_apply,
    val_main_v33_apply, val_main_c_2_apply, v27_val]
  exact wrap_val _ (by have := e.isLt; omega)

theorem v48_val (e : Fin 1048576) :
    val_main_v48 (F := Ideal) (ix2 e (0 : Fin 1)) = BitVec.ofNat 32 (e.val / 512) := by
  rw [val_main_v48_apply]
  refine (at_ix1 _ _).trans ?_
  show val_main_v47 (F := Ideal) (ix1 e) = _
  rw [val_main_v47_apply, val_main_v44_apply, val_main_v46_apply, val_main_v43_apply, val_main_c_6_apply,
    val_main_v45_apply, val_main_c_7_apply, v27_val]
  exact wrap_val _ (by have := e.isLt; omega)

theorem v57_val (e : Fin 1048576) :
    val_main_v57 (F := Ideal) (ix2 e (0 : Fin 1)) = BitVec.ofNat 32 (e.val / 262144 * 512 + e.val % 512) := by
  rw [val_main_v57_apply]
  refine (at_ix1 _ _).trans ?_
  show val_main_v56 (F := Ideal) (ix1 e) = _
  rw [val_main_v56_apply, val_main_v53_apply, val_main_v55_apply, val_main_v52_apply, val_main_c_8_apply,
    val_main_v54_apply, val_main_c_9_apply, v29_val]
  exact wrap_val _ (by have := e.isLt; omega)

theorem v87_val (e : Fin 1050624) :
    val_main_v87 (F := Ideal) (ix2 e (0 : Fin 1)) = BitVec.ofNat 32 (rowN e.val) := by
  rw [val_main_v87_apply]
  refine (at_ix1 _ _).trans ?_
  show val_main_v86 (F := Ideal) (ix1 e) = _
  rw [val_main_v86_apply, val_main_v83_apply, val_main_v85_apply, val_main_v82_apply, val_main_c_16_apply,
    val_main_v84_apply, val_main_c_17_apply, v61_val]
  exact wrap_val _ (by have := rowN_lt e; omega)

theorem v96_val (e : Fin 1050624) :
    val_main_v96 (F := Ideal) (ix2 e (0 : Fin 1)) = BitVec.ofNat 32 (colN e.val) := by
  rw [val_main_v96_apply]
  refine (at_ix1 _ _).trans ?_
  show val_main_v95 (F := Ideal) (ix1 e) = _
  rw [val_main_v95_apply, val_main_v92_apply, val_main_v94_apply, val_main_v91_apply, val_main_c_18_apply,
    val_main_v93_apply, val_main_c_19_apply, v62_val]
  exact wrap_val _ (by have := colN_lt e; omega)

theorem v109_val (e : Fin 1050624) :
    val_main_v109 (F := Ideal) (ix2 e (0 : Fin 1)) = BitVec.ofNat 32 (rowN e.val) := by
  rw [val_main_v109_apply]
  refine (at_ix1 _ _).trans ?_
  show val_main_v108 (F := Ideal) (ix1 e) = _
  rw [val_main_v108_apply, val_main_v105_apply, val_main_v107_apply, val_main_v104_apply, val_main_c_21_apply,
    val_main_v106_apply, val_main_c_22_apply, v61_val]
  exact wrap_val _ (by have := rowN_lt e; omega)

theorem v118_val (e : Fin 1050624) :
    val_main_v118 (F := Ideal) (ix2 e (0 : Fin 1)) = BitVec.ofNat 32 (colN e.val) := by
  rw [val_main_v118_apply]
  refine (at_ix1 _ _).trans ?_
  show val_main_v117 (F := Ideal) (ix1 e) = _
  rw [val_main_v117_apply, val_main_v114_apply, val_main_v116_apply, val_main_v113_apply, val_main_c_23_apply,
    val_main_v115_apply, val_main_c_24_apply, v62_val]
  exact wrap_val _ (by have := colN_lt e; omega)

end Cert.ReferenceIdeal.RefValue

end
-- ==== Proof.RDeg.lean ====
import proofs.«126667_g78520592106144_cont_sun_c4_372_13_alg».proof.Proof.ReadP
import proofs.«126667_g78520592106144_cont_sun_c4_372_13_alg».proof.Proof.RIdx
import proofs.«126667_g78520592106144_cont_sun_c4_372_13_alg».proof.Proof.Consts

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

section

variable (Ar : Fin 4 → Fin 512 → Fin 512 → ℝ) (a1 : (⟨S4x512x512, .f32⟩ : BufTy).Contents (Elt Ideal))

/-- The graph and the in-graph number of a node. -/
def nG (u : Fin 2048) : Fin 4 := ⟨u.val / 512, by have := u.isLt; omega⟩
def nI (u : Fin 2048) : Fin 512 := ⟨u.val % 512, by omega⟩

theorem node_nG_nI (u : Fin 2048) : node (nG u) (nI u) = u :=
  Fin.ext (by show u.val / 512 * 512 + u.val % 512 = u.val; omega)

/-- The 0/1 mask of the adjacency entries, flattened, is the adjacency entry. -/
theorem v21_val (hA : ∀ g r c, a1 (ix3 g r c) = ((Ar g r c : ℝ) : EReal)) (hA01 : ∀ g r c, Ar g r c = 0 ∨ Ar g r c = 1)
    (e : Fin 1048576) :
    val_main_v21 (F := Ideal) a1 (ix1 e) = ((Ar (eG e.val e.isLt) (eR e.val) (eC e.val) : ℝ) : EReal) := by
  rw [val_main_v21_apply, val_main_v20_apply, val_main_v19_apply, val_main_v18_apply, val_main_cst_apply]
  rw [at_ix3 a1 (idx_main_v21 (ix1 e))]
  show (FloatOps.uitofp .f32 (FloatOps.cmpf (F := Ideal) (φ := .f32) .une
    (a1 (ix3 (eG e.val e.isLt) (eR e.val) (eC e.val))) (FloatOps.ofBits .f32 0x00000000#32)) : Ideal .f32) = _
  rw [hA]
  exact mask_val _ (hA01 _ _ _)

/-- The degree vector. -/
theorem v37_val (hA : ∀ g r c, a1 (ix3 g r c) = ((Ar g r c : ℝ) : EReal)) (hA01 : ∀ g r c, Ar g r c = 0 ∨ Ar g r c = 1)
    (g : Fin 4) (i : Fin 512) :
    val_main_v37 (F := Ideal) a1 (ix1 (node g i)) = ((Cert.ChebSpec.deg (Ar g) i : ℝ) : EReal) := by
  unfold val_main_v37
  refine deg_applyH Ar scatter_S2048_S1048576x1_S1048576_n_0_0_1 rfl rfl rfl rfl _ _ _ ?_ ?_ ?_ g i
  · intro u
    rw [val_main_v30_apply, val_main_cst_0_apply]
    exact Cert.Consts.ofBits_zero
  · intro e
    rw [v36_val, toInt_ofNat32 _ (by have := e.isLt; omega)]
  · intro e
    exact v21_val Ar a1 hA hA01 e

/-- The inverse square roots of the degrees. -/
theorem v42_val (hA : ∀ g r c, a1 (ix3 g r c) = ((Ar g r c : ℝ) : EReal)) (hA01 : ∀ g r c, Ar g r c = 0 ∨ Ar g r c = 1)
    (u : Fin 2048) :
    val_main_v42 (F := Ideal) a1 (ix1 u) = ((Cert.ChebSpec.dinv (Ar (nG u)) (nI u) : ℝ) : EReal) := by
  rw [val_main_v42_apply, val_main_v39_apply, val_main_v41_apply, val_main_v38_apply, val_main_cst_3_apply,
    val_main_v40_apply, val_main_cst_4_apply, val_main_call0_v1_apply, val_main_call0_v0_apply, val_main_cst_5_apply]
  have h := v37_val Ar a1 hA hA01 (nG u) (nI u)
  rw [node_nG_nI] at h
  rw [h]
  exact dinv_val _

end

end Cert.ReferenceIdeal.RefValue

end
-- ==== Proof.RGather.lean ====
/-
  The gather of single elements of a vector [N] at R start indices [R, 1]: the result [R] at e is the vector
  at the start index of e, read signed and clamped into [0, N - 1].
-/
import Idealize.ShloMosaic.PureOps.Ideal
import Idealize.ShloMosaic.Lib.ValueIdx

namespace Cert.RefLib

open Idealize.ShloMosaic Idealize.ShloMosaic.ValueIdx

abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem vecGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N R wf).start (ix1 e) idx 0 + (vecGatherDims N R wf).batchCoord (ix1 e) 0
      + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem vecGather_apply' {α : Type} {N R w : Nat} (hN : 0 < N)
    (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (e : Fin R) :
    Host.gather d x idx (ix1 e)
      = x (ix1 (⟨min (idx (ix2 e (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact vecGather_apply hN wf x idx e

end Cert.RefLib
-- ==== Proof.RW.lean ====
import proofs.«126667_g78520592106144_cont_sun_c4_372_13_alg».proof.Proof.ReadP
import proofs.«126667_g78520592106144_cont_sun_c4_372_13_alg».proof.Proof.RDeg
import proofs.«126667_g78520592106144_cont_sun_c4_372_13_alg».proof.Proof.RGather

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

section

variable (Ar : Fin 4 → Fin 512 → Fin 512 → ℝ) (a1 : (⟨S4x512x512, .f32⟩ : BufTy).Contents (Elt Ideal))

theorem gather_idx_eq (n : Nat) (hn : n < 2048) (p : min (Int.toNat ((n : Nat) : Int)) (2048 - 1) < 2048) :
    (⟨min (Int.toNat ((n : Nat) : Int)) (2048 - 1), p⟩ : Fin 2048) = ⟨n, hn⟩ :=
  Fin.ext (by show min (Int.toNat ((n : Nat) : Int)) (2048 - 1) = n; rw [Int.toNat_natCast]; omega)

/-- The gather of single elements of a node vector at an index column holding node numbers. -/
theorem nodeGather_val (x : (⟨S2048, .f32⟩ : BufTy).Contents (Elt Ideal)) (idx : (⟨S1048576x1, .i32⟩ : BufTy).Contents (Elt Ideal))
    (f : Fin 2048 → ℝ) (hx : ∀ u : Fin 2048, x (ix1 u) = ((f u : ℝ) : EReal)) (n : Nat) (hn : n < 2048)
    (e : Fin 1048576) (hidx : idx (ix2 e (0 : Fin 1)) = BitVec.ofNat 32 n) :
    Host.gather gather_S2048_S1048576x1_S1048576_n_0_n_n_0_1_1 x idx (ix1 e) = ((f ⟨n, hn⟩ : ℝ) : EReal) := by
  rw [vecGather_apply' (by decide) gather_S2048_S1048576x1_S1048576_n_0_n_n_0_1_1 rfl rfl rfl rfl rfl rfl rfl]
  refine (congrArg (fun u => x (ix1 u)) (Fin.ext ?_ : _ = (⟨n, hn⟩ : Fin 2048))).trans (hx _)
  show min (BitVec.toInt (idx (ix2 e (0 : Fin 1)))).toNat (2048 - 1) = n
  rw [hidx, toInt_ofNat32 _ (by omega), Int.toNat_natCast]
  omega

/-- dinv at the row node of a candidate edge. -/
theorem v49_val (hA : ∀ g r c, a1 (ix3 g r c) = ((Ar g r c : ℝ) : EReal)) (hA01 : ∀ g r c, Ar g r c = 0 ∨ Ar g r c = 1)
    (e : Fin 1048576) :
    val_main_v49 (F := Ideal) a1 (ix1 e) = ((Cert.ChebSpec.dinv (Ar (eG e.val e.isLt)) (eR e.val) : ℝ) : EReal) := by
  unfold val_main_v49
  have he := e.isLt
  refine (nodeGather_val _ _ (fun u => Cert.ChebSpec.dinv (Ar (nG u)) (nI u)) (v42_val Ar a1 hA hA01)
    (e.val / 512) (by omega) e (v48_val e)).trans ?_
  have e1 : nG (⟨e.val / 512, by omega⟩ : Fin 2048) = eG e.val e.isLt :=
    Fin.ext (by show e.val / 512 / 512 = e.val / 262144; omega)
  have e2 : nI (⟨e.val / 512, by omega⟩ : Fin 2048) = eR e.val := rfl
  show ((Cert.ChebSpec.dinv (Ar (nG ⟨e.val / 512, _⟩)) (nI ⟨e.val / 512, _⟩) : ℝ) : EReal) = _
  rw [e1, e2]

/-- dinv at the column node of a candidate edge. -/
theorem v58_val (hA : ∀ g r c, a1 (ix3 g r c) = ((Ar g r c : ℝ) : EReal)) (hA01 : ∀ g r c, Ar g r c = 0 ∨ Ar g r c = 1)
    (e : Fin 1048576) :
    val_main_v58 (F := Ideal) a1 (ix1 e) = ((Cert.ChebSpec.dinv (Ar (eG e.val e.isLt)) (eC e.val) : ℝ) : EReal) := by
  unfold val_main_v58
  have he := e.isLt
  refine (nodeGather_val _ _ (fun u => Cert.ChebSpec.dinv (Ar (nG u)) (nI u)) (v42_val Ar a1 hA hA01)
    (e.val / 262144 * 512 + e.val % 512) (by omega) e (v57_val e)).trans ?_
  have e1 : nG (⟨e.val / 262144 * 512 + e.val % 512, by omega⟩ : Fin 2048) = eG e.val e.isLt :=
    Fin.ext (by show (e.val / 262144 * 512 + e.val % 512) / 512 = e.val / 262144; omega)
  have e2 : nI (⟨e.val / 262144 * 512 + e.val % 512, by omega⟩ : Fin 2048) = eC e.val :=
    Fin.ext (by show (e.val / 262144 * 512 + e.val % 512) % 512 = e.val % 512; omega)
  show ((Cert.ChebSpec.dinv (Ar (nG ⟨e.val / 262144 * 512 + e.val % 512, _⟩))
    (nI ⟨e.val / 262144 * 512 + e.val % 512, _⟩) : ℝ) : EReal) = _
  rw [e1, e2]

/-- The off-diagonal weight of a candidate edge. -/
def wPre (e : Fin 1050624) : ℝ :=
  if h : e.val < 1048576 then
    -(Cert.ChebSpec.dinv (Ar (eG e.val h)) (eR e.val)) * Ar (eG e.val h) (eR e.val) (eC e.val)
      * Cert.ChebSpec.dinv (Ar (eG e.val h)) (eC e.val)
  else 1

/-- The presence of an edge of the full list. -/
def mFull (e : Fin 1050624) : ℝ :=
  if h : e.val < 1048576 then Ar (eG e.val h) (eR e.val) (eC e.val) else 1

theorem v59_val (hA : ∀ g r c, a1 (ix3 g r c) = ((Ar g r c : ℝ) : EReal)) (hA01 : ∀ g r c, Ar g r c = 0 ∨ Ar g r c = 1)
    (e : Fin 1048576) :
    val_main_v59 (F := Ideal) a1 (ix1 e)
      = ((-(Cert.ChebSpec.dinv (Ar (eG e.val e.isLt)) (eR e.val)) * Ar (eG e.val e.isLt) (eR e.val) (eC e.val)
          * Cert.ChebSpec.dinv (Ar (eG e.val e.isLt)) (eC e.val) : ℝ) : EReal) := by
  rw [val_main_v59_apply, val_main_v51_apply, val_main_v50_apply, v49_val Ar a1 hA hA01, v58_val Ar a1 hA hA01,
    v21_val Ar a1 hA hA01]
  show (-((_ : ℝ) : EReal)) * ((_ : ℝ) : EReal) * ((_ : ℝ) : EReal) = _
  rw [← EReal.coe_neg, ← EReal.coe_mul, ← EReal.coe_mul]

theorem v64_val (hA : ∀ g r c, a1 (ix3 g r c) = ((Ar g r c : ℝ) : EReal)) (hA01 : ∀ g r c, Ar g r c = 0 ∨ Ar g r c = 1)
    (e : Fin 1050624) : val_main_v64 (F := Ideal) a1 (ix1 e) = ((wPre Ar e : ℝ) : EReal) := by
  unfold val_main_v64 wPre
  have he := e.isLt
  by_cases h : e.val < 1048576
  · rw [dif_pos h, concatenate_pair_apply_left (t := S1050624) (s₁ := S1048576) (s₂ := S2048) (0 : Fin 1) _ _ _
      (ix1 e) rfl (ix1 (⟨e.val, h⟩ : Fin 1048576)) (fun b => by match b with | ⟨0, _⟩ => rfl)]
    exact v59_val Ar a1 hA hA01 ⟨e.val, h⟩
  · rw [dif_neg h, concatenate_pair_apply_right (t := S1050624) (s₁ := S1048576) (s₂ := S2048) (0 : Fin 1) _ _ _
      (ix1 e) rfl rfl (ix1 (⟨e.val - 1048576, by omega⟩ : Fin 2048))
      (fun b hb => absurd (Subsingleton.elim _ _) hb) (by show e.val - 1048576 + 1048576 = e.val; omega)]
    rw [val_main_v63_apply, val_main_cst_10_apply]
    exact Cert.Consts.ofBits_one

theorem v74_val (hA : ∀ g r c, a1 (ix3 g r c) = ((Ar g r c : ℝ) : EReal)) (hA01 : ∀ g r c, Ar g r c = 0 ∨ Ar g r c = 1)
    (e : Fin 1050624) : val_main_v74 (F := Ideal) a1 (ix1 e) = ((mFull Ar e : ℝ) : EReal) := by
  unfold val_main_v74 mFull
  have he := e.isLt
  by_cases h : e.val < 1048576
  · rw [dif_pos h, concatenate_pair_apply_left (t := S1050624) (s₁ := S1048576) (s₂ := S2048) (0 : Fin 1) _ _ _
      (ix1 e) rfl (ix1 (⟨e.val, h⟩ : Fin 1048576)) (fun b => by match b with | ⟨0, _⟩ => rfl)]
    exact v21_val Ar a1 hA hA01 ⟨e.val, h⟩
  · rw [dif_neg h, concatenate_pair_apply_right (t := S1050624) (s₁ := S1048576) (s₂ := S2048) (0 : Fin 1) _ _ _
      (ix1 e) rfl rfl (ix1 (⟨e.val - 1048576, by omega⟩ : Fin 2048))
      (fun b hb => absurd (Subsingleton.elim _ _) hb) (by show e.val - 1048576 + 1048576 = e.val; omega)]
    rw [val_main_v73_apply, val_main_cst_14_apply]
    exact Cert.Consts.ofBits_one

/-- The real weight of an edge of the full list from its two ingredients. -/
theorem fullW_eq (e : Fin 1050624) :
    wPre Ar e - (if rowN e.val = colN e.val then 1 else 0) * mFull Ar e = fullW Ar e := by
  unfold wPre mFull fullW rowN colN
  have he := e.isLt
  by_cases h : e.val < 1048576
  · simp only [dif_pos h, if_pos h]
    unfold Cert.ChebSpec.edgeW
    by_cases hrc : eR e.val = eC e.val
    · have : e.val / 512 = e.val / 262144 * 512 + e.val % 512 := by
        have := congrArg Fin.val hrc
        simp only [eR, eC] at this
        omega
      rw [if_pos this, if_pos hrc]; ring
    · have : ¬ e.val / 512 = e.val / 262144 * 512 + e.val % 512 := by
        intro h'
        apply hrc
        exact Fin.ext (by show e.val / 512 % 512 = e.val % 512; omega)
      rw [if_neg this, if_neg hrc]; ring
  · simp only [dif_neg h, if_neg h]
    norm_num

/-- The weights of the full edge list. -/
theorem v76_val (hA : ∀ g r c, a1 (ix3 g r c) = ((Ar g r c : ℝ) : EReal)) (hA01 : ∀ g r c, Ar g r c = 0 ∨ Ar g r c = 1)
    (e : Fin 1050624) : val_main_v76 (F := Ideal) a1 (ix1 e) = ((fullW Ar e : ℝ) : EReal) := by
  rw [val_main_v76_apply, val_main_v70_apply, val_main_v69_apply, val_main_call1_v0_apply, val_main_v68_apply,
    val_main_v66_apply, val_main_v65_apply, val_main_cst_11_apply, val_main_v67_apply, val_main_cst_12_apply,
    val_main_call1_v1_apply, val_main_call1_cst_apply, val_main_call2_v1_apply, val_main_call2_v0_apply,
    val_main_cst_13_apply, val_main_v75_apply, val_main_v72_apply, val_main_v71_apply, v61_val, v62_val,
    v64_val Ar a1 hA hA01, v74_val Ar a1 hA hA01, scale_val,
    eq_val _ _ (by have := rowN_lt e; omega) (by have := colN_lt e; omega)]
  show ((wPre Ar e : ℝ) : EReal) - ((_ : ℝ) : EReal) * ((mFull Ar e : ℝ) : EReal) = _
  rw [← EReal.coe_mul, ← EReal.coe_sub, fullW_eq]

end

end Cert.ReferenceIdeal.RefValue

end
-- ==== Proof.LibRowGather.lean ====
/-
  The gather of WHOLE ROWS of a matrix, read at an index.

  For a matrix `x : [N, C]` and an integer column `idx : [R, 1]`, the gather with offset axes `[1]`, collapsed slice
  axes `[0]`, start index map `[0]`, index vector axis `1` and slice sizes `[1, C]` is the matrix `[R, C]` whose
  element `(r, c)` is `x` at row `idx[r, 0]` — read as a signed integer and clamped into `[0, N − 1]`, as a gather
  clamps every start index so that the slice fits — and column `c`. The statement is general in the extents `N`, `R`,
  `C`, in the index width `w` and in the element type, and is meant to be reused: `rowGather_apply` for the dimension
  numbers written out (`rowGatherDims`), `rowGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of whole rows: operand `[N, C]`, start indices `[R, 1]` (one row number per
    result row, on the index vector's axis `1`), result `[R, C]`; operand axis `0` is collapsed and is the one the
    start index addresses, operand axis `1` is the result's offset axis `1`, read whole (slice sizes `[1, C]`). Their
    conditions `wf` are decidable on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. On operand axis `0` (collapsed, in the start index map) the operand index is the clamped start, with
    no batching and no offset part; on operand axis `1` (the offset axis, not in the start index map) the start is `0`
    and the index is the result's column. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowGatherDims N R C wf).start (ix2 r c) idx 0 + (rowGatherDims N R C wf).batchCoord (ix2 r c) 0
        + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
        + (rowGatherDims N R C wf).offCoord (ix2 r c) 1 = _
    rw [GatherDims.batchCoord_eq_zero _ _ _ List.not_mem_nil]
    have hst : (rowGatherDims N R C wf).start (ix2 r c) idx 1 = 0 := by
      unfold GatherDims.start
      rw [dif_neg (fun h => Nat.one_ne_zero (congrArg Fin.val (List.mem_singleton.mp h)))]
    have hmem : (1 : Fin 2) ∈ (rowGatherDims N R C wf).sKept :=
      (GatherDims.mem_sKept _ _).mpr ⟨fun h => Nat.one_ne_zero (congrArg Fin.val (List.mem_singleton.mp h)), List.not_mem_nil⟩
    have hoff : (rowGatherDims N R C wf).offCoord (ix2 r c) 1 = c.val := by
      unfold GatherDims.offCoord
      rw [dif_pos hmem]
      rfl
    rw [hst, hoff]
    simp only [Nat.add_zero, Nat.zero_add]

/-- The same for ANY record of gather dimension numbers over those three shapes whose fields are the row gather's (for a
    record given by its literal fields the seven equations hold by `rfl`). -/
theorem rowGather_apply' {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 (⟨min (idx (ix2 r (0 : Fin 1))).toInt.toNat (N - 1), by omega⟩ : Fin N) c) := by
  obtain ⟨od, cd, ob, sb, sm, iv, ss, wf⟩ := d
  simp only at h1 h2 h3 h4 h5 h6 h7
  subst h1 h2 h3 h4 h5 h6 h7
  exact rowGather_apply hN wf x idx r c

end Cert.Lib
-- ==== Proof.RUpd.lean ====
import proofs.«126667_g78520592106144_cont_sun_c4_372_13_alg».proof.Proof.ReadP
import proofs.«126667_g78520592106144_cont_sun_c4_372_13_alg».proof.Proof.RW
import proofs.«126667_g78520592106144_cont_sun_c4_372_13_alg».proof.Proof.LibRowGather

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

section

theorem srcAt_eq (v : Fin 4 → Fin 512 → Fin 128 → ℝ) (e : Fin 1050624) (k : Fin 128) :
    v (nG ⟨rowN e.val, rowN_lt e⟩) (nI ⟨rowN e.val, rowN_lt e⟩) k = srcAt v e k := by
  unfold srcAt
  have h := rowN_lt e
  exact (show ∀ (a b : Fin 4), a = b → v a (nI ⟨rowN e.val, rowN_lt e⟩) k = v b ⟨rowN e.val % 512, by omega⟩ k by
    rintro _ _ rfl; rfl) _ _ (Fin.ext (by show rowN e.val / 512 = rowN e.val / 512 % 4; omega))

/-- The source array's row at the row node of an edge, gathered. -/
theorem gath_val (src : (⟨S2048x128, .f32⟩ : BufTy).Contents (Elt Ideal)) (v : Fin 4 → Fin 512 → Fin 128 → ℝ)
    (hsrc : ∀ (u : Fin 2048) (k : Fin 128), src (ix2 u k) = ((v (nG u) (nI u) k : ℝ) : EReal))
    (ri : (⟨S1050624x1, .i32⟩ : BufTy).Contents (Elt Ideal))
    (hri : ∀ e : Fin 1050624, ri (ix2 e (0 : Fin 1)) = BitVec.ofNat 32 (rowN e.val))
    (e : Fin 1050624) (k : Fin 128) :
    Host.gather gather_S2048x128_S1050624x1_S1050624x128_1_0_n_n_0_1_1128 src ri (ix2 e k)
      = ((srcAt v e k : ℝ) : EReal) := by
  rw [Cert.Lib.rowGather_apply' (by decide) gather_S2048x128_S1050624x1_S1050624x128_1_0_n_n_0_1_1128
    rfl rfl rfl rfl rfl rfl rfl]
  refine (congrArg (fun u => src (ix2 u k)) (Fin.ext ?_ : _ = (⟨rowN e.val, rowN_lt e⟩ : Fin 2048))).trans
    ((hsrc _ _).trans ?_)
  · show min (BitVec.toInt (ri (ix2 e (0 : Fin 1)))).toNat (2048 - 1) = rowN e.val
    rw [hri, toInt_ofNat32 _ (by have := rowN_lt e; omega), Int.toNat_natCast]
    have := rowN_lt e
    omega
  · exact congrArg _ (srcAt_eq v e k)

end

end Cert.ReferenceIdeal.RefValue

end
-- ==== Proof.RP1.lean ====
import proofs.«126667_g78520592106144_cont_sun_c4_372_13_alg».proof.Proof.ReadP
import proofs.«126667_g78520592106144_cont_sun_c4_372_13_alg».proof.Proof.RUpd

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

section

variable (xr : Fin 4 → Fin 512 → Fin 128 → ℝ) (Ar : Fin 4 → Fin 512 → Fin 512 → ℝ)
  (a0 : (⟨S4x512x128, .f32⟩ : BufTy).Contents (Elt Ideal)) (a1 : (⟨S4x512x512, .f32⟩ : BufTy).Contents (Elt Ideal))

/-- The input features, as rows of the batch. -/
theorem v25_val (hx : ∀ g r k, a0 (ix3 g r k) = ((xr g r k : ℝ) : EReal)) (u : Fin 2048) (k : Fin 128) :
    val_main_v25 (F := Ideal) a0 (ix2 u k) = ((xr (nG u) (nI u) k : ℝ) : EReal) := by
  rw [val_main_v25_apply]
  have hu := u.isLt; have hk := k.isLt
  refine (read3 a0 _ (nG u) (nI u) k
    (by show (u.val * 128 + k.val) / 65536 = u.val / 512; omega)
    (by show (u.val * 128 + k.val) / 128 % 512 = u.val % 512; omega)
    (by show (u.val * 128 + k.val) % 128 = k.val; omega)).trans (hx _ _ _)

/-- The first propagation of layer 1. -/
theorem v97_val (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (g : Fin 4) (c : Fin 512) (k : Fin 128) :
    val_main_v97 (F := Ideal) a0 a1 (ix2 (node g c) k)
      = ((Cert.ChebSpec.P (Ar g) (xr g) c k : ℝ) : EReal) := by
  unfold val_main_v97
  refine prop_applyH Ar xr scatter_S2048x128_S1050624x1_S1050624x128_1_0_0_1 rfl rfl rfl rfl _ _ _ ?_ ?_ ?_ g c k
  · intro u k
    rw [val_main_v80_apply, val_main_cst_15_apply]
    exact Cert.Consts.ofBits_zero
  · intro e
    rw [v96_val, toInt_ofNat32 _ (by have := colN_lt e; omega)]
  · intro e k
    rw [val_main_v90_apply, val_main_v89_apply,
      read2 (val_main_v81 (F := Ideal) a1) _ e (0 : Fin 1) rfl rfl, val_main_v81_apply,
      read1 (val_main_v76 (F := Ideal) a1) _ e rfl, v76_val Ar a1 hA hA01]
    unfold val_main_v88
    rw [gath_val (val_main_v25 (F := Ideal) a0) xr (v25_val xr a0 hx) _ v87_val]
    exact (EReal.coe_mul _ _).symm

/-- The first propagation at any node. -/
theorem v97_val' (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (u : Fin 2048) (k : Fin 128) :
    val_main_v97 (F := Ideal) a0 a1 (ix2 u k)
      = (((fun g => Cert.ChebSpec.P (Ar g) (xr g)) (nG u) (nI u) k : ℝ) : EReal) := by
  have h := v97_val xr Ar a0 a1 hx hA hA01 (nG u) (nI u) k
  rw [node_nG_nI] at h
  exact h

/-- The second propagation of layer 1. -/
theorem v119_val (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (g : Fin 4) (c : Fin 512) (k : Fin 128) :
    val_main_v119 (F := Ideal) a0 a1 (ix2 (node g c) k)
      = ((Cert.ChebSpec.P (Ar g) (Cert.ChebSpec.P (Ar g) (xr g)) c k : ℝ) : EReal) := by
  unfold val_main_v119
  refine prop_applyH Ar (fun g => Cert.ChebSpec.P (Ar g) (xr g)) scatter_S2048x128_S1050624x1_S1050624x128_1_0_0_1
    rfl rfl rfl rfl _ _ _ ?_ ?_ ?_ g c k
  · intro u k
    rw [val_main_v102_apply, val_main_cst_20_apply]
    exact Cert.Consts.ofBits_zero
  · intro e
    rw [v118_val, toInt_ofNat32 _ (by have := colN_lt e; omega)]
  · intro e k
    rw [val_main_v112_apply, val_main_v111_apply,
      read2 (val_main_v103 (F := Ideal) a1) _ e (0 : Fin 1) rfl rfl, val_main_v103_apply,
      read1 (val_main_v76 (F := Ideal) a1) _ e rfl, v76_val Ar a1 hA hA01]
    unfold val_main_v110
    rw [gath_val (val_main_v97 (F := Ideal) a0 a1) (fun g => Cert.ChebSpec.P (Ar g) (xr g))
      (v97_val' xr Ar a0 a1 hx hA hA01) _ v109_val]
    exact (EReal.coe_mul _ _).symm

end

end Cert.ReferenceIdeal.RefValue

end
-- ==== Proof.RL1.lean ====
import proofs.«126667_g78520592106144_cont_sun_c4_372_13_alg».proof.Proof.ReadP
import proofs.«126667_g78520592106144_cont_sun_c4_372_13_alg».proof.Proof.RP1

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

theorem sum_coe_mul {n : Nat} (f g : Fin n → EReal) (fr gr : Fin n → ℝ) (hf : ∀ l, f l = ((fr l : ℝ) : EReal))
    (hg : ∀ l, g l = ((gr l : ℝ) : EReal)) : ∑ l, f l * g l = ((∑ l, fr l * gr l : ℝ) : EReal) := by
  simp only [hf, hg, ← EReal.coe_mul]
  exact Cert.Lib.coe_sum _ _

section

variable (xr : Fin 4 → Fin 512 → Fin 128 → ℝ) (Ar : Fin 4 → Fin 512 → Fin 512 → ℝ)
  (W1r : Fin 3 → Fin 128 → Fin 128 → ℝ) (b1r : Fin 128 → ℝ) (W2r : Fin 3 → Fin 128 → Fin 64 → ℝ) (b2r : Fin 64 → ℝ)
  (a0 : (⟨S4x512x128, .f32⟩ : BufTy).Contents (Elt Ideal)) (a1 : (⟨S4x512x512, .f32⟩ : BufTy).Contents (Elt Ideal))
  (a2 : (⟨S3x128x128, .f32⟩ : BufTy).Contents (Elt Ideal)) (a3 : (⟨S128, .f32⟩ : BufTy).Contents (Elt Ideal))
  (a4 : (⟨S3x128x64, .f32⟩ : BufTy).Contents (Elt Ideal)) (a5 : (⟨S64, .f32⟩ : BufTy).Contents (Elt Ideal))

/-- The three weight matrices of the layer. -/
theorem v78_val (hW : ∀ j l k, a2 (ix3 j l k) = ((W1r j l k : ℝ) : EReal)) (l : Fin 128) (k : Fin 128) :
    val_main_v78 (F := Ideal) a2 (ix2 l k) = ((W1r 0 l k : ℝ) : EReal) := by
  rw [val_main_v78_apply, val_main_v77_apply]
  have hl := l.isLt; have hk := k.isLt
  exact (read3 a2 _ (0 : Fin 3) l k rfl
    (by show (l.val * 128 + k.val) / 128 % 128 = l.val; omega)
    (by show (l.val * 128 + k.val) % 128 = k.val; omega)).trans (hW _ _ _)

theorem v99_val (hW : ∀ j l k, a2 (ix3 j l k) = ((W1r j l k : ℝ) : EReal)) (l : Fin 128) (k : Fin 128) :
    val_main_v99 (F := Ideal) a2 (ix2 l k) = ((W1r 1 l k : ℝ) : EReal) := by
  rw [val_main_v99_apply, val_main_v98_apply]
  have hl := l.isLt; have hk := k.isLt
  exact (read3 a2 _ (1 : Fin 3) l k rfl
    (by show (l.val * 128 + k.val) / 128 % 128 = l.val; omega)
    (by show (l.val * 128 + k.val) % 128 = k.val; omega)).trans (hW _ _ _)

theorem v124_val (hW : ∀ j l k, a2 (ix3 j l k) = ((W1r j l k : ℝ) : EReal)) (l : Fin 128) (k : Fin 128) :
    val_main_v124 (F := Ideal) a2 (ix2 l k) = ((W1r 2 l k : ℝ) : EReal) := by
  rw [val_main_v124_apply, val_main_v123_apply]
  have hl := l.isLt; have hk := k.isLt
  exact (read3 a2 _ (2 : Fin 3) l k rfl
    (by show (l.val * 128 + k.val) / 128 % 128 = l.val; omega)
    (by show (l.val * 128 + k.val) % 128 = k.val; omega)).trans (hW _ _ _)

/-- The layer at a node, before the relu. -/
theorem v129_val (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (hW : ∀ j l k, a2 (ix3 j l k) = ((W1r j l k : ℝ) : EReal)) (hb : ∀ k, a3 (ix1 k) = ((b1r k : ℝ) : EReal))
    (g : Fin 4) (i : Fin 512) (k : Fin 128) :
    val_main_v129 (F := Ideal) a0 a1 a2 a3 (ix2 (node g i) k)
      = ((Cert.ChebSpec.layerR (Ar g) W1r b1r (xr g) i k : ℝ) : EReal) := by
  have hsrc : ∀ (u : Fin 2048) (l : Fin 128), val_main_v25 (F := Ideal) a0 (ix2 u l)
      = ((xr (nG u) (nI u) l : ℝ) : EReal) := v25_val xr a0 hx
  have hg1 : nG (node g i) = g := Fin.ext (by show (g.val * 512 + i.val) / 512 = g.val; have := i.isLt; omega)
  have hi1 : nI (node g i) = i := Fin.ext (by show (g.val * 512 + i.val) % 512 = i.val; have := i.isLt; omega)
  have d0 : val_main_v79 (F := Ideal) a0 a2 (ix2 (node g i) k)
      = ((Cert.ChebSpec.mm (xr g) (W1r 0) i k : ℝ) : EReal) := by
    rw [val_main_v79_apply]
    unfold Cert.ChebSpec.mm
    refine sum_coe_mul _ _ _ _ (fun l => ?_) (fun l => ?_)
    · rw [read2 (val_main_v25 (F := Ideal) a0) _ (node g i) l rfl rfl, hsrc, hg1, hi1]
    · rw [read2 (val_main_v78 (F := Ideal) a2) _ l k rfl rfl, v78_val W1r a2 hW]
  have d1 : val_main_v100 (F := Ideal) a0 a1 a2 (ix2 (node g i) k)
      = ((Cert.ChebSpec.mm (Cert.ChebSpec.P (Ar g) (xr g)) (W1r 1) i k : ℝ) : EReal) := by
    rw [val_main_v100_apply]
    unfold Cert.ChebSpec.mm
    refine sum_coe_mul _ _ _ _ (fun l => ?_) (fun l => ?_)
    · rw [read2 (val_main_v97 (F := Ideal) a0 a1) _ (node g i) l rfl rfl, v97_val xr Ar a0 a1 hx hA hA01 g i l]
    · rw [read2 (val_main_v99 (F := Ideal) a2) _ l k rfl rfl, v99_val W1r a2 hW]
  have d2 : val_main_v125 (F := Ideal) a0 a1 a2 (ix2 (node g i) k)
      = ((Cert.ChebSpec.mm (fun i l => 2 * Cert.ChebSpec.P (Ar g) (Cert.ChebSpec.P (Ar g) (xr g)) i l - xr g i l)
          (W1r 2) i k : ℝ) : EReal) := by
    rw [val_main_v125_apply]
    unfold Cert.ChebSpec.mm
    refine sum_coe_mul _ _ _ _ (fun l => ?_) (fun l => ?_)
    · rw [read2 (val_main_v122 (F := Ideal) a0 a1) _ (node g i) l rfl rfl, val_main_v122_apply,
        val_main_v121_apply, val_main_v120_apply, val_main_cst_25_apply, v119_val xr Ar a0 a1 hx hA hA01 g i l, hsrc, hg1, hi1]
      show Ideal.ofBits .f32 0x40000000#32 * ((_ : ℝ) : EReal) - ((_ : ℝ) : EReal) = _
      rw [Cert.Consts.ofBits_two, ← EReal.coe_mul, ← EReal.coe_sub]
    · rw [read2 (val_main_v124 (F := Ideal) a2) _ l k rfl rfl, v124_val W1r a2 hW]
  rw [val_main_v129_apply, val_main_v126_apply, val_main_v101_apply, d0, d1, d2, val_main_v128_apply,
    val_main_v127_apply, read1 a3 _ k rfl, hb]
  show ((_ : ℝ) : EReal) + ((_ : ℝ) : EReal) + ((_ : ℝ) : EReal) + ((_ : ℝ) : EReal) = _
  rw [← EReal.coe_add, ← EReal.coe_add, ← EReal.coe_add]
  rfl

end

/-- The hidden features: the first layer followed by the relu. -/
def hR (xr : Fin 4 → Fin 512 → Fin 128 → ℝ) (Ar : Fin 4 → Fin 512 → Fin 512 → ℝ)
    (W1r : Fin 3 → Fin 128 → Fin 128 → ℝ) (b1r : Fin 128 → ℝ) (g : Fin 4) : Fin 512 → Fin 128 → ℝ :=
  Cert.ChebSpec.relu (Cert.ChebSpec.layerR (Ar g) W1r b1r (xr g))

theorem v130_val (xr : Fin 4 → Fin 512 → Fin 128 → ℝ) (Ar : Fin 4 → Fin 512 → Fin 512 → ℝ)
    (W1r : Fin 3 → Fin 128 → Fin 128 → ℝ) (b1r : Fin 128 → ℝ)
    (a0 : (⟨S4x512x128, .f32⟩ : BufTy).Contents (Elt Ideal)) (a1 : (⟨S4x512x512, .f32⟩ : BufTy).Contents (Elt Ideal))
    (a2 : (⟨S3x128x128, .f32⟩ : BufTy).Contents (Elt Ideal)) (a3 : (⟨S128, .f32⟩ : BufTy).Contents (Elt Ideal))
    (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (hW : ∀ j l k, a2 (ix3 j l k) = ((W1r j l k : ℝ) : EReal)) (hb : ∀ k, a3 (ix1 k) = ((b1r k : ℝ) : EReal))
    (u : Fin 2048) (l : Fin 128) :
    val_main_v130 (F := Ideal) a0 a1 a2 a3 (ix2 u l) = ((hR xr Ar W1r b1r (nG u) (nI u) l : ℝ) : EReal) := by
  have h := v129_val xr Ar W1r b1r a0 a1 a2 a3 hx hA hA01 hW hb (nG u) (nI u) l
  rw [node_nG_nI] at h
  rw [val_main_v130_apply, h, val_main_call3_v0_apply, val_main_call3_cst_apply]
  show max ((_ : ℝ) : EReal) (Ideal.ofBits .f32 0x00000000#32) = _
  rw [Cert.Consts.ofBits_zero, ← EReal.coe_zero, Cert.Lib.coe_max]
  rfl

end Cert.ReferenceIdeal.RefValue

end
-- ==== Proof.RIdx2.lean ====
import proofs.«126667_g78520592106144_cont_sun_c4_372_13_alg».proof.Proof.ReadP
import proofs.«126667_g78520592106144_cont_sun_c4_372_13_alg».proof.Proof.RScalar

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

/-! The second layer recomputes the index arrays, the degrees and the weights by the same operations on the same
    operands: the stages are the first layer's. -/

theorem v132_eq : val_main_v132 (F := Ideal) = val_main_v27 (F := Ideal) := rfl
theorem v134_eq : val_main_v134 (F := Ideal) = val_main_v29 (F := Ideal) := rfl
theorem v141_eq : val_main_v141 (F := Ideal) = val_main_v36 (F := Ideal) := rfl
theorem v153_eq : val_main_v153 (F := Ideal) = val_main_v48 (F := Ideal) := rfl
theorem v162_eq : val_main_v162 (F := Ideal) = val_main_v57 (F := Ideal) := rfl
theorem v166_eq : val_main_v166 (F := Ideal) = val_main_v61 (F := Ideal) := rfl
theorem v167_eq : val_main_v167 (F := Ideal) = val_main_v62 (F := Ideal) := rfl
theorem v192_eq : val_main_v192 (F := Ideal) = val_main_v87 (F := Ideal) := rfl
theorem v201_eq : val_main_v201 (F := Ideal) = val_main_v96 (F := Ideal) := rfl
theorem v214_eq : val_main_v214 (F := Ideal) = val_main_v109 (F := Ideal) := rfl
theorem v223_eq : val_main_v223 (F := Ideal) = val_main_v118 (F := Ideal) := rfl

theorem v142_eq (a1 : (⟨S4x512x512, .f32⟩ : BufTy).Contents (Elt Ideal)) :
    val_main_v142 (F := Ideal) a1 = val_main_v37 (F := Ideal) a1 := rfl
theorem v147_eq (a1 : (⟨S4x512x512, .f32⟩ : BufTy).Contents (Elt Ideal)) :
    val_main_v147 (F := Ideal) a1 = val_main_v42 (F := Ideal) a1 := rfl
theorem v181_eq (a1 : (⟨S4x512x512, .f32⟩ : BufTy).Contents (Elt Ideal)) :
    val_main_v181 (F := Ideal) a1 = val_main_v76 (F := Ideal) a1 := rfl
theorem v185_eq : val_main_v185 (F := Ideal) = val_main_v80 (F := Ideal) := rfl
theorem v207_eq : val_main_v207 (F := Ideal) = val_main_v102 (F := Ideal) := rfl

end Cert.ReferenceIdeal.RefValue

end
-- ==== Proof.RP2.lean ====
import proofs.«126667_g78520592106144_cont_sun_c4_372_13_alg».proof.Proof.ReadP
import proofs.«126667_g78520592106144_cont_sun_c4_372_13_alg».proof.Proof.RL1
import proofs.«126667_g78520592106144_cont_sun_c4_372_13_alg».proof.Proof.RIdx2

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

section

variable (xr : Fin 4 → Fin 512 → Fin 128 → ℝ) (Ar : Fin 4 → Fin 512 → Fin 512 → ℝ)
  (W1r : Fin 3 → Fin 128 → Fin 128 → ℝ) (b1r : Fin 128 → ℝ)
  (a0 : (⟨S4x512x128, .f32⟩ : BufTy).Contents (Elt Ideal)) (a1 : (⟨S4x512x512, .f32⟩ : BufTy).Contents (Elt Ideal))
  (a2 : (⟨S3x128x128, .f32⟩ : BufTy).Contents (Elt Ideal)) (a3 : (⟨S128, .f32⟩ : BufTy).Contents (Elt Ideal))

/-- The first propagation of layer 2. -/
theorem v202_val (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (hW : ∀ j l k, a2 (ix3 j l k) = ((W1r j l k : ℝ) : EReal)) (hb : ∀ k, a3 (ix1 k) = ((b1r k : ℝ) : EReal))
    (g : Fin 4) (c : Fin 512) (k : Fin 128) :
    val_main_v202 (F := Ideal) a0 a1 a2 a3 (ix2 (node g c) k)
      = ((Cert.ChebSpec.P (Ar g) (hR xr Ar W1r b1r g) c k : ℝ) : EReal) := by
  unfold val_main_v202
  refine prop_applyH Ar (hR xr Ar W1r b1r) scatter_S2048x128_S1050624x1_S1050624x128_1_0_0_1 rfl rfl rfl rfl _ _ _
    ?_ ?_ ?_ g c k
  · intro u k
    rw [v185_eq, val_main_v80_apply, val_main_cst_15_apply]
    exact Cert.Consts.ofBits_zero
  · intro e
    rw [v201_eq, v96_val, toInt_ofNat32 _ (by have := colN_lt e; omega)]
  · intro e k
    rw [val_main_v195_apply, val_main_v194_apply,
      read2 (val_main_v186 (F := Ideal) a1) _ e (0 : Fin 1) rfl rfl, val_main_v186_apply,
      read1 (val_main_v181 (F := Ideal) a1) _ e rfl, v181_eq, v76_val Ar a1 hA hA01]
    unfold val_main_v193
    rw [v192_eq, gath_val (val_main_v130 (F := Ideal) a0 a1 a2 a3) (hR xr Ar W1r b1r)
      (v130_val xr Ar W1r b1r a0 a1 a2 a3 hx hA hA01 hW hb) _ v87_val]
    exact (EReal.coe_mul _ _).symm

theorem v202_val' (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (hW : ∀ j l k, a2 (ix3 j l k) = ((W1r j l k : ℝ) : EReal)) (hb : ∀ k, a3 (ix1 k) = ((b1r k : ℝ) : EReal))
    (u : Fin 2048) (k : Fin 128) :
    val_main_v202 (F := Ideal) a0 a1 a2 a3 (ix2 u k)
      = (((fun g => Cert.ChebSpec.P (Ar g) (hR xr Ar W1r b1r g)) (nG u) (nI u) k : ℝ) : EReal) := by
  have h := v202_val xr Ar W1r b1r a0 a1 a2 a3 hx hA hA01 hW hb (nG u) (nI u) k
  rw [node_nG_nI] at h
  exact h

/-- The second propagation of layer 2. -/
theorem v224_val (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (hW : ∀ j l k, a2 (ix3 j l k) = ((W1r j l k : ℝ) : EReal)) (hb : ∀ k, a3 (ix1 k) = ((b1r k : ℝ) : EReal))
    (g : Fin 4) (c : Fin 512) (k : Fin 128) :
    val_main_v224 (F := Ideal) a0 a1 a2 a3 (ix2 (node g c) k)
      = ((Cert.ChebSpec.P (Ar g) (Cert.ChebSpec.P (Ar g) (hR xr Ar W1r b1r g)) c k : ℝ) : EReal) := by
  unfold val_main_v224
  refine prop_applyH Ar (fun g => Cert.ChebSpec.P (Ar g) (hR xr Ar W1r b1r g))
    scatter_S2048x128_S1050624x1_S1050624x128_1_0_0_1 rfl rfl rfl rfl _ _ _ ?_ ?_ ?_ g c k
  · intro u k
    rw [v207_eq, val_main_v102_apply, val_main_cst_20_apply]
    exact Cert.Consts.ofBits_zero
  · intro e
    rw [v223_eq, v118_val, toInt_ofNat32 _ (by have := colN_lt e; omega)]
  · intro e k
    rw [val_main_v217_apply, val_main_v216_apply,
      read2 (val_main_v208 (F := Ideal) a1) _ e (0 : Fin 1) rfl rfl, val_main_v208_apply,
      read1 (val_main_v181 (F := Ideal) a1) _ e rfl, v181_eq, v76_val Ar a1 hA hA01]
    unfold val_main_v215
    rw [v214_eq, gath_val (val_main_v202 (F := Ideal) a0 a1 a2 a3) (fun g => Cert.ChebSpec.P (Ar g) (hR xr Ar W1r b1r g))
      (v202_val' xr Ar W1r b1r a0 a1 a2 a3 hx hA hA01 hW hb) _ v109_val]
    exact (EReal.coe_mul _ _).symm

end

end Cert.ReferenceIdeal.RefValue

end
-- ==== Proof.RL2.lean ====
import proofs.«126667_g78520592106144_cont_sun_c4_372_13_alg».proof.Proof.ReadP
import proofs.«126667_g78520592106144_cont_sun_c4_372_13_alg».proof.Proof.RP2

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.RefLib

section

variable (xr : Fin 4 → Fin 512 → Fin 128 → ℝ) (Ar : Fin 4 → Fin 512 → Fin 512 → ℝ)
  (W1r : Fin 3 → Fin 128 → Fin 128 → ℝ) (b1r : Fin 128 → ℝ) (W2r : Fin 3 → Fin 128 → Fin 64 → ℝ) (b2r : Fin 64 → ℝ)
  (a0 : (⟨S4x512x128, .f32⟩ : BufTy).Contents (Elt Ideal)) (a1 : (⟨S4x512x512, .f32⟩ : BufTy).Contents (Elt Ideal))
  (a2 : (⟨S3x128x128, .f32⟩ : BufTy).Contents (Elt Ideal)) (a3 : (⟨S128, .f32⟩ : BufTy).Contents (Elt Ideal))
  (a4 : (⟨S3x128x64, .f32⟩ : BufTy).Contents (Elt Ideal)) (a5 : (⟨S64, .f32⟩ : BufTy).Contents (Elt Ideal))

/-- The three weight matrices of the layer. -/
theorem v183_val (hW : ∀ j l k, a4 (ix3 j l k) = ((W2r j l k : ℝ) : EReal)) (l : Fin 128) (k : Fin 64) :
    val_main_v183 (F := Ideal) a4 (ix2 l k) = ((W2r 0 l k : ℝ) : EReal) := by
  rw [val_main_v183_apply, val_main_v182_apply]
  have hl := l.isLt; have hk := k.isLt
  exact (read3 a4 _ (0 : Fin 3) l k rfl
    (by show (l.val * 64 + k.val) / 64 % 128 = l.val; omega)
    (by show (l.val * 64 + k.val) % 64 = k.val; omega)).trans (hW _ _ _)

theorem v204_val (hW : ∀ j l k, a4 (ix3 j l k) = ((W2r j l k : ℝ) : EReal)) (l : Fin 128) (k : Fin 64) :
    val_main_v204 (F := Ideal) a4 (ix2 l k) = ((W2r 1 l k : ℝ) : EReal) := by
  rw [val_main_v204_apply, val_main_v203_apply]
  have hl := l.isLt; have hk := k.isLt
  exact (read3 a4 _ (1 : Fin 3) l k rfl
    (by show (l.val * 64 + k.val) / 64 % 128 = l.val; omega)
    (by show (l.val * 64 + k.val) % 64 = k.val; omega)).trans (hW _ _ _)

theorem v229_val (hW : ∀ j l k, a4 (ix3 j l k) = ((W2r j l k : ℝ) : EReal)) (l : Fin 128) (k : Fin 64) :
    val_main_v229 (F := Ideal) a4 (ix2 l k) = ((W2r 2 l k : ℝ) : EReal) := by
  rw [val_main_v229_apply, val_main_v228_apply]
  have hl := l.isLt; have hk := k.isLt
  exact (read3 a4 _ (2 : Fin 3) l k rfl
    (by show (l.val * 64 + k.val) / 64 % 128 = l.val; omega)
    (by show (l.val * 64 + k.val) % 64 = k.val; omega)).trans (hW _ _ _)

/-- The second layer at a node. -/
theorem v234_val (hx : ∀ g r k, a0 (ix3 g r k) = ((xr g r k : ℝ) : EReal))
    (hA : ∀ g r c, a1 (ix3 g r c) = ((Ar g r c : ℝ) : EReal)) (hA01 : ∀ g r c, Ar g r c = 0 ∨ Ar g r c = 1)
    (hW1 : ∀ j l k, a2 (ix3 j l k) = ((W1r j l k : ℝ) : EReal)) (hb1 : ∀ k, a3 (ix1 k) = ((b1r k : ℝ) : EReal))
    (hW : ∀ j l k, a4 (ix3 j l k) = ((W2r j l k : ℝ) : EReal)) (hb : ∀ k, a5 (ix1 k) = ((b2r k : ℝ) : EReal))
    (g : Fin 4) (i : Fin 512) (k : Fin 64) :
    val_main_v234 (F := Ideal) a0 a1 a2 a3 a4 a5 (ix2 (node g i) k)
      = ((Cert.ChebSpec.layerR (Ar g) W2r b2r (hR xr Ar W1r b1r g) i k : ℝ) : EReal) := by
  have hsrc : ∀ (u : Fin 2048) (l : Fin 128), val_main_v130 (F := Ideal) a0 a1 a2 a3 (ix2 u l)
      = ((hR xr Ar W1r b1r (nG u) (nI u) l : ℝ) : EReal) := v130_val xr Ar W1r b1r a0 a1 a2 a3 hx hA hA01 hW1 hb1
  have hg1 : nG (node g i) = g := Fin.ext (by show (g.val * 512 + i.val) / 512 = g.val; have := i.isLt; omega)
  have hi1 : nI (node g i) = i := Fin.ext (by show (g.val * 512 + i.val) % 512 = i.val; have := i.isLt; omega)
  have d0 : val_main_v184 (F := Ideal) a0 a1 a2 a3 a4 (ix2 (node g i) k)
      = ((Cert.ChebSpec.mm (hR xr Ar W1r b1r g) (W2r 0) i k : ℝ) : EReal) := by
    rw [val_main_v184_apply]
    unfold Cert.ChebSpec.mm
    refine sum_coe_mul _ _ _ _ (fun l => ?_) (fun l => ?_)
    · rw [read2 (val_main_v130 (F := Ideal) a0 a1 a2 a3) _ (node g i) l rfl rfl, hsrc, hg1, hi1]
    · rw [read2 (val_main_v183 (F := Ideal) a4) _ l k rfl rfl, v183_val W2r a4 hW]
  have d1 : val_main_v205 (F := Ideal) a0 a1 a2 a3 a4 (ix2 (node g i) k)
      = ((Cert.ChebSpec.mm (Cert.ChebSpec.P (Ar g) (hR xr Ar W1r b1r g)) (W2r 1) i k : ℝ) : EReal) := by
    rw [val_main_v205_apply]
    unfold Cert.ChebSpec.mm
    refine sum_coe_mul _ _ _ _ (fun l => ?_) (fun l => ?_)
    · rw [read2 (val_main_v202 (F := Ideal) a0 a1 a2 a3) _ (node g i) l rfl rfl, v202_val xr Ar W1r b1r a0 a1 a2 a3 hx hA hA01 hW1 hb1 g i l]
    · rw [read2 (val_main_v204 (F := Ideal) a4) _ l k rfl rfl, v204_val W2r a4 hW]
  have d2 : val_main_v230 (F := Ideal) a0 a1 a2 a3 a4 (ix2 (node g i) k)
      = ((Cert.ChebSpec.mm (fun i l => 2 * Cert.ChebSpec.P (Ar g) (Cert.ChebSpec.P (Ar g) (hR xr Ar W1r b1r g)) i l - hR xr Ar W1r b1r g i l)
          (W2r 2) i k : ℝ) : EReal) := by
    rw [val_main_v230_apply]
    unfold Cert.ChebSpec.mm
    refine sum_coe_mul _ _ _ _ (fun l => ?_) (fun l => ?_)
    · rw [read2 (val_main_v227 (F := Ideal) a0 a1 a2 a3) _ (node g i) l rfl rfl, val_main_v227_apply,
        val_main_v226_apply, val_main_v225_apply, val_main_cst_51_apply, v224_val xr Ar W1r b1r a0 a1 a2 a3 hx hA hA01 hW1 hb1 g i l, hsrc, hg1, hi1]
      show Ideal.ofBits .f32 0x40000000#32 * ((_ : ℝ) : EReal) - ((_ : ℝ) : EReal) = _
      rw [Cert.Consts.ofBits_two, ← EReal.coe_mul, ← EReal.coe_sub]
    · rw [read2 (val_main_v229 (F := Ideal) a4) _ l k rfl rfl, v229_val W2r a4 hW]
  rw [val_main_v234_apply, val_main_v231_apply, val_main_v206_apply, d0, d1, d2, val_main_v233_apply,
    val_main_v232_apply, read1 a5 _ k rfl, hb]
  show ((_ : ℝ) : EReal) + ((_ : ℝ) : EReal) + ((_ : ℝ) : EReal) + ((_ : ℝ) : EReal) = _
  rw [← EReal.coe_add, ← EReal.coe_add, ← EReal.coe_add]
  rfl

end

end Cert.ReferenceIdeal.RefValue

end
-- ==== Proof.KLsmRef.lean ====
/-
  The edge arrangement's row-wise log-softmax, read entry by entry.

  When the array it is applied to holds real numbers `o g r k`, each stage of the log-softmax is a real number:
  the row maximum started from `-∞` is the real maximum of the row, the shifted entries and their exponentials
  are real, the row sum of the exponentials is a positive real, so its logarithm is real, and the result is
  `(o - m) - log ∑ exp (o - m)`.
-/
import proofs.«126667_g78520592106144_cont_sun_c4_372_13_alg».proof.Proof.ReadP
import proofs.«126667_g78520592106144_cont_sun_c4_372_13_alg».proof.Proof.Spec
import proofs.«126667_g78520592106144_cont_sun_c4_372_13_alg».proof.Proof.LibERealCoe
import proofs.«126667_g78520592106144_cont_sun_c4_372_13_alg».proof.Proof.Consts

noncomputable section

namespace Cert.ReferenceIdeal.RefLsm

open Cert.ReferenceIdeal Cert.ReferenceIdeal.Read Idealize.ShloMosaic Idealize.ShloMosaic.ValueIdx Cert.ChebSpec
open Cert.ReferenceIdeal.Facts₀

/-- The running maximum from `-∞` of 64 coerced reals is their coerced maximum. -/
theorem fold_max_bot_coe (f : Fin 64 → ℝ) :
    (Finset.univ : Finset (Fin 64)).fold max (⊥ : EReal) (fun k => ((f k : ℝ) : EReal))
      = ((Finset.univ.sup' Finset.univ_nonempty f : ℝ) : EReal) := by
  rw [Cert.Lib.coe_sup']
  apply le_antisymm
  · exact (Finset.fold_max_le _).mpr ⟨bot_le, fun k _ => Finset.le_sup' (fun i => ((f i : ℝ) : EReal)) (Finset.mem_univ k)⟩
  · obtain ⟨k, -, hk⟩ := Finset.exists_mem_eq_sup' Finset.univ_nonempty (fun i => ((f i : ℝ) : EReal))
    exact (Finset.le_fold_max _).mpr (Or.inr ⟨k, Finset.mem_univ k, by rw [hk]⟩)

/-- The index of row `(g, r)` with coordinate `k` put back on the last axis. -/
theorem lift_ix3 (hR : S4x512x64.Reduces [2] S4x512) (g : Fin 4) (r : Fin 512) (k : Fin 64) :
    hR.lift (ix2 g r) k = ix3 g r k := by
  funext c
  refine Fin.ext ?_
  match c with
  | ⟨0, _⟩ => rfl
  | ⟨1, _⟩ => rfl
  | ⟨2, _⟩ => rfl

variable (o : Fin 4 → Fin 512 → Fin 64 → ℝ)

/-- The row maximum. -/
theorem v0_apply (a0 : FVec Ideal S4x512x128 .f32) (a1 : FVec Ideal S4x512x512 .f32) (a2 : FVec Ideal S3x128x128 .f32) (a3 : FVec Ideal S128 .f32)
    (a4 : FVec Ideal S3x128x64 .f32) (a5 : FVec Ideal S64 .f32)
    (h235 : ∀ g r k, val_main_v235 (F := Ideal) a0 a1 a2 a3 a4 a5 (ix3 g r k) = ((o g r k : ℝ) : EReal)) (g : Fin 4) (r : Fin 512) :
    val_main_call7_v0 (F := Ideal) a0 a1 a2 a3 a4 a5 (ix2 g r) = ((rowMax (o g) r : ℝ) : EReal) := by
  unfold val_main_call7_v0
  have hR : S4x512x64.Reduces [2] S4x512 := by decide
  refine (Host.reduce_eq_fold_single (FloatOps.maximumf (F := Ideal) (φ := .f32)) _ _ reducesTo_S4x512x64_S4x512_d2 hR h_S_
    (ix2 g r)).trans ?_
  have hl : (fun k' : Fin 64 => val_main_v235 (F := Ideal) a0 a1 a2 a3 a4 a5 (hR.lift (ix2 g r) k'))
      = fun k' : Fin 64 => ((o g r k' : ℝ) : EReal) :=
    funext fun k' => (congrArg (val_main_v235 (F := Ideal) a0 a1 a2 a3 a4 a5) (lift_ix3 hR g r k')).trans (h235 g r k')
  have hb : val_main_call7_cst (F := Ideal) (Shape.Idx.first h_S_) = (⊥ : EReal) := Cert.Consts.ofBits_bot
  calc Finset.fold (FloatOps.maximumf (F := Ideal) (φ := .f32)) (val_main_call7_cst (F := Ideal) (Shape.Idx.first h_S_))
        (fun k' : Fin 64 => val_main_v235 (F := Ideal) a0 a1 a2 a3 a4 a5 (hR.lift (ix2 g r) k')) (Finset.univ : Finset (Fin 64))
      = Finset.fold max (⊥ : EReal) (fun k' : Fin 64 => ((o g r k' : ℝ) : EReal)) Finset.univ := by rw [hl, hb]; rfl
    _ = _ := fold_max_bot_coe (o g r)

/-- The row maximum, compared once more with `-∞`. -/
theorem v2_apply (a0 : FVec Ideal S4x512x128 .f32) (a1 : FVec Ideal S4x512x512 .f32) (a2 : FVec Ideal S3x128x128 .f32) (a3 : FVec Ideal S128 .f32)
    (a4 : FVec Ideal S3x128x64 .f32) (a5 : FVec Ideal S64 .f32)
    (h235 : ∀ g r k, val_main_v235 (F := Ideal) a0 a1 a2 a3 a4 a5 (ix3 g r k) = ((o g r k : ℝ) : EReal)) (g : Fin 4) (r : Fin 512) :
    val_main_call7_v2 (F := Ideal) a0 a1 a2 a3 a4 a5 (ix2 g r) = ((rowMax (o g) r : ℝ) : EReal) := by
  show max (val_main_call7_v1 (F := Ideal) (ix2 g r)) (val_main_call7_v0 (F := Ideal) a0 a1 a2 a3 a4 a5 (ix2 g r)) = _
  rw [v0_apply o a0 a1 a2 a3 a4 a5 h235 g r, val_main_call7_v1_apply]
  show max (Ideal.ofBits .f32 0xFF800000#32) _ = _
  rw [Cert.Consts.ofBits_bot]
  exact max_eq_right bot_le

/-- The row maximum spread over the row. -/
theorem v4_apply (a0 : FVec Ideal S4x512x128 .f32) (a1 : FVec Ideal S4x512x512 .f32) (a2 : FVec Ideal S3x128x128 .f32) (a3 : FVec Ideal S128 .f32)
    (a4 : FVec Ideal S3x128x64 .f32) (a5 : FVec Ideal S64 .f32)
    (h235 : ∀ g r k, val_main_v235 (F := Ideal) a0 a1 a2 a3 a4 a5 (ix3 g r k) = ((o g r k : ℝ) : EReal)) (g : Fin 4) (r : Fin 512) (k : Fin 64) :
    val_main_call7_v4 (F := Ideal) a0 a1 a2 a3 a4 a5 (ix3 g r k) = ((rowMax (o g) r : ℝ) : EReal) := by
  rw [val_main_call7_v4_apply, val_main_call7_v3_apply]
  have e : idx_main_call7_v3 (idx_main_call7_v4 (ix3 g r k)) = ix2 g r := by
    funext c
    refine Fin.ext ?_
    match c with
    | ⟨0, _⟩ => rfl
    | ⟨1, _⟩ => rfl
  rw [e]
  exact v2_apply o a0 a1 a2 a3 a4 a5 h235 g r

/-- The shifted entries. -/
theorem v5_apply (a0 : FVec Ideal S4x512x128 .f32) (a1 : FVec Ideal S4x512x512 .f32) (a2 : FVec Ideal S3x128x128 .f32) (a3 : FVec Ideal S128 .f32)
    (a4 : FVec Ideal S3x128x64 .f32) (a5 : FVec Ideal S64 .f32)
    (h235 : ∀ g r k, val_main_v235 (F := Ideal) a0 a1 a2 a3 a4 a5 (ix3 g r k) = ((o g r k : ℝ) : EReal)) (g : Fin 4) (r : Fin 512) (k : Fin 64) :
    val_main_call7_v5 (F := Ideal) a0 a1 a2 a3 a4 a5 (ix3 g r k) = ((o g r k - rowMax (o g) r : ℝ) : EReal) := by
  show val_main_v235 (F := Ideal) a0 a1 a2 a3 a4 a5 (ix3 g r k) - val_main_call7_v4 (F := Ideal) a0 a1 a2 a3 a4 a5 (ix3 g r k) = _
  rw [h235, v4_apply o a0 a1 a2 a3 a4 a5 h235 g r k, EReal.coe_sub]

/-- Their exponentials. -/
theorem v6_apply (a0 : FVec Ideal S4x512x128 .f32) (a1 : FVec Ideal S4x512x512 .f32) (a2 : FVec Ideal S3x128x128 .f32) (a3 : FVec Ideal S128 .f32)
    (a4 : FVec Ideal S3x128x64 .f32) (a5 : FVec Ideal S64 .f32)
    (h235 : ∀ g r k, val_main_v235 (F := Ideal) a0 a1 a2 a3 a4 a5 (ix3 g r k) = ((o g r k : ℝ) : EReal)) (g : Fin 4) (r : Fin 512) (k : Fin 64) :
    val_main_call7_v6 (F := Ideal) a0 a1 a2 a3 a4 a5 (ix3 g r k) = ((Real.exp (o g r k - rowMax (o g) r) : ℝ) : EReal) := by
  show Ideal.exp (val_main_call7_v5 (F := Ideal) a0 a1 a2 a3 a4 a5 (ix3 g r k)) = _
  rw [v5_apply o a0 a1 a2 a3 a4 a5 h235 g r k]
  rfl

/-- The row sum of the exponentials. -/
theorem v7_apply (a0 : FVec Ideal S4x512x128 .f32) (a1 : FVec Ideal S4x512x512 .f32) (a2 : FVec Ideal S3x128x128 .f32) (a3 : FVec Ideal S128 .f32)
    (a4 : FVec Ideal S3x128x64 .f32) (a5 : FVec Ideal S64 .f32)
    (h235 : ∀ g r k, val_main_v235 (F := Ideal) a0 a1 a2 a3 a4 a5 (ix3 g r k) = ((o g r k : ℝ) : EReal)) (g : Fin 4) (r : Fin 512) :
    val_main_call7_v7 (F := Ideal) a0 a1 a2 a3 a4 a5 (ix2 g r) = ((∑ k', Real.exp (o g r k' - rowMax (o g) r) : ℝ) : EReal) := by
  rw [val_main_call7_v7_apply]
  have e : ∀ k : Fin 64, idx_main_call7_v7 (ix2 g r) k = ix3 g r k := fun k => by
    funext c
    refine Fin.ext ?_
    match c with
    | ⟨0, _⟩ => rfl
    | ⟨1, _⟩ => rfl
    | ⟨2, _⟩ => rfl
  have h0 : val_main_call7_cst_1 (F := Ideal) (Shape.Idx.first h_S_) = (0 : EReal) := Cert.Consts.ofBits_zero
  rw [h0, zero_add]
  simp only [e, v6_apply o a0 a1 a2 a3 a4 a5 h235 g r]
  exact Cert.Lib.coe_sum _ _

/-- The logarithm of the row sum, spread over the row. -/
theorem v10_apply (a0 : FVec Ideal S4x512x128 .f32) (a1 : FVec Ideal S4x512x512 .f32) (a2 : FVec Ideal S3x128x128 .f32) (a3 : FVec Ideal S128 .f32)
    (a4 : FVec Ideal S3x128x64 .f32) (a5 : FVec Ideal S64 .f32)
    (h235 : ∀ g r k, val_main_v235 (F := Ideal) a0 a1 a2 a3 a4 a5 (ix3 g r k) = ((o g r k : ℝ) : EReal)) (g : Fin 4) (r : Fin 512) (k : Fin 64) :
    val_main_call7_v10 (F := Ideal) a0 a1 a2 a3 a4 a5 (ix3 g r k)
      = ((Real.log (∑ k', Real.exp (o g r k' - rowMax (o g) r)) : ℝ) : EReal) := by
  rw [val_main_call7_v10_apply]
  show Ideal.log (val_main_call7_v8 (F := Ideal) a0 a1 a2 a3 a4 a5 (idx_main_call7_v10 (ix3 g r k))) = _
  rw [val_main_call7_v8_apply]
  have e : idx_main_call7_v8 (idx_main_call7_v10 (ix3 g r k)) = ix2 g r := by
    funext c
    refine Fin.ext ?_
    match c with
    | ⟨0, _⟩ => rfl
    | ⟨1, _⟩ => rfl
  rw [e, v7_apply o a0 a1 a2 a3 a4 a5 h235 g r]
  exact Cert.Lib.log_coe_pos (Finset.sum_pos (fun j _ => Real.exp_pos _) Finset.univ_nonempty)

/-- The log-softmax of an array of real numbers, entry by entry. -/
theorem lsm_of_out (a0 : FVec Ideal S4x512x128 .f32) (a1 : FVec Ideal S4x512x512 .f32) (a2 : FVec Ideal S3x128x128 .f32) (a3 : FVec Ideal S128 .f32)
    (a4 : FVec Ideal S3x128x64 .f32) (a5 : FVec Ideal S64 .f32)
    (h235 : ∀ g r k, val_main_v235 (F := Ideal) a0 a1 a2 a3 a4 a5 (ix3 g r k) = ((o g r k : ℝ) : EReal)) (g : Fin 4) (r : Fin 512) (k : Fin 64) :
    val_main_v236 (F := Ideal) a0 a1 a2 a3 a4 a5 (ix3 g r k) = ((lsmR (o g) r k : ℝ) : EReal) := by
  show val_main_call7_v5 (F := Ideal) a0 a1 a2 a3 a4 a5 (ix3 g r k) - val_main_call7_v10 (F := Ideal) a0 a1 a2 a3 a4 a5 (ix3 g r k) = _
  rw [v5_apply o a0 a1 a2 a3 a4 a5 h235 g r k, v10_apply o a0 a1 a2 a3 a4 a5 h235 g r k, ← EReal.coe_sub]
  rfl

end Cert.ReferenceIdeal.RefLsm

end
-- ==== Proof.RFinal.lean ====
/-
  The edge-list program read at an index: its second result is the real two-layer value of the edge
  arrangement, and its first result the row-wise log-softmax of it, both as coerced reals.
-/
import proofs.«126667_g78520592106144_cont_sun_c4_372_13_alg».proof.Proof.ReadP
import proofs.«126667_g78520592106144_cont_sun_c4_372_13_alg».proof.Proof.RL2
import proofs.«126667_g78520592106144_cont_sun_c4_372_13_alg».proof.Proof.KLsmRef
import proofs.«126667_g78520592106144_cont_sun_c4_372_13_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.ReferenceIdeal.Read Cert.RefLib

theorem out_apply (xr : Fin 4 → Fin 512 → Fin 128 → ℝ) (Ar : Fin 4 → Fin 512 → Fin 512 → ℝ)
    (W1r : Fin 3 → Fin 128 → Fin 128 → ℝ) (b1r : Fin 128 → ℝ) (W2r : Fin 3 → Fin 128 → Fin 64 → ℝ) (b2r : Fin 64 → ℝ)
    (hA01 : ∀ g r c, Ar g r c = 0 ∨ Ar g r c = 1)
    (a0 : (⟨S4x512x128, .f32⟩ : BufTy).Contents (Elt Ideal)) (a1 : (⟨S4x512x512, .f32⟩ : BufTy).Contents (Elt Ideal))
    (a2 : (⟨S3x128x128, .f32⟩ : BufTy).Contents (Elt Ideal)) (a3 : (⟨S128, .f32⟩ : BufTy).Contents (Elt Ideal))
    (a4 : (⟨S3x128x64, .f32⟩ : BufTy).Contents (Elt Ideal)) (a5 : (⟨S64, .f32⟩ : BufTy).Contents (Elt Ideal))
    (hx : ∀ g r k, a0 (ix3 g r k) = ((xr g r k : ℝ) : EReal)) (hA : ∀ g r c, a1 (ix3 g r c) = ((Ar g r c : ℝ) : EReal))
    (hW1 : ∀ j l k, a2 (ix3 j l k) = ((W1r j l k : ℝ) : EReal)) (hb1 : ∀ k, a3 (ix1 k) = ((b1r k : ℝ) : EReal))
    (hW2 : ∀ j l k, a4 (ix3 j l k) = ((W2r j l k : ℝ) : EReal)) (hb2 : ∀ k, a5 (ix1 k) = ((b2r k : ℝ) : EReal))
    (g : Fin 4) (r : Fin 512) (k : Fin 64) :
    Cert.ReferenceIdeal.Read.val_main_v235 (F := Ideal) a0 a1 a2 a3 a4 a5 (ix3 g r k)
      = ((Cert.ChebSpec.outR (xr g) (Ar g) W1r b1r W2r b2r r k : ℝ) : EReal) := by
  rw [val_main_v235_apply]
  have hg := g.isLt; have hr := r.isLt; have hk := k.isLt
  refine (read2 (val_main_v234 (F := Ideal) a0 a1 a2 a3 a4 a5) _ (node g r) k
    (by show ((g.val * 512 + r.val) * 64 + k.val) / 64 = g.val * 512 + r.val; omega)
    (by show ((g.val * 512 + r.val) * 64 + k.val) % 64 = k.val; omega)).trans ?_
  exact v234_val xr Ar W1r b1r W2r b2r a0 a1 a2 a3 a4 a5 hx hA hA01 hW1 hb1 hW2 hb2 g r k

theorem lsm_apply (xr : Fin 4 → Fin 512 → Fin 128 → ℝ) (Ar : Fin 4 → Fin 512 → Fin 512 → ℝ)
    (W1r : Fin 3 → Fin 128 → Fin 128 → ℝ) (b1r : Fin 128 → ℝ) (W2r : Fin 3 → Fin 128 → Fin 64 → ℝ) (b2r : Fin 64 → ℝ)
    (hA01 : ∀ g r c, Ar g r c = 0 ∨ Ar g r c = 1)
    (a0 : (⟨S4x512x128, .f32⟩ : BufTy).Contents (Elt Ideal)) (a1 : (⟨S4x512x512, .f32⟩ : BufTy).Contents (Elt Ideal))
    (a2 : (⟨S3x128x128, .f32⟩ : BufTy).Contents (Elt Ideal)) (a3 : (⟨S128, .f32⟩ : BufTy).Contents (Elt Ideal))
    (a4 : (⟨S3x128x64, .f32⟩ : BufTy).Contents (Elt Ideal)) (a5 : (⟨S64, .f32⟩ : BufTy).Contents (Elt Ideal))
    (hx : ∀ g r k, a0 (ix3 g r k) = ((xr g r k : ℝ) : EReal)) (hA : ∀ g r c, a1 (ix3 g r c) = ((Ar g r c : ℝ) : EReal))
    (hW1 : ∀ j l k, a2 (ix3 j l k) = ((W1r j l k : ℝ) : EReal)) (hb1 : ∀ k, a3 (ix1 k) = ((b1r k : ℝ) : EReal))
    (hW2 : ∀ j l k, a4 (ix3 j l k) = ((W2r j l k : ℝ) : EReal)) (hb2 : ∀ k, a5 (ix1 k) = ((b2r k : ℝ) : EReal))
    (g : Fin 4) (r : Fin 512) (k : Fin 64) :
    Cert.ReferenceIdeal.Read.val_main_v236 (F := Ideal) a0 a1 a2 a3 a4 a5 (ix3 g r k)
      = ((Cert.ChebSpec.lsmR (Cert.ChebSpec.outR (xr g) (Ar g) W1r b1r W2r b2r) r k : ℝ) : EReal) := by
  exact Cert.ReferenceIdeal.RefLsm.lsm_of_out (fun g => Cert.ChebSpec.outR (xr g) (Ar g) W1r b1r W2r b2r) a0 a1 a2 a3 a4 a5
    (fun g r k => out_apply xr Ar W1r b1r W2r b2r hA01 a0 a1 a2 a3 a4 a5 hx hA hW1 hb1 hW2 hb2 g r k) g r k

end Cert.ReferenceIdeal.RefValue

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.KOps.lean ====
/-
  Operations on arrays of real numbers inside the extended reals.

  A real matrix `f` is read as the array `c2 f` of its coercions (`c1`, `c3` at ranks one and three).  Every
  operation the dense arrangement applies sends such arrays to such an array: the arithmetic ones entry by
  entry, the layout ones by moving entries, a row sum to the real row sum, a row maximum to the real row
  maximum, and a matrix product into the zero array to the real matrix product.  The reciprocal square root is
  only taken under the guard `deg > 0`, and the logarithm only of a positive sum.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«126667_g78520592106144_cont_sun_c4_372_13_alg».proof.Proof.LibERealCoe
import proofs.«126667_g78520592106144_cont_sun_c4_372_13_alg».proof.Proof.Consts
import proofs.«126667_g78520592106144_cont_sun_c4_372_13_alg».proof.Proof.LibKeepdims
import proofs.«126667_g78520592106144_cont_sun_c4_372_13_alg».proof.Proof.LibPlainDot

noncomputable section

namespace Cert.KernelIdeal.Body

open Idealize.ShloMosaic Idealize.ShloMosaic.ValueIdx

/-- A real vector as an array of extended reals. -/
def c1 {a : ℕ} (f : Fin a → ℝ) : (⟨1, ![a]⟩ : Shape).Idx → EReal := fun i => ((f (i 0) : ℝ) : EReal)
/-- A real matrix as an array of extended reals. -/
def c2 {a b : ℕ} (f : Fin a → Fin b → ℝ) : (⟨2, ![a, b]⟩ : Shape).Idx → EReal :=
  fun i => ((f (i 0) (i 1) : ℝ) : EReal)
/-- A stack of real matrices as an array of extended reals. -/
def c3 {n a b : ℕ} (f : Fin n → Fin a → Fin b → ℝ) : (⟨3, ![n, a, b]⟩ : Shape).Idx → EReal :=
  fun i => ((f (i 0) (i 1) (i 2) : ℝ) : EReal)

theorem c1_apply {a : ℕ} (f : Fin a → ℝ) (i : Fin a) : c1 f (ix1 i) = ((f i : ℝ) : EReal) := rfl
theorem c2_apply {a b : ℕ} (f : Fin a → Fin b → ℝ) (i : Fin a) (j : Fin b) : c2 f (ix2 i j) = ((f i j : ℝ) : EReal) := rfl
theorem c3_apply {n a b : ℕ} (f : Fin n → Fin a → Fin b → ℝ) (u : Fin n) (i : Fin a) (j : Fin b) :
    c3 f (ix3 u i j) = ((f u i j : ℝ) : EReal) := rfl

/-- Two arrays that agree at every coordinate pair are equal. -/
theorem ext2 {a b : ℕ} {α : Type} {x y : (⟨2, ![a, b]⟩ : Shape).Idx → α} (h : ∀ i j, x (ix2 i j) = y (ix2 i j)) : x = y :=
  funext fun k => by rw [eq_ix2 k]; exact h _ _
theorem ext1 {a : ℕ} {α : Type} {x y : (⟨1, ![a]⟩ : Shape).Idx → α} (h : ∀ i, x (ix1 i) = y (ix1 i)) : x = y :=
  funext fun k => by rw [eq_ix1 k]; exact h _
theorem ext3 {n a b : ℕ} {α : Type} {x y : (⟨3, ![n, a, b]⟩ : Shape).Idx → α}
    (h : ∀ u i j, x (ix3 u i j) = y (ix3 u i j)) : x = y :=
  funext fun k => by rw [eq_ix3 k]; exact h _ _ _

/-! ### Entry by entry -/

variable {a b : ℕ}

theorem mulf_c2 (f g : Fin a → Fin b → ℝ) :
    mulf (F := Ideal) (φ := .f32) (c2 f) (c2 g) = c2 fun i j => f i j * g i j :=
  funext fun _ => (EReal.coe_mul _ _).symm
theorem addf_c2 (f g : Fin a → Fin b → ℝ) :
    addf (F := Ideal) (φ := .f32) (c2 f) (c2 g) = c2 fun i j => f i j + g i j :=
  funext fun _ => (EReal.coe_add _ _).symm
theorem subf_c2 (f g : Fin a → Fin b → ℝ) :
    subf (F := Ideal) (φ := .f32) (c2 f) (c2 g) = c2 fun i j => f i j - g i j :=
  funext fun _ => (EReal.coe_sub _ _).symm
theorem maximumf_c2 (f g : Fin a → Fin b → ℝ) :
    maximumf (F := Ideal) (φ := .f32) (c2 f) (c2 g) = c2 fun i j => max (f i j) (g i j) :=
  funext fun _ => Cert.Lib.coe_max _ _
theorem exp_c2 (f : Fin a → Fin b → ℝ) :
    exp (F := Ideal) (φ := .f32) (c2 f) = c2 fun i j => Real.exp (f i j) := rfl
/-- The logarithm of an array of positive reals. -/
theorem log_c2 (f : Fin a → Fin b → ℝ) (h : ∀ i j, 0 < f i j) :
    log (F := Ideal) (φ := .f32) (c2 f) = c2 fun i j => Real.log (f i j) :=
  funext fun _ => Cert.Lib.log_coe_pos (h _ _)

/-- The zero splat (a broadcast scalar). -/
theorem broadcast_zero_c2 :
    broadcast (⟨2, ![a, b]⟩ : Shape) (Scalar.ofBits (F := Ideal) .f32 0x00000000#32) = c2 (fun _ _ => (0 : ℝ)) :=
  funext fun _ => Cert.Consts.ofBits_zero.trans EReal.coe_zero.symm
/-- The splat of `2`. -/
theorem broadcast_two_c2 :
    broadcast (⟨2, ![a, b]⟩ : Shape) (Scalar.ofBits (F := Ideal) .f32 0x40000000#32) = c2 (fun _ _ => (2 : ℝ)) :=
  funext fun _ => Cert.Consts.ofBits_two

/-- `deg ^ (-1/2)` under the guard `deg > 0`, zero elsewhere. -/
theorem select_ogt_rsqrt_c2 (d : Fin a → Fin b → ℝ) :
    select (cmpf (F := Ideal) (φ := .f32) .ogt (c2 d) (c2 fun _ _ => (0 : ℝ))) (rsqrt (F := Ideal) (φ := .f32) (c2 d)) (c2 fun _ _ => (0 : ℝ))
      = c2 fun i j => if 0 < d i j then (Real.sqrt (d i j))⁻¹ else 0 := by
  funext k
  show Scalar.select (Ideal.cmp .ogt ((d (k 0) (k 1) : ℝ) : EReal) ((0 : ℝ) : EReal)) (Ideal.rsqrt ((d (k 0) (k 1) : ℝ) : EReal)) ((0 : ℝ) : EReal) = _
  by_cases h : 0 < d (k 0) (k 1)
  · have hc : Ideal.cmp .ogt ((d (k 0) (k 1) : ℝ) : EReal) ((0 : ℝ) : EReal) = 1#1 := by
      show BitVec.ofBool (decide (((0 : ℝ) : EReal) < ((d (k 0) (k 1) : ℝ) : EReal))) = 1#1
      rw [decide_eq_true (EReal.coe_lt_coe_iff.mpr h)]; rfl
    rw [hc, select_one, Cert.Lib.rsqrt_coe_pos h]
    show _ = ((if 0 < d (k 0) (k 1) then (Real.sqrt (d (k 0) (k 1)))⁻¹ else 0 : ℝ) : EReal)
    rw [if_pos h]
  · have hc : Ideal.cmp .ogt ((d (k 0) (k 1) : ℝ) : EReal) ((0 : ℝ) : EReal) = 0#1 := by
      show BitVec.ofBool (decide (((0 : ℝ) : EReal) < ((d (k 0) (k 1) : ℝ) : EReal))) = 0#1
      rw [decide_eq_false (fun h' => h (EReal.coe_lt_coe_iff.mp h'))]; rfl
    rw [hc, select_zero]
    show _ = ((if 0 < d (k 0) (k 1) then (Real.sqrt (d (k 0) (k 1)))⁻¹ else 0 : ℝ) : EReal)
    rw [if_neg h]

end Cert.KernelIdeal.Body

end
-- ==== Proof.KLoad.lean ====
/-
  What the body loads.

  Each load reads one graph's matrix, or one of a layer's three weight matrices, out of a stack: a `[1, a, b]`
  block at offset `(g, 0, 0)` of an `[n, a, b]` array.  When the array's entries are real numbers, the block
  is the stack of the one real matrix `f g`.  A bias is loaded whole, as a one-row matrix.
-/
import Idealize.ShloMosaic.Lib.Pipeline.FrameBody
import proofs.«126667_g78520592106144_cont_sun_c4_372_13_alg».proof.Proof.KOps

noncomputable section

namespace Cert.KernelIdeal.Body

open Idealize.ShloMosaic Idealize.ShloMosaic.ValueIdx

/-- The block at offset `(g, 0, 0)` sits at the stack's indices `(g, i, j)`. -/
theorem unit_idx_ix3 {n a b : ℕ} (g0 : ℕ) (hg : g0 < n)
    (inb : ∀ ax, (![g0, 0, 0] : Fin 3 → ℕ) ax + (⟨3, ![1, a, b]⟩ : Shape).size ax ≤ (⟨3, ![n, a, b]⟩ : Shape).size ax)
    (u : Fin 1) (i : Fin a) (j : Fin b) :
    (Rect.unit (s := ⟨3, ![n, a, b]⟩) ![g0, 0, 0] (⟨3, ![1, a, b]⟩ : Shape).size inb).idx (ix3 u i j)
      = ix3 ⟨g0, hg⟩ i j := by
  have hu : u.val = 0 := by omega
  funext ax
  refine Fin.ext ?_
  match ax with
  | ⟨0, _⟩ => show g0 + 1 * u.val = g0; omega
  | ⟨1, _⟩ => show 0 + 1 * i.val = i.val; omega
  | ⟨2, _⟩ => show 0 + 1 * j.val = j.val; omega

/-- The block at offset `(g, 0, 0)` of a stack of real matrices is the one matrix `f g`. -/
theorem ld_unit_c3 {n a b : ℕ} (X : Vec Ideal ⟨3, ![n, a, b]⟩ .f32) (f : Fin n → Fin a → Fin b → ℝ)
    (hX : ∀ g i j, X (ix3 g i j) = ((f g i j : ℝ) : EReal)) (g0 : ℕ) (hg : g0 < n)
    (inb : ∀ ax, (![g0, 0, 0] : Fin 3 → ℕ) ax + (⟨3, ![1, a, b]⟩ : Shape).size ax ≤ (⟨3, ![n, a, b]⟩ : Shape).size ax) :
    View.ld (Val := Elt Ideal) X (Rect.unit (s := ⟨3, ![n, a, b]⟩) ![g0, 0, 0] (⟨3, ![1, a, b]⟩ : Shape).size inb)
      = c3 (fun (_ : Fin 1) => f ⟨g0, hg⟩) := by
  refine ext3 fun u i j => ?_
  have hu : u.val = 0 := by omega
  have e : (Rect.unit (s := ⟨3, ![n, a, b]⟩) ![g0, 0, 0] (⟨3, ![1, a, b]⟩ : Shape).size inb).idx (ix3 u i j)
      = ix3 ⟨g0, hg⟩ i j := by
    funext ax
    refine Fin.ext ?_
    match ax with
    | ⟨0, _⟩ => show g0 + 1 * u.val = g0; omega
    | ⟨1, _⟩ => show 0 + 1 * i.val = i.val; omega
    | ⟨2, _⟩ => show 0 + 1 * j.val = j.val; omega
  show X ((Rect.unit (s := ⟨3, ![n, a, b]⟩) ![g0, 0, 0] (⟨3, ![1, a, b]⟩ : Shape).size inb).idx (ix3 u i j)) = _
  rw [e, hX]
  rfl

/-- A one-row array of real numbers, loaded whole. -/
theorem ld_row_c2 {b : ℕ} (X : Vec Ideal ⟨2, ![1, b]⟩ .f32) (v : Fin b → ℝ)
    (hX : ∀ k, X (ix2 0 k) = ((v k : ℝ) : EReal))
    (inb : ∀ ax, (![0, 0] : Fin 2 → ℕ) ax + (⟨2, ![1, b]⟩ : Shape).size ax ≤ (⟨2, ![1, b]⟩ : Shape).size ax) :
    View.ld (Val := Elt Ideal) X (Rect.unit (s := ⟨2, ![1, b]⟩) ![0, 0] (⟨2, ![1, b]⟩ : Shape).size inb)
      = c2 (fun (_ : Fin 1) k => v k) := by
  refine ext2 fun u k => ?_
  have hu : u = 0 := Fin.ext (by omega)
  subst hu
  have e : (Rect.unit (s := ⟨2, ![1, b]⟩) ![0, 0] (⟨2, ![1, b]⟩ : Shape).size inb).idx (ix2 0 k) = ix2 0 k := by
    funext ax
    refine Fin.ext ?_
    match ax with
    | ⟨0, _⟩ => rfl
    | ⟨1, _⟩ => show 0 + 1 * k.val = k.val; omega
  show X ((Rect.unit (s := ⟨2, ![1, b]⟩) ![0, 0] (⟨2, ![1, b]⟩ : Shape).size inb).idx (ix2 0 k)) = _
  rw [e, hX]
  rfl

end Cert.KernelIdeal.Body

end
-- ==== Proof.KLayout.lean ====
/-
  Layout operations and row reductions on arrays of real numbers inside the extended reals.

  A leading unit axis dropped or added keeps the entries; a column `[a, 1]` spread over the rows' entries and a
  row `[1, b]` spread over the rows repeat theirs; the sum along a row is the real row sum and the maximum along
  a row, started from `-∞`, is the real row maximum.
-/
import proofs.«126667_g78520592106144_cont_sun_c4_372_13_alg».proof.Proof.KOps
import proofs.«126667_g78520592106144_cont_sun_c4_372_13_alg».proof.Proof.Spec

noncomputable section

namespace Cert.KernelIdeal.Body

open Idealize.ShloMosaic Idealize.ShloMosaic.ValueIdx

variable {a b : ℕ}

/-- A `[1, a, b]` stack of one matrix, viewed as the matrix. -/
theorem shapeCast_1ab_ab_c3 (f : Fin 1 → Fin a → Fin b → ℝ) (h : (⟨3, ![1, a, b]⟩ : Shape).ShapeCasts ⟨2, ![a, b]⟩) :
    shapeCast ⟨2, ![a, b]⟩ (c3 f) h = c2 (f 0) :=
  ext2 fun i j => shapeCast_1ab_ab_apply (c3 f) h i j

/-- A matrix viewed as a `[1, a, b]` stack of one matrix. -/
theorem shapeCast_ab_1ab_c2 (f : Fin a → Fin b → ℝ) (h : (⟨2, ![a, b]⟩ : Shape).ShapeCasts ⟨3, ![1, a, b]⟩) :
    shapeCast ⟨3, ![1, a, b]⟩ (c2 f) h = c3 (fun _ => f) :=
  ext3 fun u i j => shapeCast_ab_1ab_apply (c2 f) h u i j

/-- A vector viewed as a column. -/
theorem shapeCast_a_a1_c1 (d : Fin a → ℝ) (h : (⟨1, ![a]⟩ : Shape).ShapeCasts ⟨2, ![a, 1]⟩) :
    shapeCast ⟨2, ![a, 1]⟩ (c1 d) h = c2 (fun i (_ : Fin 1) => d i) :=
  ext2 fun i u => Cert.Lib.shapeCast_a_a1_apply (c1 d) h i u

/-- A column spread over the entries of its rows. -/
theorem broadcastTo_a1_ab_c2 (d : Fin a → Fin 1 → ℝ) (h : (⟨2, ![a, 1]⟩ : Shape).Broadcasts ⟨2, ![a, b]⟩) :
    broadcastTo ⟨2, ![a, b]⟩ (c2 d) h = c2 (fun i (_ : Fin b) => d i 0) :=
  ext2 fun i j => Cert.Lib.broadcastTo_a1_ab_apply (c2 d) h i j

/-- A row spread over all rows. -/
theorem broadcastTo_1b_ab_c2 (v : Fin 1 → Fin b → ℝ) (h : (⟨2, ![1, b]⟩ : Shape).Broadcasts ⟨2, ![a, b]⟩) :
    broadcastTo ⟨2, ![a, b]⟩ (c2 v) h = c2 (fun (_ : Fin a) j => v 0 j) :=
  ext2 fun i j => broadcastTo_1b_ab_apply (c2 v) h i j

/-- The source index over row `i` with coordinate `k` along the row. -/
theorem lift_row (h : (⟨2, ![a, b]⟩ : Shape).Reduces [1] ⟨1, ![a]⟩) (i : Fin a) (k : Fin b) :
    h.lift (ix1 i) k = ix2 i k := by
  funext c
  refine Fin.ext ?_
  match c with
  | ⟨0, _⟩ => rfl
  | ⟨1, _⟩ => rfl

/-- The sum along each row. -/
theorem rowSum_c2 (f : Fin a → Fin b → ℝ) (h : (⟨2, ![a, b]⟩ : Shape).Reduces [1] ⟨1, ![a]⟩)
    (hφ : FKind.Formats .f32) (hacc : (0x00000000#32 : BitVec 32) = 0x00000000#32) :
    multiReduction (F := Ideal) (φ := .f32) .add [1] ⟨1, ![a]⟩ (c2 f) 0x00000000#32 h hφ hacc = c1 fun i => ∑ j, f i j := by
  refine ext1 fun i => ?_
  refine (Ideal.multiReduction_add_single (c2 f) 0x00000000#32 h hφ hacc (ix1 i)).trans ?_
  show ∑ k : Fin b, c2 f (h.lift (ix1 i) k) = _
  simp only [lift_row, c2_apply, c1_apply]
  exact Cert.Lib.coe_sum _ _

/-- The running maximum from `-∞` of 64 coerced reals is their coerced maximum. -/
theorem fold_max_bot_coe (g : Fin 64 → ℝ) :
    (Finset.univ : Finset (Fin 64)).fold max (⊥ : EReal) (fun k => ((g k : ℝ) : EReal))
      = ((Finset.univ.sup' Finset.univ_nonempty g : ℝ) : EReal) := by
  apply le_antisymm
  · refine (Finset.fold_max_le _).mpr
      ⟨bot_le, fun k _ => EReal.coe_le_coe_iff.mpr (Finset.le_sup' g (Finset.mem_univ k))⟩
  · obtain ⟨k, -, hk⟩ := Finset.exists_mem_eq_sup' Finset.univ_nonempty g
    exact (Finset.le_fold_max _).mpr (Or.inr ⟨k, Finset.mem_univ k, by rw [hk]⟩)

/-- The maximum along each row of 64 entries, started from `-∞`. -/
theorem rowMax_c2 (f : Fin a → Fin 64 → ℝ) (h : (⟨2, ![a, 64]⟩ : Shape).Reduces [1] ⟨1, ![a]⟩)
    (hφ : FKind.Formats .f32) (hacc : (0xFF800000#32 : BitVec 32) = 0xFF800000#32) :
    multiReduction (F := Ideal) (φ := .f32) .maximumf [1] ⟨1, ![a]⟩ (c2 f) 0xFF800000#32 h hφ hacc = c1 (Cert.ChebSpec.rowMax f) := by
  refine ext1 fun i => ?_
  refine (Ideal.multiReduction_maximumf_single (c2 f) _ h hφ hacc (ix1 i)).trans ?_
  have hl : (fun k : Fin 64 => c2 f (h.lift (ix1 i) k)) = fun k : Fin 64 => ((f i k : ℝ) : EReal) :=
    funext fun k => congrArg (c2 f) (lift_row h i k)
  have hb : FloatOps.ofBits (F := Ideal) .f32 0xFF800000#32 = (⊥ : EReal) := Cert.Consts.ofBits_bot
  calc Finset.fold max (FloatOps.ofBits (F := Ideal) .f32 0xFF800000#32) (fun k : Fin 64 => c2 f (h.lift (ix1 i) k))
        (Finset.univ : Finset (Fin 64))
      = Finset.fold max (⊥ : EReal) (fun k : Fin 64 => ((f i k : ℝ) : EReal)) Finset.univ := by rw [hb, hl]
    _ = _ := fold_max_bot_coe (f i)

end Cert.KernelIdeal.Body

end
-- ==== Proof.KDot.lean ====
/-
  Matrix products and the diagonal of arrays of real numbers inside the extended reals.

  A product `v · W` into the zero array is the real product `mm v W`; the product that contracts the FIRST axis
  of both operands is `(Aᵀ · u) c k = ∑ r, A r c · u r k`; and a square array masked to its diagonal keeps
  `A i i` at `(i, i)` and zero elsewhere.
-/
import proofs.«126667_g78520592106144_cont_sun_c4_372_13_alg».proof.Proof.Gen.KernelIdeal
import proofs.«126667_g78520592106144_cont_sun_c4_372_13_alg».proof.Proof.KOps
import proofs.«126667_g78520592106144_cont_sun_c4_372_13_alg».proof.Proof.Spec

noncomputable section

namespace Cert.KernelIdeal.Body

open Cert.KernelIdeal Idealize.ShloMosaic Idealize.ShloMosaic.ValueIdx

/-- A sum of products of coerced reals is the coerced sum of products. -/
theorem coe_sum_mul {ι : Type*} (s : Finset ι) (f g : ι → ℝ) :
    (∑ i ∈ s, ((f i : ℝ) : EReal) * ((g i : ℝ) : EReal)) = ((∑ i ∈ s, f i * g i : ℝ) : EReal) := by
  simp only [← EReal.coe_mul]
  exact Cert.Lib.coe_sum s _

/-- `v · W` into the zero array. -/
theorem matmul_plain_c2 {M K N : ℕ} (f : Fin M → Fin K → ℝ) (g : Fin K → Fin N → ℝ) :
    matmul (F := Ideal) (φ₁ := .f32) (φ₂ := .f32) (DotDims.plain M K N) none (c2 f) (c2 g)
        (constant ⟨2, ![M, N]⟩ .f32 0x00000000#32)
      = c2 (Cert.ChebSpec.mm f g) := by
  refine ext2 fun i j => ?_
  rw [Cert.Lib.plain_matmul_zero_apply]
  simp only [c2_apply]
  exact coe_sum_mul _ _ _

/-- `v · W` for a `128 × 128` weight matrix. -/
theorem matmul_128_c2 (f : Fin 512 → Fin 128 → ℝ) (g : Fin 128 → Fin 128 → ℝ) :
    matmul (F := Ideal) (φ₁ := .f32) (φ₂ := .f32) dot_S512x128_S128x128_S512x128_1_0_0_1_n_n none (c2 f) (c2 g)
        (constant S512x128 .f32 0x00000000#32)
      = c2 (Cert.ChebSpec.mm f g) :=
  matmul_plain_c2 f g

/-- `v · W` for a `128 × 64` weight matrix. -/
theorem matmul_64_c2 (f : Fin 512 → Fin 128 → ℝ) (g : Fin 128 → Fin 64 → ℝ) :
    matmul (F := Ideal) (φ₁ := .f32) (φ₂ := .f32) dot_S512x128_S128x64_S512x64_1_0_0_1_n_n none (c2 f) (c2 g)
        (constant S512x64 .f32 0x00000000#32)
      = c2 (Cert.ChebSpec.mm f g) :=
  matmul_plain_c2 f g

local notation "DT" => dot_S512x512_S512x128_S512x128_0_0_1_1_n_n

theorem tA_lhs_1 (i : S512x128.Idx) (q : (DotDims.contr DT).Idx) : (DotDims.lhsIdx DT i q 1).val = (i 0).val := by
  unfold DotDims.lhsIdx
  rw [dif_neg (show ¬(1 : Fin S512x512.rank) ∈ DotDims.lhsBatch DT by decide),
    dif_pos (show (1 : Fin S512x512.rank) ∈ DotDims.lhsNonContracting DT by decide)]
  rfl

theorem tA_rhs_1 (i : S512x128.Idx) (q : (DotDims.contr DT).Idx) : (DotDims.rhsIdx DT i q 1).val = (i 1).val := by
  unfold DotDims.rhsIdx
  rw [dif_neg (show ¬(1 : Fin S512x128.rank) ∈ DotDims.rhsBatch DT by decide),
    dif_pos (show (1 : Fin S512x128.rank) ∈ DotDims.rhsNonContracting DT by decide)]
  rfl

theorem tA_lhsIdx (c : Fin 512) (k : Fin 128) (r : Fin 512) :
    DotDims.lhsIdx DT (ix2 c k) ((contrEquiv1 DT 512 rfl rfl).symm r) = ix2 r c := by
  have hk := contrEquiv1_symm_val DT 512 rfl rfl r
  funext ax
  refine Fin.ext ?_
  match ax with
  | ⟨0, _⟩ => exact (DotDims.lhsIdx_val_of_single DT rfl (ix2 c k) _).trans hk
  | ⟨1, _⟩ => exact tA_lhs_1 _ _

theorem tA_rhsIdx (c : Fin 512) (k : Fin 128) (r : Fin 512) :
    DotDims.rhsIdx DT (ix2 c k) ((contrEquiv1 DT 512 rfl rfl).symm r) = ix2 r k := by
  have hk := contrEquiv1_symm_val DT 512 rfl rfl r
  funext ax
  refine Fin.ext ?_
  match ax with
  | ⟨0, _⟩ => exact (DotDims.rhsIdx_val_of_single DT rfl (ix2 c k) _).trans hk
  | ⟨1, _⟩ => exact tA_rhs_1 _ _

/-- `Aᵀ · u` into the zero array: both operands contracted on their first axis. -/
theorem matmul_tA_c2 (A : Fin 512 → Fin 512 → ℝ) (u : Fin 512 → Fin 128 → ℝ) :
    matmul (F := Ideal) (φ₁ := .f32) (φ₂ := .f32) DT none (c2 A) (c2 u) (constant S512x128 .f32 0x00000000#32)
      = c2 fun c k => ∑ r, A r c * u r k := by
  refine ext2 fun c k => ?_
  refine (Ideal.matmul_constant_zero_apply DT none (c2 A) (c2 u) (ix2 c k)).trans ?_
  rw [← Equiv.sum_comp (contrEquiv1 DT 512 rfl rfl).symm]
  simp only [tA_lhsIdx, tA_rhsIdx, c2_apply]
  exact coe_sum_mul _ _ _

/-- A square array masked to its diagonal. -/
theorem diag_c2 (A : Fin 512 → Fin 512 → ℝ) (h0 : S512x512.Iotas .tc 32 [0]) (h1 : S512x512.Iotas .tc 32 [1]) :
    select (cmpi .eq (iota .tc S512x512 32 [0] h0) (iota .tc S512x512 32 [1] h1)) (c2 A) (c2 fun _ _ => (0 : ℝ))
      = c2 fun i j => if i = j then A i j else 0 := by
  refine ext2 fun i j => ?_
  rw [select_apply]
  show Scalar.select (IntOp.cmpi .eq (iota .tc S512x512 32 [0] h0 (ix2 i j)) (iota .tc S512x512 32 [1] h1 (ix2 i j))) _ _ = _
  rw [iota_single_apply, iota_single_apply]
  show Scalar.select (IntOp.cmpi .eq (BitVec.ofNat 32 i.val) (BitVec.ofNat 32 j.val)) ((A i j : ℝ) : EReal) ((0 : ℝ) : EReal)
    = ((if i = j then A i j else 0 : ℝ) : EReal)
  by_cases h : i = j
  · subst h
    have hc : IntOp.cmpi .eq (BitVec.ofNat 32 i.val) (BitVec.ofNat 32 i.val) = 1#1 := by simp [IntOp.cmpi]
    rw [hc, select_one, if_pos rfl]
  · have hne : BitVec.ofNat 32 i.val ≠ BitVec.ofNat 32 j.val := by
      intro he
      apply h
      apply Fin.ext
      have e := congrArg BitVec.toNat he
      simp only [BitVec.toNat_ofNat] at e
      have hi := i.isLt
      have hj := j.isLt
      omega
    have hc : IntOp.cmpi .eq (BitVec.ofNat 32 i.val) (BitVec.ofNat 32 j.val) = 0#1 := by
      show BitVec.ofBool (BitVec.ofNat 32 i.val == BitVec.ofNat 32 j.val) = 0#1
      rw [beq_eq_false_iff_ne.mpr hne]; rfl
    rw [hc, select_zero, if_neg h]

end Cert.KernelIdeal.Body

end
-- ==== Proof.KG0.lean ====
/-
  The first graph of a block, stage by stage.

  With `dcol i = dinv A i` and `gcol i = A i i` as `[512, 1]` columns, one propagation of `v` is
  `dcol ⊙ (Aᵀ · (dcol ⊙ v)) + gcol ⊙ v = Q A v`; a layer is `v·(W₀ - W₂) - (Q v)·W₁ + (Q (Q v))·(2 W₂) + b`;
  the first layer is followed by `max · 0`, the second by the row-wise log-softmax.
-/
import proofs.«126667_g78520592106144_cont_sun_c4_372_13_alg».proof.Proof.Gen.KernelIdeal.Skeleton
import proofs.«126667_g78520592106144_cont_sun_c4_372_13_alg».proof.Proof.KLayout
import proofs.«126667_g78520592106144_cont_sun_c4_372_13_alg».proof.Proof.KDot

noncomputable section

namespace Cert.KernelIdeal.Body

open Cert.KernelIdeal Cert.KernelIdeal.Gen Idealize.ShloMosaic Idealize.ShloMosaic.ValueIdx Cert.ChebSpec

theorem pay4_eq (xs : Fin 1 → Fin 512 → Fin 128 → ℝ) : k0_pay4 (F := Ideal) (c3 xs) = c2 (xs 0) := by
  unfold k0_pay4
  exact shapeCast_1ab_ab_c3 xs _

theorem pay5_eq (As : Fin 1 → Fin 512 → Fin 512 → ℝ) : k0_pay5 (F := Ideal) (c3 As) = c2 (As 0) := by
  unfold k0_pay5
  exact shapeCast_1ab_ab_c3 As _

/-- The column of `deg ^ (-1/2)`. -/
theorem pay6_eq (As : Fin 1 → Fin 512 → Fin 512 → ℝ) :
    k0_pay6 (F := Ideal) (c3 As) = c2 (fun i (_ : Fin 1) => dinv (As 0) i) := by
  unfold k0_pay6
  simp only [pay5_eq]
  rw [rowSum_c2]
  simp only [shapeCast_a_a1_c1, broadcast_zero_c2, select_ogt_rsqrt_c2]
  rfl

/-- The column of the diagonal. -/
theorem pay7_eq (As : Fin 1 → Fin 512 → Fin 512 → ℝ) :
    k0_pay7 (F := Ideal) (c3 As) = c2 (fun i (_ : Fin 1) => As 0 i i) := by
  unfold k0_pay7
  simp only [pay5_eq, broadcast_zero_c2]
  rw [diag_c2, rowSum_c2]
  simp only [shapeCast_a_a1_c1, Finset.sum_ite_eq, Finset.mem_univ, if_true]

/-- One propagation `Q A x`. -/
theorem pay8_eq (xs : Fin 1 → Fin 512 → Fin 128 → ℝ) (As : Fin 1 → Fin 512 → Fin 512 → ℝ) :
    k0_pay8 (F := Ideal) (c3 xs) (c3 As) = c2 (Q (As 0) (xs 0)) := by
  unfold k0_pay8
  simp only [pay4_eq, pay5_eq, pay6_eq, pay7_eq, broadcastTo_a1_ab_c2, mulf_c2, matmul_tA_c2, addf_c2]
  rfl

/-- Two propagations `Q A (Q A x)`. -/
theorem pay9_eq (xs : Fin 1 → Fin 512 → Fin 128 → ℝ) (As : Fin 1 → Fin 512 → Fin 512 → ℝ) :
    k0_pay9 (F := Ideal) (c3 xs) (c3 As) = c2 (Q (As 0) (Q (As 0) (xs 0))) := by
  unfold k0_pay9
  simp only [pay5_eq, pay6_eq, pay7_eq, pay8_eq, broadcastTo_a1_ab_c2, mulf_c2, matmul_tA_c2, addf_c2]
  rfl

/-- `W₀ - W₂` of the first layer. -/
theorem pay10_eq (w0 w2 : Fin 1 → Fin 128 → Fin 128 → ℝ) :
    k0_pay10 (F := Ideal) (c3 w0) (c3 w2) = c2 (fun l k => w0 0 l k - w2 0 l k) := by
  unfold k0_pay10
  simp only [shapeCast_1ab_ab_c3, subf_c2]

/-- `W₀ - W₂` of the second layer. -/
theorem pay14_eq (w0 w2 : Fin 1 → Fin 128 → Fin 64 → ℝ) :
    k0_pay14 (F := Ideal) (c3 w0) (c3 w2) = c2 (fun l k => w0 0 l k - w2 0 l k) := by
  unfold k0_pay14
  simp only [shapeCast_1ab_ab_c3, subf_c2]

variable (A : Fin 512 → Fin 512 → ℝ)

/-- The first layer and its `max · 0`. -/
theorem pay11_eq (x : Fin 512 → Fin 128 → ℝ) (W : Fin 3 → Fin 128 → Fin 128 → ℝ) (b : Fin 128 → ℝ) :
    k0_pay11 (F := Ideal) (c2 x) (c2 (Q A x)) (c2 (Q A (Q A x))) (c2 fun l k => W 0 l k - W 2 l k)
        (constant S512x128 .f32 0x00000000#32) (c3 fun (_ : Fin 1) => W 1) (c3 fun (_ : Fin 1) => W 2) (c2 fun (_ : Fin 1) => b)
      = c2 (relu (layerK A W b x)) := by
  unfold k0_pay11
  simp only [shapeCast_1ab_ab_c3, matmul_128_c2, subf_c2, broadcast_two_c2, mulf_c2, addf_c2, shapeCast_shapeCast,
    broadcastTo_1b_ab_c2, broadcast_zero_c2, maximumf_c2]
  rfl

/-- One propagation of the first layer's result. -/
theorem pay12_eq (x : Fin 512 → Fin 128 → ℝ) (W : Fin 3 → Fin 128 → Fin 128 → ℝ) (b : Fin 128 → ℝ) :
    k0_pay12 (F := Ideal) (c2 x) (c2 A) (c2 fun i (_ : Fin 1) => dinv A i) (c2 fun i (_ : Fin 1) => A i i)
        (c2 (Q A x)) (c2 (Q A (Q A x))) (c2 fun l k => W 0 l k - W 2 l k)
        (constant S512x128 .f32 0x00000000#32) (c3 fun (_ : Fin 1) => W 1) (c3 fun (_ : Fin 1) => W 2) (c2 fun (_ : Fin 1) => b)
      = c2 (Q A (relu (layerK A W b x))) := by
  unfold k0_pay12
  simp only [pay11_eq, broadcastTo_a1_ab_c2, mulf_c2, matmul_tA_c2, addf_c2]
  rfl

/-- Two propagations of the first layer's result. -/
theorem pay13_eq (x : Fin 512 → Fin 128 → ℝ) (W : Fin 3 → Fin 128 → Fin 128 → ℝ) (b : Fin 128 → ℝ) :
    k0_pay13 (F := Ideal) (c2 x) (c2 A) (c2 fun i (_ : Fin 1) => dinv A i) (c2 fun i (_ : Fin 1) => A i i)
        (c2 (Q A x)) (c2 (Q A (Q A x))) (c2 fun l k => W 0 l k - W 2 l k)
        (constant S512x128 .f32 0x00000000#32) (c3 fun (_ : Fin 1) => W 1) (c3 fun (_ : Fin 1) => W 2) (c2 fun (_ : Fin 1) => b)
      = c2 (Q A (Q A (relu (layerK A W b x)))) := by
  unfold k0_pay13
  simp only [pay12_eq, broadcastTo_a1_ab_c2, mulf_c2, matmul_tA_c2, addf_c2]
  rfl

/-- The second layer. -/
theorem pay15_eq (h : Fin 512 → Fin 128 → ℝ) (W : Fin 3 → Fin 128 → Fin 64 → ℝ) (b : Fin 64 → ℝ) :
    k0_pay15 (F := Ideal) (c2 h) (c2 (Q A h)) (c2 (Q A (Q A h))) (c2 fun l k => W 0 l k - W 2 l k)
        (constant S512x64 .f32 0x00000000#32) (c3 fun (_ : Fin 1) => W 1) (c3 fun (_ : Fin 1) => W 2) (c2 fun (_ : Fin 1) => b)
      = c2 (layerK A W b h) := by
  unfold k0_pay15
  simp only [shapeCast_1ab_ab_c3, matmul_64_c2, subf_c2, broadcast_two_c2, mulf_c2, addf_c2, shapeCast_shapeCast,
    broadcastTo_1b_ab_c2]
  rfl

/-- The second result's piece: the second layer, as a stack of one matrix. -/
theorem pay16_eq (h : Fin 512 → Fin 128 → ℝ) (W : Fin 3 → Fin 128 → Fin 64 → ℝ) (b : Fin 64 → ℝ) :
    k0_pay16 (F := Ideal) (c2 h) (c2 (Q A h)) (c2 (Q A (Q A h))) (c2 fun l k => W 0 l k - W 2 l k)
        (constant S512x64 .f32 0x00000000#32) (c3 fun (_ : Fin 1) => W 1) (c3 fun (_ : Fin 1) => W 2) (c2 fun (_ : Fin 1) => b)
      = c3 (fun (_ : Fin 1) => layerK A W b h) := by
  unfold k0_pay16
  simp only [pay15_eq, shapeCast_ab_1ab_c2]

/-- The first result's piece: the row-wise log-softmax of the second layer. -/
theorem pay17_eq (h : Fin 512 → Fin 128 → ℝ) (W : Fin 3 → Fin 128 → Fin 64 → ℝ) (b : Fin 64 → ℝ) :
    k0_pay17 (F := Ideal) (c2 h) (c2 (Q A h)) (c2 (Q A (Q A h))) (c2 fun l k => W 0 l k - W 2 l k)
        (constant S512x64 .f32 0x00000000#32) (c3 fun (_ : Fin 1) => W 1) (c3 fun (_ : Fin 1) => W 2) (c2 fun (_ : Fin 1) => b)
      = c3 (fun (_ : Fin 1) => lsmK (layerK A W b h)) := by
  unfold k0_pay17
  simp only [pay15_eq]
  rw [rowMax_c2]
  simp only [shapeCast_a_a1_c1, broadcastTo_a1_ab_c2, subf_c2, exp_c2]
  rw [rowSum_c2]
  simp only [shapeCast_a_a1_c1]
  rw [log_c2 _ (fun i _ => Finset.sum_pos (fun j _ => Real.exp_pos _) Finset.univ_nonempty)]
  simp only [addf_c2, broadcastTo_a1_ab_c2, subf_c2, shapeCast_ab_1ab_c2]
  rfl

end Cert.KernelIdeal.Body

end
-- ==== Proof.KG1.lean ====
/-
  The second graph of a block, stage by stage.

  The same computation as for the first graph, cut at other places: the products `v·(W₀ - W₂)` are formed
  before the stage that uses them, and the weight matrix `W₁` is passed on as a matrix.
-/
import proofs.«126667_g78520592106144_cont_sun_c4_372_13_alg».proof.Proof.Gen.KernelIdeal.Skeleton
import proofs.«126667_g78520592106144_cont_sun_c4_372_13_alg».proof.Proof.KLayout
import proofs.«126667_g78520592106144_cont_sun_c4_372_13_alg».proof.Proof.KDot

noncomputable section

namespace Cert.KernelIdeal.Body

open Cert.KernelIdeal Cert.KernelIdeal.Gen Idealize.ShloMosaic Idealize.ShloMosaic.ValueIdx Cert.ChebSpec

theorem pay18_eq (xs : Fin 1 → Fin 512 → Fin 128 → ℝ) : k0_pay18 (F := Ideal) (c3 xs) = c2 (xs 0) := by
  unfold k0_pay18
  exact shapeCast_1ab_ab_c3 xs _

theorem pay19_eq (As : Fin 1 → Fin 512 → Fin 512 → ℝ) : k0_pay19 (F := Ideal) (c3 As) = c2 (As 0) := by
  unfold k0_pay19
  exact shapeCast_1ab_ab_c3 As _

/-- The column of `deg ^ (-1/2)`. -/
theorem pay20_eq (As : Fin 1 → Fin 512 → Fin 512 → ℝ) :
    k0_pay20 (F := Ideal) (c3 As) = c2 (fun i (_ : Fin 1) => dinv (As 0) i) := by
  unfold k0_pay20
  simp only [pay19_eq]
  rw [rowSum_c2]
  simp only [shapeCast_a_a1_c1, broadcast_zero_c2, select_ogt_rsqrt_c2]
  rfl

/-- The column of the diagonal. -/
theorem pay21_eq (As : Fin 1 → Fin 512 → Fin 512 → ℝ) :
    k0_pay21 (F := Ideal) (c3 As) = c2 (fun i (_ : Fin 1) => As 0 i i) := by
  unfold k0_pay21
  simp only [pay19_eq, broadcast_zero_c2]
  rw [diag_c2, rowSum_c2]
  simp only [shapeCast_a_a1_c1, Finset.sum_ite_eq, Finset.mem_univ, if_true]

/-- One propagation `Q A x`. -/
theorem pay22_eq (x : Fin 512 → Fin 128 → ℝ) (As : Fin 1 → Fin 512 → Fin 512 → ℝ) :
    k0_pay22 (F := Ideal) (c2 x) (c3 As) = c2 (Q (As 0) x) := by
  unfold k0_pay22
  simp only [pay19_eq, pay20_eq, pay21_eq, broadcastTo_a1_ab_c2, mulf_c2, matmul_tA_c2, addf_c2]
  rfl

/-- Two propagations `Q A (Q A x)`. -/
theorem pay23_eq (x : Fin 512 → Fin 128 → ℝ) (As : Fin 1 → Fin 512 → Fin 512 → ℝ) :
    k0_pay23 (F := Ideal) (c2 x) (c3 As) = c2 (Q (As 0) (Q (As 0) x)) := by
  unfold k0_pay23
  simp only [pay19_eq, pay20_eq, pay21_eq, pay22_eq, broadcastTo_a1_ab_c2, mulf_c2, matmul_tA_c2, addf_c2]
  rfl

/-- `x · (W₀ - W₂)` of the first layer. -/
theorem pay24_eq (x : Fin 512 → Fin 128 → ℝ) (w0 w2 : Fin 1 → Fin 128 → Fin 128 → ℝ) :
    k0_pay24 (F := Ideal) (c2 x) (c3 w0) (c3 w2) = c2 (mm x fun l k => w0 0 l k - w2 0 l k) := by
  unfold k0_pay24
  simp only [shapeCast_1ab_ab_c3, subf_c2, matmul_128_c2]

theorem pay25_eq (w : Fin 1 → Fin 128 → Fin 128 → ℝ) : k0_pay25 (F := Ideal) (c3 w) = c2 (w 0) := by
  unfold k0_pay25
  exact shapeCast_1ab_ab_c3 w _

theorem pay30_eq (w : Fin 1 → Fin 128 → Fin 64 → ℝ) : k0_pay30 (F := Ideal) (c3 w) = c2 (w 0) := by
  unfold k0_pay30
  exact shapeCast_1ab_ab_c3 w _

variable (A : Fin 512 → Fin 512 → ℝ)

/-- The first layer and its `max · 0`. -/
theorem pay26_eq (x : Fin 512 → Fin 128 → ℝ) (W : Fin 3 → Fin 128 → Fin 128 → ℝ) (b : Fin 128 → ℝ) :
    k0_pay26 (F := Ideal) (c2 (Q A x)) (c2 (Q A (Q A x))) (c2 (mm x fun l k => W 0 l k - W 2 l k)) (c2 (W 1))
        (constant S512x128 .f32 0x00000000#32) (c3 fun (_ : Fin 1) => W 2) (c2 fun (_ : Fin 1) => b)
      = c2 (relu (layerK A W b x)) := by
  unfold k0_pay26
  simp only [shapeCast_1ab_ab_c3, matmul_128_c2, subf_c2, broadcast_two_c2, mulf_c2, addf_c2, shapeCast_shapeCast,
    broadcastTo_1b_ab_c2, broadcast_zero_c2, maximumf_c2]
  rfl

/-- One propagation of the first layer's result. -/
theorem pay27_eq (x : Fin 512 → Fin 128 → ℝ) (W : Fin 3 → Fin 128 → Fin 128 → ℝ) (b : Fin 128 → ℝ) :
    k0_pay27 (F := Ideal) (c2 A) (c2 fun i (_ : Fin 1) => dinv A i) (c2 fun i (_ : Fin 1) => A i i)
        (c2 (Q A x)) (c2 (Q A (Q A x))) (c2 (mm x fun l k => W 0 l k - W 2 l k)) (c2 (W 1))
        (constant S512x128 .f32 0x00000000#32) (c3 fun (_ : Fin 1) => W 2) (c2 fun (_ : Fin 1) => b)
      = c2 (Q A (relu (layerK A W b x))) := by
  unfold k0_pay27
  simp only [pay26_eq, broadcastTo_a1_ab_c2, mulf_c2, matmul_tA_c2, addf_c2]
  rfl

/-- Two propagations of the first layer's result. -/
theorem pay28_eq (x : Fin 512 → Fin 128 → ℝ) (W : Fin 3 → Fin 128 → Fin 128 → ℝ) (b : Fin 128 → ℝ) :
    k0_pay28 (F := Ideal) (c2 A) (c2 fun i (_ : Fin 1) => dinv A i) (c2 fun i (_ : Fin 1) => A i i)
        (c2 (Q A x)) (c2 (Q A (Q A x))) (c2 (mm x fun l k => W 0 l k - W 2 l k)) (c2 (W 1))
        (constant S512x128 .f32 0x00000000#32) (c3 fun (_ : Fin 1) => W 2) (c2 fun (_ : Fin 1) => b)
      = c2 (Q A (Q A (relu (layerK A W b x)))) := by
  unfold k0_pay28
  simp only [pay27_eq, broadcastTo_a1_ab_c2, mulf_c2, matmul_tA_c2, addf_c2]
  rfl

/-- `h · (V₀ - V₂)` of the second layer, `h` the first layer's result. -/
theorem pay29_eq (x : Fin 512 → Fin 128 → ℝ) (W : Fin 3 → Fin 128 → Fin 128 → ℝ) (b : Fin 128 → ℝ)
    (v0 v2 : Fin 1 → Fin 128 → Fin 64 → ℝ) :
    k0_pay29 (F := Ideal) (c2 (Q A x)) (c2 (Q A (Q A x))) (c2 (mm x fun l k => W 0 l k - W 2 l k)) (c2 (W 1))
        (constant S512x128 .f32 0x00000000#32) (c3 fun (_ : Fin 1) => W 2) (c2 fun (_ : Fin 1) => b) (c3 v0) (c3 v2)
      = c2 (mm (relu (layerK A W b x)) fun l k => v0 0 l k - v2 0 l k) := by
  unfold k0_pay29
  simp only [pay26_eq, shapeCast_1ab_ab_c3, subf_c2, matmul_64_c2]

/-- The second layer. -/
theorem pay1_eq (h : Fin 512 → Fin 128 → ℝ) (V : Fin 3 → Fin 128 → Fin 64 → ℝ) (b : Fin 64 → ℝ) :
    k0_pay1 (F := Ideal) (c2 (Q A h)) (c2 (Q A (Q A h))) (c2 (mm h fun l k => V 0 l k - V 2 l k)) (c2 (V 1))
        (constant S512x64 .f32 0x00000000#32) (c3 fun (_ : Fin 1) => V 2) (c2 fun (_ : Fin 1) => b)
      = c2 (layerK A V b h) := by
  unfold k0_pay1
  simp only [shapeCast_1ab_ab_c3, matmul_64_c2, subf_c2, broadcast_two_c2, mulf_c2, addf_c2, shapeCast_shapeCast,
    broadcastTo_1b_ab_c2]
  rfl

/-- The second result's piece: the second layer, as a stack of one matrix. -/
theorem pay2_eq (h : Fin 512 → Fin 128 → ℝ) (V : Fin 3 → Fin 128 → Fin 64 → ℝ) (b : Fin 64 → ℝ) :
    k0_pay2 (F := Ideal) (c2 (Q A h)) (c2 (Q A (Q A h))) (c2 (mm h fun l k => V 0 l k - V 2 l k)) (c2 (V 1))
        (constant S512x64 .f32 0x00000000#32) (c3 fun (_ : Fin 1) => V 2) (c2 fun (_ : Fin 1) => b)
      = c3 (fun (_ : Fin 1) => layerK A V b h) := by
  unfold k0_pay2
  simp only [pay1_eq, shapeCast_ab_1ab_c2]

/-- The first result's piece: the row-wise log-softmax of the second layer. -/
theorem pay3_eq (h : Fin 512 → Fin 128 → ℝ) (V : Fin 3 → Fin 128 → Fin 64 → ℝ) (b : Fin 64 → ℝ) :
    k0_pay3 (F := Ideal) (c2 (Q A h)) (c2 (Q A (Q A h))) (c2 (mm h fun l k => V 0 l k - V 2 l k)) (c2 (V 1))
        (constant S512x64 .f32 0x00000000#32) (c3 fun (_ : Fin 1) => V 2) (c2 fun (_ : Fin 1) => b)
      = c3 (fun (_ : Fin 1) => lsmK (layerK A V b h)) := by
  unfold k0_pay3
  simp only [pay1_eq]
  rw [rowMax_c2]
  simp only [shapeCast_a_a1_c1, broadcastTo_a1_ab_c2, subf_c2, exp_c2]
  rw [rowSum_c2]
  simp only [shapeCast_a_a1_c1]
  rw [log_c2 _ (fun i _ => Finset.sum_pos (fun j _ => Real.exp_pos _) Finset.univ_nonempty)]
  simp only [addf_c2, broadcastTo_a1_ab_c2, subf_c2, shapeCast_ab_1ab_c2]
  rfl

end Cert.KernelIdeal.Body

end
-- ==== Proof.KPiece.lean ====
/-
  One graph's two stored pieces.

  Composing the stages: for a graph with feature matrix `x`, adjacency matrix `A`, weights `W1, b1, W2, b2`, the
  piece stored into the second result is the two-layer convolution `outK` and the piece stored into the first
  result is its row-wise log-softmax, for either of the two ways the block's graphs are cut into stages.
-/
import proofs.«126667_g78520592106144_cont_sun_c4_372_13_alg».proof.Proof.KG0
import proofs.«126667_g78520592106144_cont_sun_c4_372_13_alg».proof.Proof.KG1

noncomputable section

namespace Cert.KernelIdeal.Body

open Cert.KernelIdeal Cert.KernelIdeal.Gen Idealize.ShloMosaic Idealize.ShloMosaic.ValueIdx Cert.ChebSpec

/-- The first graph's piece of the second result. -/
theorem piece0_out (x : Fin 512 → Fin 128 → ℝ) (A : Fin 512 → Fin 512 → ℝ) (W1 : Fin 3 → Fin 128 → Fin 128 → ℝ) (b1 : Fin 128 → ℝ)
    (W2 : Fin 3 → Fin 128 → Fin 64 → ℝ) (b2 : Fin 64 → ℝ) :
    k0_pay16 (k0_pay11 (k0_pay4 (c3 fun (_ : Fin 1) => x)) (k0_pay8 (c3 fun (_ : Fin 1) => x) (c3 fun (_ : Fin 1) => A)) (k0_pay9 (c3 fun (_ : Fin 1) => x) (c3 fun (_ : Fin 1) => A)) (k0_pay10 (c3 fun (_ : Fin 1) => W1 0) (c3 fun (_ : Fin 1) => W1 2)) (constant (F := Ideal) S512x128 .f32 0x00000000#32) (c3 fun (_ : Fin 1) => W1 1) (c3 fun (_ : Fin 1) => W1 2) (c2 fun (_ : Fin 1) => b1)) (k0_pay12 (k0_pay4 (c3 fun (_ : Fin 1) => x)) (k0_pay5 (c3 fun (_ : Fin 1) => A)) (k0_pay6 (c3 fun (_ : Fin 1) => A)) (k0_pay7 (c3 fun (_ : Fin 1) => A)) (k0_pay8 (c3 fun (_ : Fin 1) => x) (c3 fun (_ : Fin 1) => A)) (k0_pay9 (c3 fun (_ : Fin 1) => x) (c3 fun (_ : Fin 1) => A)) (k0_pay10 (c3 fun (_ : Fin 1) => W1 0) (c3 fun (_ : Fin 1) => W1 2)) (constant (F := Ideal) S512x128 .f32 0x00000000#32) (c3 fun (_ : Fin 1) => W1 1) (c3 fun (_ : Fin 1) => W1 2) (c2 fun (_ : Fin 1) => b1)) (k0_pay13 (k0_pay4 (c3 fun (_ : Fin 1) => x)) (k0_pay5 (c3 fun (_ : Fin 1) => A)) (k0_pay6 (c3 fun (_ : Fin 1) => A)) (k0_pay7 (c3 fun (_ : Fin 1) => A)) (k0_pay8 (c3 fun (_ : Fin 1) => x) (c3 fun (_ : Fin 1) => A)) (k0_pay9 (c3 fun (_ : Fin 1) => x) (c3 fun (_ : Fin 1) => A)) (k0_pay10 (c3 fun (_ : Fin 1) => W1 0) (c3 fun (_ : Fin 1) => W1 2)) (constant (F := Ideal) S512x128 .f32 0x00000000#32) (c3 fun (_ : Fin 1) => W1 1) (c3 fun (_ : Fin 1) => W1 2) (c2 fun (_ : Fin 1) => b1)) (k0_pay14 (c3 fun (_ : Fin 1) => W2 0) (c3 fun (_ : Fin 1) => W2 2)) (constant (F := Ideal) S512x64 .f32 0x00000000#32) (c3 fun (_ : Fin 1) => W2 1) (c3 fun (_ : Fin 1) => W2 2) (c2 fun (_ : Fin 1) => b2)
      = c3 (fun (_ : Fin 1) => outK x A W1 b1 W2 b2) := by
  simp only [pay4_eq, pay5_eq, pay6_eq, pay7_eq, pay8_eq, pay9_eq, pay10_eq, pay11_eq, pay12_eq, pay13_eq, pay14_eq, pay16_eq]
  rfl

/-- The first graph's piece of the first result. -/
theorem piece0_lsm (x : Fin 512 → Fin 128 → ℝ) (A : Fin 512 → Fin 512 → ℝ) (W1 : Fin 3 → Fin 128 → Fin 128 → ℝ) (b1 : Fin 128 → ℝ)
    (W2 : Fin 3 → Fin 128 → Fin 64 → ℝ) (b2 : Fin 64 → ℝ) :
    k0_pay17 (k0_pay11 (k0_pay4 (c3 fun (_ : Fin 1) => x)) (k0_pay8 (c3 fun (_ : Fin 1) => x) (c3 fun (_ : Fin 1) => A)) (k0_pay9 (c3 fun (_ : Fin 1) => x) (c3 fun (_ : Fin 1) => A)) (k0_pay10 (c3 fun (_ : Fin 1) => W1 0) (c3 fun (_ : Fin 1) => W1 2)) (constant (F := Ideal) S512x128 .f32 0x00000000#32) (c3 fun (_ : Fin 1) => W1 1) (c3 fun (_ : Fin 1) => W1 2) (c2 fun (_ : Fin 1) => b1)) (k0_pay12 (k0_pay4 (c3 fun (_ : Fin 1) => x)) (k0_pay5 (c3 fun (_ : Fin 1) => A)) (k0_pay6 (c3 fun (_ : Fin 1) => A)) (k0_pay7 (c3 fun (_ : Fin 1) => A)) (k0_pay8 (c3 fun (_ : Fin 1) => x) (c3 fun (_ : Fin 1) => A)) (k0_pay9 (c3 fun (_ : Fin 1) => x) (c3 fun (_ : Fin 1) => A)) (k0_pay10 (c3 fun (_ : Fin 1) => W1 0) (c3 fun (_ : Fin 1) => W1 2)) (constant (F := Ideal) S512x128 .f32 0x00000000#32) (c3 fun (_ : Fin 1) => W1 1) (c3 fun (_ : Fin 1) => W1 2) (c2 fun (_ : Fin 1) => b1)) (k0_pay13 (k0_pay4 (c3 fun (_ : Fin 1) => x)) (k0_pay5 (c3 fun (_ : Fin 1) => A)) (k0_pay6 (c3 fun (_ : Fin 1) => A)) (k0_pay7 (c3 fun (_ : Fin 1) => A)) (k0_pay8 (c3 fun (_ : Fin 1) => x) (c3 fun (_ : Fin 1) => A)) (k0_pay9 (c3 fun (_ : Fin 1) => x) (c3 fun (_ : Fin 1) => A)) (k0_pay10 (c3 fun (_ : Fin 1) => W1 0) (c3 fun (_ : Fin 1) => W1 2)) (constant (F := Ideal) S512x128 .f32 0x00000000#32) (c3 fun (_ : Fin 1) => W1 1) (c3 fun (_ : Fin 1) => W1 2) (c2 fun (_ : Fin 1) => b1)) (k0_pay14 (c3 fun (_ : Fin 1) => W2 0) (c3 fun (_ : Fin 1) => W2 2)) (constant (F := Ideal) S512x64 .f32 0x00000000#32) (c3 fun (_ : Fin 1) => W2 1) (c3 fun (_ : Fin 1) => W2 2) (c2 fun (_ : Fin 1) => b2)
      = c3 (fun (_ : Fin 1) => lsmK (outK x A W1 b1 W2 b2)) := by
  simp only [pay4_eq, pay5_eq, pay6_eq, pay7_eq, pay8_eq, pay9_eq, pay10_eq, pay11_eq, pay12_eq, pay13_eq, pay14_eq, pay17_eq]
  rfl

/-- The second graph's piece of the second result. -/
theorem piece1_out (x : Fin 512 → Fin 128 → ℝ) (A : Fin 512 → Fin 512 → ℝ) (W1 : Fin 3 → Fin 128 → Fin 128 → ℝ) (b1 : Fin 128 → ℝ)
    (W2 : Fin 3 → Fin 128 → Fin 64 → ℝ) (b2 : Fin 64 → ℝ) :
    k0_pay2 (k0_pay27 (k0_pay19 (c3 fun (_ : Fin 1) => A)) (k0_pay20 (c3 fun (_ : Fin 1) => A)) (k0_pay21 (c3 fun (_ : Fin 1) => A)) (k0_pay22 (k0_pay18 (c3 fun (_ : Fin 1) => x)) (c3 fun (_ : Fin 1) => A)) (k0_pay23 (k0_pay18 (c3 fun (_ : Fin 1) => x)) (c3 fun (_ : Fin 1) => A)) (k0_pay24 (k0_pay18 (c3 fun (_ : Fin 1) => x)) (c3 fun (_ : Fin 1) => W1 0) (c3 fun (_ : Fin 1) => W1 2)) (k0_pay25 (c3 fun (_ : Fin 1) => W1 1)) (constant (F := Ideal) S512x128 .f32 0x00000000#32) (c3 fun (_ : Fin 1) => W1 2) (c2 fun (_ : Fin 1) => b1)) (k0_pay28 (k0_pay19 (c3 fun (_ : Fin 1) => A)) (k0_pay20 (c3 fun (_ : Fin 1) => A)) (k0_pay21 (c3 fun (_ : Fin 1) => A)) (k0_pay22 (k0_pay18 (c3 fun (_ : Fin 1) => x)) (c3 fun (_ : Fin 1) => A)) (k0_pay23 (k0_pay18 (c3 fun (_ : Fin 1) => x)) (c3 fun (_ : Fin 1) => A)) (k0_pay24 (k0_pay18 (c3 fun (_ : Fin 1) => x)) (c3 fun (_ : Fin 1) => W1 0) (c3 fun (_ : Fin 1) => W1 2)) (k0_pay25 (c3 fun (_ : Fin 1) => W1 1)) (constant (F := Ideal) S512x128 .f32 0x00000000#32) (c3 fun (_ : Fin 1) => W1 2) (c2 fun (_ : Fin 1) => b1)) (k0_pay29 (k0_pay22 (k0_pay18 (c3 fun (_ : Fin 1) => x)) (c3 fun (_ : Fin 1) => A)) (k0_pay23 (k0_pay18 (c3 fun (_ : Fin 1) => x)) (c3 fun (_ : Fin 1) => A)) (k0_pay24 (k0_pay18 (c3 fun (_ : Fin 1) => x)) (c3 fun (_ : Fin 1) => W1 0) (c3 fun (_ : Fin 1) => W1 2)) (k0_pay25 (c3 fun (_ : Fin 1) => W1 1)) (constant (F := Ideal) S512x128 .f32 0x00000000#32) (c3 fun (_ : Fin 1) => W1 2) (c2 fun (_ : Fin 1) => b1) (c3 fun (_ : Fin 1) => W2 0) (c3 fun (_ : Fin 1) => W2 2)) (k0_pay30 (c3 fun (_ : Fin 1) => W2 1)) (constant (F := Ideal) S512x64 .f32 0x00000000#32) (c3 fun (_ : Fin 1) => W2 2) (c2 fun (_ : Fin 1) => b2)
      = c3 (fun (_ : Fin 1) => outK x A W1 b1 W2 b2) := by
  simp only [pay18_eq, pay19_eq, pay20_eq, pay21_eq, pay22_eq, pay23_eq, pay24_eq, pay25_eq, pay26_eq, pay27_eq, pay28_eq, pay29_eq, pay30_eq, pay2_eq]
  rfl

/-- The second graph's piece of the first result. -/
theorem piece1_lsm (x : Fin 512 → Fin 128 → ℝ) (A : Fin 512 → Fin 512 → ℝ) (W1 : Fin 3 → Fin 128 → Fin 128 → ℝ) (b1 : Fin 128 → ℝ)
    (W2 : Fin 3 → Fin 128 → Fin 64 → ℝ) (b2 : Fin 64 → ℝ) :
    k0_pay3 (k0_pay27 (k0_pay19 (c3 fun (_ : Fin 1) => A)) (k0_pay20 (c3 fun (_ : Fin 1) => A)) (k0_pay21 (c3 fun (_ : Fin 1) => A)) (k0_pay22 (k0_pay18 (c3 fun (_ : Fin 1) => x)) (c3 fun (_ : Fin 1) => A)) (k0_pay23 (k0_pay18 (c3 fun (_ : Fin 1) => x)) (c3 fun (_ : Fin 1) => A)) (k0_pay24 (k0_pay18 (c3 fun (_ : Fin 1) => x)) (c3 fun (_ : Fin 1) => W1 0) (c3 fun (_ : Fin 1) => W1 2)) (k0_pay25 (c3 fun (_ : Fin 1) => W1 1)) (constant (F := Ideal) S512x128 .f32 0x00000000#32) (c3 fun (_ : Fin 1) => W1 2) (c2 fun (_ : Fin 1) => b1)) (k0_pay28 (k0_pay19 (c3 fun (_ : Fin 1) => A)) (k0_pay20 (c3 fun (_ : Fin 1) => A)) (k0_pay21 (c3 fun (_ : Fin 1) => A)) (k0_pay22 (k0_pay18 (c3 fun (_ : Fin 1) => x)) (c3 fun (_ : Fin 1) => A)) (k0_pay23 (k0_pay18 (c3 fun (_ : Fin 1) => x)) (c3 fun (_ : Fin 1) => A)) (k0_pay24 (k0_pay18 (c3 fun (_ : Fin 1) => x)) (c3 fun (_ : Fin 1) => W1 0) (c3 fun (_ : Fin 1) => W1 2)) (k0_pay25 (c3 fun (_ : Fin 1) => W1 1)) (constant (F := Ideal) S512x128 .f32 0x00000000#32) (c3 fun (_ : Fin 1) => W1 2) (c2 fun (_ : Fin 1) => b1)) (k0_pay29 (k0_pay22 (k0_pay18 (c3 fun (_ : Fin 1) => x)) (c3 fun (_ : Fin 1) => A)) (k0_pay23 (k0_pay18 (c3 fun (_ : Fin 1) => x)) (c3 fun (_ : Fin 1) => A)) (k0_pay24 (k0_pay18 (c3 fun (_ : Fin 1) => x)) (c3 fun (_ : Fin 1) => W1 0) (c3 fun (_ : Fin 1) => W1 2)) (k0_pay25 (c3 fun (_ : Fin 1) => W1 1)) (constant (F := Ideal) S512x128 .f32 0x00000000#32) (c3 fun (_ : Fin 1) => W1 2) (c2 fun (_ : Fin 1) => b1) (c3 fun (_ : Fin 1) => W2 0) (c3 fun (_ : Fin 1) => W2 2)) (k0_pay30 (c3 fun (_ : Fin 1) => W2 1)) (constant (F := Ideal) S512x64 .f32 0x00000000#32) (c3 fun (_ : Fin 1) => W2 2) (c2 fun (_ : Fin 1) => b2)
      = c3 (fun (_ : Fin 1) => lsmK (outK x A W1 b1 W2 b2)) := by
  simp only [pay18_eq, pay19_eq, pay20_eq, pay21_eq, pay22_eq, pay23_eq, pay24_eq, pay25_eq, pay26_eq, pay27_eq, pay28_eq, pay29_eq, pay30_eq, pay3_eq]
  rfl

end Cert.KernelIdeal.Body

end
-- ==== Proof.KFinal.lean ====
/-
  The dense arrangement's two results, read entry by entry.

  Each output window's buffer after the body is cut into the two graphs of the block.  For graph `g`, row `r`,
  column `k` the second result is the real two-layer Chebyshev convolution `outK` of that graph's arrays, and
  the first is its row-wise log-softmax `lsmK`, both as extended reals that are coercions of real numbers:
  every load reads a stack of one real matrix, each graph's stored piece is the real formula, and the two pieces
  tile the buffer along its first axis.
-/
import proofs.«126667_g78520592106144_cont_sun_c4_372_13_alg».proof.Proof.Gen.KernelIdeal.Frame
import proofs.«126667_g78520592106144_cont_sun_c4_372_13_alg».proof.Proof.Spec
import proofs.«126667_g78520592106144_cont_sun_c4_372_13_alg».proof.Proof.KLoad
import proofs.«126667_g78520592106144_cont_sun_c4_372_13_alg».proof.Proof.KPiece
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Cert.ChebSpec

/-- A graph's piece, a stack of one real matrix, agrees with the whole stack of per-graph matrices where it is stored. -/
theorem piece_agrees {n a b : ℕ} (G : Fin n → Fin a → Fin b → ℝ) (g0 : ℕ) (hg : g0 < n)
    (inb : ∀ ax, (![g0, 0, 0] : Fin 3 → ℕ) ax + (⟨3, ![1, a, b]⟩ : Shape).size ax ≤ (⟨3, ![n, a, b]⟩ : Shape).size ax)
    (y : (⟨3, ![1, a, b]⟩ : Shape).Idx) :
    c3 (fun (_ : Fin 1) => G ⟨g0, hg⟩) y
      = c3 G ((Rect.unit (s := ⟨3, ![n, a, b]⟩) ![g0, 0, 0] (⟨3, ![1, a, b]⟩ : Shape).size inb).emb y) := by
  obtain ⟨u, i, j, rfl⟩ : ∃ (u : Fin 1) (i : Fin a) (j : Fin b), y = ix3 u i j := ⟨y 0, y 1, y 2, eq_ix3 y⟩
  show _ = c3 G ((Rect.unit (s := ⟨3, ![n, a, b]⟩) ![g0, 0, 0] (⟨3, ![1, a, b]⟩ : Shape).size inb).idx (ix3 u i j))
  rw [unit_idx_ix3 g0 hg inb]
  rfl

/-- The second result (the convolution itself) at graph `g`, row `r`, column `k`. -/
theorem out_apply (xr : Fin 2 → Fin 512 → Fin 128 → ℝ) (Ar : Fin 2 → Fin 512 → Fin 512 → ℝ)
    (W1r : Fin 3 → Fin 128 → Fin 128 → ℝ) (b1r : Fin 128 → ℝ) (W2r : Fin 3 → Fin 128 → Fin 64 → ℝ) (b2r : Fin 64 → ℝ)
    (x0 : Vec Ideal S2x512x128 .f32) (x1 : Vec Ideal S2x512x512 .f32) (x2 : Vec Ideal S3x128x128 .f32)
    (x3 : Vec Ideal S1x128 .f32) (x4 : Vec Ideal S3x128x64 .f32) (x5 : Vec Ideal S1x64 .f32)
    (hx : ∀ g r k, x0 (ix3 g r k) = ((xr g r k : ℝ) : EReal))
    (hA : ∀ g r c, x1 (ix3 g r c) = ((Ar g r c : ℝ) : EReal))
    (hW1 : ∀ j l k, x2 (ix3 j l k) = ((W1r j l k : ℝ) : EReal))
    (hb1 : ∀ k, x3 (ix2 0 k) = ((b1r k : ℝ) : EReal))
    (hW2 : ∀ j l k, x4 (ix3 j l k) = ((W2r j l k : ℝ) : EReal))
    (hb2 : ∀ k, x5 (ix2 0 k) = ((b2r k : ℝ) : EReal))
    (g : Fin 2) (r : Fin 512) (k : Fin 64) :
    Cert.KernelIdeal.Gen.out0_7 (F := Ideal) x0 x1 x2 x3 x4 x5 (ix3 g r k)
      = ((Cert.ChebSpec.outK (xr g) (Ar g) W1r b1r W2r b2r r k : ℝ) : EReal) := by
  have e0 : View.ld (Val := Elt Ideal) x0 r0_0 = c3 (fun (_ : Fin 1) => xr 0) := ld_unit_c3 x0 xr hx 0 (by decide) _
  have e11 : View.ld (Val := Elt Ideal) x0 r0_11 = c3 (fun (_ : Fin 1) => xr 1) := ld_unit_c3 x0 xr hx 1 (by decide) _
  have a1 : View.ld (Val := Elt Ideal) x1 r0_1 = c3 (fun (_ : Fin 1) => Ar 0) := ld_unit_c3 x1 Ar hA 0 (by decide) _
  have a12 : View.ld (Val := Elt Ideal) x1 r0_12 = c3 (fun (_ : Fin 1) => Ar 1) := ld_unit_c3 x1 Ar hA 1 (by decide) _
  have w2 : View.ld (Val := Elt Ideal) x2 r0_2 = c3 (fun (_ : Fin 1) => W1r 0) := ld_unit_c3 x2 W1r hW1 0 (by decide) _
  have w3 : View.ld (Val := Elt Ideal) x2 r0_3 = c3 (fun (_ : Fin 1) => W1r 2) := ld_unit_c3 x2 W1r hW1 2 (by decide) _
  have w4 : View.ld (Val := Elt Ideal) x2 r0_4 = c3 (fun (_ : Fin 1) => W1r 1) := ld_unit_c3 x2 W1r hW1 1 (by decide) _
  have b5 : View.ld (Val := Elt Ideal) x3 r0_5 = c2 (fun (_ : Fin 1) => b1r) := ld_row_c2 x3 b1r hb1 _
  have v6 : View.ld (Val := Elt Ideal) x4 r0_6 = c3 (fun (_ : Fin 1) => W2r 0) := ld_unit_c3 x4 W2r hW2 0 (by decide) _
  have v7 : View.ld (Val := Elt Ideal) x4 r0_7 = c3 (fun (_ : Fin 1) => W2r 2) := ld_unit_c3 x4 W2r hW2 2 (by decide) _
  have v8 : View.ld (Val := Elt Ideal) x4 r0_8 = c3 (fun (_ : Fin 1) => W2r 1) := ld_unit_c3 x4 W2r hW2 1 (by decide) _
  have b9 : View.ld (Val := Elt Ideal) x5 r0_9 = c2 (fun (_ : Fin 1) => b2r) := ld_row_c2 x5 b2r hb2 _
  unfold out0_7
  rw [e0, e11, a1, a12, w2, w3, w4, b5, v6, v7, v8, b9]
  rw [piece1_out, piece0_out]
  refine (View.canon_apply_of_pieces (Val := Elt Ideal) (c3 fun g => outK (xr g) (Ar g) W1r b1r W2r b2r) _ ?_
    (ix3 g r k) (cover0_7 _ _ _)).trans rfl
  refine List.forall_mem_cons.mpr ⟨fun y => ?_, List.forall_mem_cons.mpr ⟨fun y => ?_, fun _ h => nomatch h⟩⟩
  · exact piece_agrees (fun g => outK (xr g) (Ar g) W1r b1r W2r b2r) 1 (by decide) Facts₀.inb_S2x512x64_S1x512x64_1_0_0 y
  · exact piece_agrees (fun g => outK (xr g) (Ar g) W1r b1r W2r b2r) 0 (by decide) Facts₀.inb_S2x512x64_S1x512x64_0_0_0 y

/-- The first result (the log-softmax of the convolution) at graph `g`, row `r`, column `k`. -/
theorem lsm_apply (xr : Fin 2 → Fin 512 → Fin 128 → ℝ) (Ar : Fin 2 → Fin 512 → Fin 512 → ℝ)
    (W1r : Fin 3 → Fin 128 → Fin 128 → ℝ) (b1r : Fin 128 → ℝ) (W2r : Fin 3 → Fin 128 → Fin 64 → ℝ) (b2r : Fin 64 → ℝ)
    (x0 : Vec Ideal S2x512x128 .f32) (x1 : Vec Ideal S2x512x512 .f32) (x2 : Vec Ideal S3x128x128 .f32)
    (x3 : Vec Ideal S1x128 .f32) (x4 : Vec Ideal S3x128x64 .f32) (x5 : Vec Ideal S1x64 .f32)
    (hx : ∀ g r k, x0 (ix3 g r k) = ((xr g r k : ℝ) : EReal))
    (hA : ∀ g r c, x1 (ix3 g r c) = ((Ar g r c : ℝ) : EReal))
    (hW1 : ∀ j l k, x2 (ix3 j l k) = ((W1r j l k : ℝ) : EReal))
    (hb1 : ∀ k, x3 (ix2 0 k) = ((b1r k : ℝ) : EReal))
    (hW2 : ∀ j l k, x4 (ix3 j l k) = ((W2r j l k : ℝ) : EReal))
    (hb2 : ∀ k, x5 (ix2 0 k) = ((b2r k : ℝ) : EReal))
    (g : Fin 2) (r : Fin 512) (k : Fin 64) :
    Cert.KernelIdeal.Gen.out0_6 (F := Ideal) x0 x1 x2 x3 x4 x5 (ix3 g r k)
      = ((Cert.ChebSpec.lsmK (Cert.ChebSpec.outK (xr g) (Ar g) W1r b1r W2r b2r) r k : ℝ) : EReal) := by
  have e0 : View.ld (Val := Elt Ideal) x0 r0_0 = c3 (fun (_ : Fin 1) => xr 0) := ld_unit_c3 x0 xr hx 0 (by decide) _
  have e11 : View.ld (Val := Elt Ideal) x0 r0_11 = c3 (fun (_ : Fin 1) => xr 1) := ld_unit_c3 x0 xr hx 1 (by decide) _
  have a1 : View.ld (Val := Elt Ideal) x1 r0_1 = c3 (fun (_ : Fin 1) => Ar 0) := ld_unit_c3 x1 Ar hA 0 (by decide) _
  have a12 : View.ld (Val := Elt Ideal) x1 r0_12 = c3 (fun (_ : Fin 1) => Ar 1) := ld_unit_c3 x1 Ar hA 1 (by decide) _
  have w2 : View.ld (Val := Elt Ideal) x2 r0_2 = c3 (fun (_ : Fin 1) => W1r 0) := ld_unit_c3 x2 W1r hW1 0 (by decide) _
  have w3 : View.ld (Val := Elt Ideal) x2 r0_3 = c3 (fun (_ : Fin 1) => W1r 2) := ld_unit_c3 x2 W1r hW1 2 (by decide) _
  have w4 : View.ld (Val := Elt Ideal) x2 r0_4 = c3 (fun (_ : Fin 1) => W1r 1) := ld_unit_c3 x2 W1r hW1 1 (by decide) _
  have b5 : View.ld (Val := Elt Ideal) x3 r0_5 = c2 (fun (_ : Fin 1) => b1r) := ld_row_c2 x3 b1r hb1 _
  have v6 : View.ld (Val := Elt Ideal) x4 r0_6 = c3 (fun (_ : Fin 1) => W2r 0) := ld_unit_c3 x4 W2r hW2 0 (by decide) _
  have v7 : View.ld (Val := Elt Ideal) x4 r0_7 = c3 (fun (_ : Fin 1) => W2r 2) := ld_unit_c3 x4 W2r hW2 2 (by decide) _
  have v8 : View.ld (Val := Elt Ideal) x4 r0_8 = c3 (fun (_ : Fin 1) => W2r 1) := ld_unit_c3 x4 W2r hW2 1 (by decide) _
  have b9 : View.ld (Val := Elt Ideal) x5 r0_9 = c2 (fun (_ : Fin 1) => b2r) := ld_row_c2 x5 b2r hb2 _
  unfold out0_6
  rw [e0, e11, a1, a12, w2, w3, w4, b5, v6, v7, v8, b9]
  rw [piece1_lsm, piece0_lsm]
  refine (View.canon_apply_of_pieces (Val := Elt Ideal) (c3 fun g => lsmK (outK (xr g) (Ar g) W1r b1r W2r b2r)) _ ?_
    (ix3 g r k) (cover0_6 _ _ _)).trans rfl
  refine List.forall_mem_cons.mpr ⟨fun y => ?_, List.forall_mem_cons.mpr ⟨fun y => ?_, fun _ h => nomatch h⟩⟩
  · exact piece_agrees (fun g => lsmK (outK (xr g) (Ar g) W1r b1r W2r b2r)) 1 (by decide) Facts₀.inb_S2x512x64_S1x512x64_1_0_0 y
  · exact piece_agrees (fun g => lsmK (outK (xr g) (Ar g) W1r b1r W2r b2r)) 0 (by decide) Facts₀.inb_S2x512x64_S1x512x64_0_0_0 y

end Cert.KernelIdeal.Body

end
-- ==== Proof.OutArray.lean ====
/-
  From the two-graph blocks to the whole result arrays.

  The launch has two grid points; point `t` stages graphs `2t` and `2t + 1` of `x` and of `A`, the whole weight
  arrays and the two bias rows (the biases recast to one row before the launch), and writes back graphs `2t`, `2t + 1`
  of both results.  Reading each staged block at an index gives the argument array at the graph `2t + g`; the body's
  result on a block of real numbers is the real convolution `outK` (and its log-softmax `lsmK`) of that graph; graph `G`
  of a result is written by point `G / 2`, so the two blocks cover each result array, which therefore ends holding
  `outK` (resp. `lsmK ∘ outK`) of every graph, as one function of the six argument arrays.
-/
import proofs.«126667_g78520592106144_cont_sun_c4_372_13_alg».proof.Proof.Gen.KernelIdeal.Value
import proofs.«126667_g78520592106144_cont_sun_c4_372_13_alg».proof.Proof.Spec
import proofs.«126667_g78520592106144_cont_sun_c4_372_13_alg».proof.Proof.KFinal
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.KernelIdeal.Value

variable (m : (ℓ : Loc nD τ sig) → Buf (Elt Ideal) ℓ) (ρ : Dev nD → PrngReg)

/-- The graph that row block `g` of grid point `t` holds: two graphs per point. -/
def gidx (t : Fin cfg0.N) (g : Fin 2) : Fin 4 :=
  ⟨t.val * 2 + g.val, by have h : t.val < 2 := lt_of_lt_of_eq t.isLt N_0; have := g.isLt; omega⟩

/-- The printed index maps, decided over the two grid points: the windows of `x`, `A` and of both results move
    with the point along the graph axis; the weights and biases stay at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- The block of `x` at point `t`: graphs `2t` and `2t + 1`. -/
theorem iblk0_apply (c : Dev nD) (t : Fin cfg0.N) (g : Fin 2) (r : Fin 512) (k : Fin 128) :
    (iblk m c 0 t : Vec Ideal S2x512x128 .f32) (ix3 g r k)
      = (m ((c : Thread nD τ).loc main_arg0) : S4x512x128.Idx → Elt Ideal .f32) (ix3 (gidx t g) r k) := by
  obtain ⟨⟨e0, e1, e2⟩, -⟩ := idx_facts t
  unfold iblk
  rw [View.read_apply]
  show V m c main_arg0 _ = _
  rw [V_main_arg0]
  refine congrArg _ ?_
  funext a
  apply Fin.ext
  match a with
  | ⟨0, _⟩ => show win0_0.index t (0 : Fin 3) * 2 + 1 * g.val = t.val * 2 + g.val; rw [e0]; omega
  | ⟨1, _⟩ => show win0_0.index t (1 : Fin 3) * 512 + 1 * r.val = r.val; rw [e1]; omega
  | ⟨2, _⟩ => show win0_0.index t (2 : Fin 3) * 128 + 1 * k.val = k.val; rw [e2]; omega

/-- The block of `A` at point `t`: graphs `2t` and `2t + 1`. -/
theorem iblk1_apply (c : Dev nD) (t : Fin cfg0.N) (g : Fin 2) (r : Fin 512) (k : Fin 512) :
    (iblk m c 1 t : Vec Ideal S2x512x512 .f32) (ix3 g r k)
      = (m ((c : Thread nD τ).loc main_arg1) : S4x512x512.Idx → Elt Ideal .f32) (ix3 (gidx t g) r k) := by
  obtain ⟨-, ⟨e0, e1, e2⟩, -⟩ := idx_facts t
  unfold iblk
  rw [View.read_apply]
  show V m c main_arg1 _ = _
  rw [V_main_arg1]
  refine congrArg _ ?_
  funext a
  apply Fin.ext
  match a with
  | ⟨0, _⟩ => show win0_1.index t (0 : Fin 3) * 2 + 1 * g.val = t.val * 2 + g.val; rw [e0]; omega
  | ⟨1, _⟩ => show win0_1.index t (1 : Fin 3) * 512 + 1 * r.val = r.val; rw [e1]; omega
  | ⟨2, _⟩ => show win0_1.index t (2 : Fin 3) * 512 + 1 * k.val = k.val; rw [e2]; omega

/-- The first layer's weights are staged whole at every point. -/
theorem iblk2_apply (c : Dev nD) (t : Fin cfg0.N) (j : Fin 3) (l : Fin 128) (k : Fin 128) :
    (iblk m c 2 t : Vec Ideal S3x128x128 .f32) (ix3 j l k)
      = (m ((c : Thread nD τ).loc main_arg2) : S3x128x128.Idx → Elt Ideal .f32) (ix3 j l k) := by
  obtain ⟨-, -, ⟨e0, e1, e2⟩, -⟩ := idx_facts t
  unfold iblk
  rw [View.read_apply]
  show V m c main_arg2 _ = _
  rw [V_main_arg2]
  refine congrArg _ ?_
  funext a
  apply Fin.ext
  match a with
  | ⟨0, _⟩ => show win0_2.index t (0 : Fin 3) * 3 + 1 * j.val = j.val; rw [e0]; omega
  | ⟨1, _⟩ => show win0_2.index t (1 : Fin 3) * 128 + 1 * l.val = l.val; rw [e1]; omega
  | ⟨2, _⟩ => show win0_2.index t (2 : Fin 3) * 128 + 1 * k.val = k.val; rw [e2]; omega

/-- The second layer's weights are staged whole at every point. -/
theorem iblk4_apply (c : Dev nD) (t : Fin cfg0.N) (j : Fin 3) (l : Fin 128) (k : Fin 64) :
    (iblk m c 4 t : Vec Ideal S3x128x64 .f32) (ix3 j l k)
      = (m ((c : Thread nD τ).loc main_arg4) : S3x128x64.Idx → Elt Ideal .f32) (ix3 j l k) := by
  obtain ⟨-, -, -, -, ⟨e0, e1, e2⟩, -⟩ := idx_facts t
  unfold iblk
  rw [View.read_apply]
  show V m c main_arg4 _ = _
  rw [V_main_arg4]
  refine congrArg _ ?_
  funext a
  apply Fin.ext
  match a with
  | ⟨0, _⟩ => show win0_4.index t (0 : Fin 3) * 3 + 1 * j.val = j.val; rw [e0]; omega
  | ⟨1, _⟩ => show win0_4.index t (1 : Fin 3) * 128 + 1 * l.val = l.val; rw [e1]; omega
  | ⟨2, _⟩ => show win0_4.index t (2 : Fin 3) * 64 + 1 * k.val = k.val; rw [e2]; omega

/-- The bias row of the first layer as the region finds it: the argument recast to one row. -/
theorem V_b1 (c : Dev nD) : (V m c main_v0 : S1x128.Idx → Elt Ideal .f32)
    = shapeCast S1x128 (m ((c : Thread nD τ).loc main_arg3) : S128.Idx → Elt Ideal .f32) shapeCasts_S128_S1x128 := by
  dsimp only [V, hostOps0]
  after_results
  rfl

/-- The bias row of the second layer as the region finds it: the argument recast to one row. -/
theorem V_b2 (c : Dev nD) : (V m c main_v1 : S1x64.Idx → Elt Ideal .f32)
    = shapeCast S1x64 (m ((c : Thread nD τ).loc main_arg5) : S64.Idx → Elt Ideal .f32) shapeCasts_S64_S1x64 := by
  dsimp only [V, hostOps0]
  after_results
  rfl

/-- The first layer's bias row is staged whole at every point. -/
theorem iblk3_apply (c : Dev nD) (t : Fin cfg0.N) (k : Fin 128) :
    (iblk m c 3 t : Vec Ideal S1x128 .f32) (ix2 (0 : Fin 1) k)
      = (m ((c : Thread nD τ).loc main_arg3) : S128.Idx → Elt Ideal .f32) (ix1 k) := by
  obtain ⟨-, -, -, ⟨e0, e1⟩, -⟩ := idx_facts t
  unfold iblk
  rw [View.read_apply]
  show V m c main_v0 _ = _
  rw [V_b1]
  refine Eq.trans (congrArg _ ?_) (shapeCast_a_1a_apply _ shapeCasts_S128_S1x128 (0 : Fin 1) k)
  funext a
  apply Fin.ext
  match a with
  | ⟨0, _⟩ => show win0_3.index t (0 : Fin 2) * 1 + 1 * 0 = 0; rw [e0]
  | ⟨1, _⟩ => show win0_3.index t (1 : Fin 2) * 128 + 1 * k.val = k.val; rw [e1]; omega

/-- The second layer's bias row is staged whole at every point. -/
theorem iblk5_apply (c : Dev nD) (t : Fin cfg0.N) (k : Fin 64) :
    (iblk m c 5 t : Vec Ideal S1x64 .f32) (ix2 (0 : Fin 1) k)
      = (m ((c : Thread nD τ).loc main_arg5) : S64.Idx → Elt Ideal .f32) (ix1 k) := by
  obtain ⟨-, -, -, -, -, ⟨e0, e1⟩, -⟩ := idx_facts t
  unfold iblk
  rw [View.read_apply]
  show V m c main_v1 _ = _
  rw [V_b2]
  refine Eq.trans (congrArg _ ?_) (shapeCast_a_1a_apply _ shapeCasts_S64_S1x64 (0 : Fin 1) k)
  funext a
  apply Fin.ext
  match a with
  | ⟨0, _⟩ => show win0_5.index t (0 : Fin 2) * 1 + 1 * 0 = 0; rw [e0]
  | ⟨1, _⟩ => show win0_5.index t (1 : Fin 2) * 64 + 1 * k.val = k.val; rw [e1]; omega

/-! ## The inputs as real arrays, and the two result arrays -/

/-- The real numbers a rank-3 array of extended reals holds (junk at an infinity). -/
def r3 {n0 n1 n2 : Nat} (a : (⟨3, ![n0, n1, n2]⟩ : Shape).Idx → EReal) : Fin n0 → Fin n1 → Fin n2 → ℝ :=
  fun i j k => (a (ix3 i j k)).toReal

/-- The real numbers a rank-1 array of extended reals holds (junk at an infinity). -/
def r1 {n : Nat} (a : (⟨1, ![n]⟩ : Shape).Idx → EReal) : Fin n → ℝ := fun k => (a (ix1 k)).toReal

theorem r3_spec {n0 n1 n2 : Nat} (a : (⟨3, ![n0, n1, n2]⟩ : Shape).Idx → EReal) (h : ∀ i, ∃ r : ℝ, a i = (r : EReal))
    (i : Fin n0) (j : Fin n1) (k : Fin n2) : a (ix3 i j k) = ((r3 a i j k : ℝ) : EReal) := by
  obtain ⟨r, hr⟩ := h (ix3 i j k)
  unfold r3
  rw [hr, EReal.toReal_coe]

theorem r1_spec {n : Nat} (a : (⟨1, ![n]⟩ : Shape).Idx → EReal) (h : ∀ i, ∃ r : ℝ, a i = (r : EReal))
    (k : Fin n) : a (ix1 k) = ((r1 a k : ℝ) : EReal) := by
  obtain ⟨r, hr⟩ := h (ix1 k)
  unfold r1
  rw [hr, EReal.toReal_coe]

/-- The convolution of every graph, as one array over the six argument arrays. -/
def Gout (a0 : S4x512x128.Idx → EReal) (a1 : S4x512x512.Idx → EReal) (a2 : S3x128x128.Idx → EReal) (a3 : S128.Idx → EReal)
    (a4 : S3x128x64.Idx → EReal) (a5 : S64.Idx → EReal) : S4x512x64.Idx → EReal :=
  fun i => ((Cert.ChebSpec.outK (r3 a0 (i 0)) (r3 a1 (i 0)) (r3 a2) (r1 a3) (r3 a4) (r1 a5) (i 1) (i 2) : ℝ) : EReal)

/-- Its row-wise log-softmax. -/
def Glsm (a0 : S4x512x128.Idx → EReal) (a1 : S4x512x512.Idx → EReal) (a2 : S3x128x128.Idx → EReal) (a3 : S128.Idx → EReal)
    (a4 : S3x128x64.Idx → EReal) (a5 : S64.Idx → EReal) : S4x512x64.Idx → EReal :=
  fun i => ((Cert.ChebSpec.lsmK (Cert.ChebSpec.outK (r3 a0 (i 0)) (r3 a1 (i 0)) (r3 a2) (r1 a3) (r3 a4) (r1 a5)) (i 1) (i 2) : ℝ) : EReal)

/-- All six argument arrays hold real numbers. -/
def Finite (c : Dev nD) : Prop :=
  (∀ i, ∃ r : ℝ, (m ((c : Thread nD τ).loc main_arg0) : S4x512x128.Idx → EReal) i = (r : EReal))
  ∧ (∀ i, ∃ r : ℝ, (m ((c : Thread nD τ).loc main_arg1) : S4x512x512.Idx → EReal) i = (r : EReal))
  ∧ (∀ i, ∃ r : ℝ, (m ((c : Thread nD τ).loc main_arg2) : S3x128x128.Idx → EReal) i = (r : EReal))
  ∧ (∀ i, ∃ r : ℝ, (m ((c : Thread nD τ).loc main_arg3) : S128.Idx → EReal) i = (r : EReal))
  ∧ (∀ i, ∃ r : ℝ, (m ((c : Thread nD τ).loc main_arg4) : S3x128x64.Idx → EReal) i = (r : EReal))
  ∧ (∀ i, ∃ r : ℝ, (m ((c : Thread nD τ).loc main_arg5) : S64.Idx → EReal) i = (r : EReal))

/-- A coordinate of a result block at point `t` sits at graph `2t + g` of the result array. -/
theorem emb7 (t : Fin cfg0.N) (g : Fin 2) (r : Fin 512) (k : Fin 64) :
    ((cfg0.win 7).blk t).view.emb (ix3 g r k) = (ix3 (gidx t g) r k : S4x512x64.Idx) := by
  obtain ⟨-, -, -, -, -, -, -, ⟨e0, e1, e2⟩⟩ := idx_facts t
  funext a
  apply Fin.ext
  match a with
  | ⟨0, _⟩ => show win0_7.index t (0 : Fin 3) * 2 + 1 * g.val = t.val * 2 + g.val; rw [e0]; omega
  | ⟨1, _⟩ => show win0_7.index t (1 : Fin 3) * 512 + 1 * r.val = r.val; rw [e1]; omega
  | ⟨2, _⟩ => show win0_7.index t (2 : Fin 3) * 64 + 1 * k.val = k.val; rw [e2]; omega

theorem emb6 (t : Fin cfg0.N) (g : Fin 2) (r : Fin 512) (k : Fin 64) :
    ((cfg0.win 6).blk t).view.emb (ix3 g r k) = (ix3 (gidx t g) r k : S4x512x64.Idx) := by
  obtain ⟨-, -, -, -, -, -, ⟨e0, e1, e2⟩, -⟩ := idx_facts t
  funext a
  apply Fin.ext
  match a with
  | ⟨0, _⟩ => show win0_6.index t (0 : Fin 3) * 2 + 1 * g.val = t.val * 2 + g.val; rw [e0]; omega
  | ⟨1, _⟩ => show win0_6.index t (1 : Fin 3) * 512 + 1 * r.val = r.val; rw [e1]; omega
  | ⟨2, _⟩ => show win0_6.index t (2 : Fin 3) * 64 + 1 * k.val = k.val; rw [e2]; omega

/-- What point `t` writes back to the second result: graphs `2t`, `2t + 1` of the convolution array. -/
theorem flushed7_eq (c : Dev nD) (hfin : Finite m c) (t : Fin cfg0.N) :
    (dats m 0 c).flushed 7 t = ((cfg0.win 7).blk t).view.read (Elt Ideal)
      (Gout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  obtain ⟨h0, h1, h2, h3, h4, h5⟩ := hfin
  rw [flushed7]
  funext j
  obtain ⟨g, r, k, rfl⟩ : ∃ (g : Fin 2) (r : Fin 512) (k : Fin 64), j = ix3 g r k := ⟨j 0, j 1, j 2, eq_ix3 j⟩
  rw [View.read_apply, emb7]
  show out0_7 (F := Ideal) (iblk m c 0 t) (iblk m c 1 t) (iblk m c 2 t) (iblk m c 3 t) (iblk m c 4 t) (iblk m c 5 t) (ix3 g r k) = _
  refine (Cert.KernelIdeal.Body.out_apply
    (fun g' => r3 (m ((c : Thread nD τ).loc main_arg0)) (gidx t g')) (fun g' => r3 (m ((c : Thread nD τ).loc main_arg1)) (gidx t g'))
    (r3 (m ((c : Thread nD τ).loc main_arg2))) (r1 (m ((c : Thread nD τ).loc main_arg3)))
    (r3 (m ((c : Thread nD τ).loc main_arg4))) (r1 (m ((c : Thread nD τ).loc main_arg5)))
    (iblk m c 0 t) (iblk m c 1 t) (iblk m c 2 t) (iblk m c 3 t) (iblk m c 4 t) (iblk m c 5 t)
    (fun g' r' k' => (iblk0_apply m c t g' r' k').trans (r3_spec _ h0 _ _ _))
    (fun g' r' k' => (iblk1_apply m c t g' r' k').trans (r3_spec _ h1 _ _ _))
    (fun j' l' k' => (iblk2_apply m c t j' l' k').trans (r3_spec _ h2 _ _ _))
    (fun k' => (iblk3_apply m c t k').trans (r1_spec _ h3 _))
    (fun j' l' k' => (iblk4_apply m c t j' l' k').trans (r3_spec _ h4 _ _ _))
    (fun k' => (iblk5_apply m c t k').trans (r1_spec _ h5 _))
    g r k).trans ?_
  rfl

/-- What point `t` writes back to the first result: graphs `2t`, `2t + 1` of the log-softmax array. -/
theorem flushed6_eq (c : Dev nD) (hfin : Finite m c) (t : Fin cfg0.N) :
    (dats m 0 c).flushed 6 t = ((cfg0.win 6).blk t).view.read (Elt Ideal)
      (Glsm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  obtain ⟨h0, h1, h2, h3, h4, h5⟩ := hfin
  rw [flushed6]
  funext j
  obtain ⟨g, r, k, rfl⟩ : ∃ (g : Fin 2) (r : Fin 512) (k : Fin 64), j = ix3 g r k := ⟨j 0, j 1, j 2, eq_ix3 j⟩
  rw [View.read_apply, emb6]
  show out0_6 (F := Ideal) (iblk m c 0 t) (iblk m c 1 t) (iblk m c 2 t) (iblk m c 3 t) (iblk m c 4 t) (iblk m c 5 t) (ix3 g r k) = _
  refine (Cert.KernelIdeal.Body.lsm_apply
    (fun g' => r3 (m ((c : Thread nD τ).loc main_arg0)) (gidx t g')) (fun g' => r3 (m ((c : Thread nD τ).loc main_arg1)) (gidx t g'))
    (r3 (m ((c : Thread nD τ).loc main_arg2))) (r1 (m ((c : Thread nD τ).loc main_arg3)))
    (r3 (m ((c : Thread nD τ).loc main_arg4))) (r1 (m ((c : Thread nD τ).loc main_arg5)))
    (iblk m c 0 t) (iblk m c 1 t) (iblk m c 2 t) (iblk m c 3 t) (iblk m c 4 t) (iblk m c 5 t)
    (fun g' r' k' => (iblk0_apply m c t g' r' k').trans (r3_spec _ h0 _ _ _))
    (fun g' r' k' => (iblk1_apply m c t g' r' k').trans (r3_spec _ h1 _ _ _))
    (fun j' l' k' => (iblk2_apply m c t j' l' k').trans (r3_spec _ h2 _ _ _))
    (fun k' => (iblk3_apply m c t k').trans (r1_spec _ h3 _))
    (fun j' l' k' => (iblk4_apply m c t j' l' k').trans (r3_spec _ h4 _ _ _))
    (fun k' => (iblk5_apply m c t k').trans (r1_spec _ h5 _))
    g r k).trans ?_
  rfl

/-- An index of the second result array is in point `t`'s block iff each coordinate is in the block's range. -/
theorem mem_blk7 (t : Fin cfg0.N) (i : S4x512x64.Idx) :
    i ∈ ((cfg0.win 7).blk t).view.set ↔ ∀ a : Fin 3, win0_7.index t a * S2x512x64.size a ≤ (i a).val ∧ (i a).val < win0_7.index t a * S2x512x64.size a + S2x512x64.size a := by
  show i ∈ ((View.whole main_v2_1).slice (win0_7.rect t)).set ↔ _
  rw [View.set_slice_whole, Rect.mem_set_unit]
  exact Iff.rfl

theorem mem_blk6 (t : Fin cfg0.N) (i : S4x512x64.Idx) :
    i ∈ ((cfg0.win 6).blk t).view.set ↔ ∀ a : Fin 3, win0_6.index t a * S2x512x64.size a ≤ (i a).val ∧ (i a).val < win0_6.index t a * S2x512x64.size a + S2x512x64.size a := by
  show i ∈ ((View.whole main_v2_0).slice (win0_6.rect t)).set ↔ _
  rw [View.set_slice_whole, Rect.mem_set_unit]
  exact Iff.rfl

/-- Graph `G` of the second result is written by point `G / 2`: the two points' blocks cover the array. -/
theorem cover7 (i : S4x512x64.Idx) : ∃ t : Fin cfg0.N, (cfg0.win 7).flush t = true ∧ i ∈ ((cfg0.win 7).blk t).view.set := by
  have hi0 : (i 0).val < 4 := (i 0).isLt
  have hi1 : (i 1).val < 512 := (i 1).isLt
  have hi2 : (i 2).val < 64 := (i 2).isLt
  have hN : cfg0.N = 2 := N_0
  refine ⟨⟨(i 0).val / 2, by rw [hN]; omega⟩, flush0_7 _, ?_⟩
  rw [mem_blk7]
  obtain ⟨-, -, -, -, -, -, -, ⟨e0, e1, e2⟩⟩ := idx_facts ⟨(i 0).val / 2, by rw [hN]; omega⟩
  intro a
  match a with
  | ⟨0, _⟩ => show win0_7.index _ (0 : Fin 3) * 2 ≤ (i 0).val ∧ (i 0).val < win0_7.index _ (0 : Fin 3) * 2 + 2; rw [e0]; show (i 0).val / 2 * 2 ≤ (i 0).val ∧ (i 0).val < (i 0).val / 2 * 2 + 2; omega
  | ⟨1, _⟩ => show win0_7.index _ (1 : Fin 3) * 512 ≤ (i 1).val ∧ (i 1).val < win0_7.index _ (1 : Fin 3) * 512 + 512; rw [e1]; omega
  | ⟨2, _⟩ => show win0_7.index _ (2 : Fin 3) * 64 ≤ (i 2).val ∧ (i 2).val < win0_7.index _ (2 : Fin 3) * 64 + 64; rw [e2]; omega

theorem cover6 (i : S4x512x64.Idx) : ∃ t : Fin cfg0.N, (cfg0.win 6).flush t = true ∧ i ∈ ((cfg0.win 6).blk t).view.set := by
  have hi0 : (i 0).val < 4 := (i 0).isLt
  have hi1 : (i 1).val < 512 := (i 1).isLt
  have hi2 : (i 2).val < 64 := (i 2).isLt
  have hN : cfg0.N = 2 := N_0
  refine ⟨⟨(i 0).val / 2, by rw [hN]; omega⟩, flush0_6 _, ?_⟩
  rw [mem_blk6]
  obtain ⟨-, -, -, -, -, -, ⟨e0, e1, e2⟩, -⟩ := idx_facts ⟨(i 0).val / 2, by rw [hN]; omega⟩
  intro a
  match a with
  | ⟨0, _⟩ => show win0_6.index _ (0 : Fin 3) * 2 ≤ (i 0).val ∧ (i 0).val < win0_6.index _ (0 : Fin 3) * 2 + 2; rw [e0]; show (i 0).val / 2 * 2 ≤ (i 0).val ∧ (i 0).val < (i 0).val / 2 * 2 + 2; omega
  | ⟨1, _⟩ => show win0_6.index _ (1 : Fin 3) * 512 ≤ (i 1).val ∧ (i 1).val < win0_6.index _ (1 : Fin 3) * 512 + 512; rw [e1]; omega
  | ⟨2, _⟩ => show win0_6.index _ (2 : Fin 3) * 64 ≤ (i 2).val ∧ (i 2).val < win0_6.index _ (2 : Fin 3) * 64 + 64; rw [e2]; omega

/-- The second result array after the run. -/
theorem final7 (c : Dev nD) (hfin : Finite m c) : (dats m 0 c).arrAt 7 cfg0.N
    = Gout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 7 _ (fun t _ => flushed7_eq m c hfin t) cover7

/-- The first result array after the run. -/
theorem final6 (c : Dev nD) (hfin : Finite m c) : (dats m 0 c).arrAt 6 cfg0.N
    = Glsm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed6_eq m c hfin t) cover6

/-- The run, read: on finite inputs the two result arrays end at the log-softmax array and the convolution array,
    the arguments unchanged. -/
theorem run (hfin : ∀ c : Dev nD, Finite m c) :
    θ_run defs (onTc (τ := τ) (main (F := Ideal))) ⟨m, fun _ => 0, ρ⟩ fun r => ∀ c : Dev nD,
      r.2.mem ((c : Thread nD τ).loc main_v2_0) = Glsm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_v2_1) = Gout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c (hfin c)), (h c).2.1.trans (final7 m c (hfin c)), (h c).2.2⟩)
    (run_blocks m ρ)

end Cert.KernelIdeal.OutArray

end
-- ==== Proof.PreFacts.lean ====
/-
  What the precondition says of the inputs.  The precondition is a conjunction of six `all |a| < +inf`
  tests, one per input array, and one `all (A = 0 ∨ A = 1)` test of the adjacency array; it holds when
  the conjunction evaluates to the one-bit word `1`.  Then every entry of every input is (the coercion of)
  a real number — an extended real whose absolute value is below `⊤` is neither `⊤` nor `⊥` — and every
  entry of the adjacency array is `0` or `1`.
-/
import proofs.«126667_g78520592106144_cont_sun_c4_372_13_alg».proof.Pre_finite_inputs
import proofs.«126667_g78520592106144_cont_sun_c4_372_13_alg».proof.Proof.Consts
import Idealize.ShloMosaic.Lib.ReduceAll
import Idealize.ShloMosaic.PureOps.Ideal

noncomputable section

namespace Cert.PreFacts

open Idealize.ShloMosaic Cert.Pre_finite_inputs Cert.Pre_finite_inputs.Facts

instance : Subsingleton S_.Idx := ⟨fun a b => funext fun d => d.elim0⟩

/-- An extended real whose absolute value `max x (-x)` compares below `+inf` is a real number. -/
theorem real_of_abs_lt (x : EReal)
    (h : Ideal.cmp .olt (max x (-x)) (Ideal.ofBits .f32 0x7F800000#32) = 1#1) : ∃ r : ℝ, x = (r : EReal) := by
  rw [Cert.Consts.ofBits_top] at h
  induction x using EReal.rec with
  | bot => simp [Ideal.cmp] at h
  | coe r => exact ⟨r, rfl⟩
  | top => simp [Ideal.cmp] at h

/-- An extended real that tests equal to `0.0` or to `1.0` is `0` or `1`. -/
theorem zero_or_one_of (x : EReal)
    (h : IntOp.ori (Ideal.cmp .oeq x (Ideal.ofBits .f32 0x00000000#32)) (Ideal.cmp .oeq x (Ideal.ofBits .f32 0x3F800000#32)) = 1#1) :
    x = ((0 : ℝ) : EReal) ∨ x = ((1 : ℝ) : EReal) := by
  rw [Cert.Consts.ofBits_zero, Cert.Consts.ofBits_one, EReal.coe_one] at h
  by_cases h0 : x = 0
  · left; rw [h0, EReal.coe_zero]
  by_cases h1 : x = 1
  · right; rw [h1, EReal.coe_one]
  · simp [Ideal.cmp, h0, h1, IntOp.ori] at h

variable [hF : Cert.Pre_finite_inputs.Facts]

/-- Under the precondition every input entry is a real number, and every adjacency entry is `0` or `1`. -/
theorem of_pre (a0 : FVec Ideal S4x512x128 .f32) (a1 : FVec Ideal S4x512x512 .f32) (a2 : FVec Ideal S3x128x128 .f32)
    (a3 : FVec Ideal S128 .f32) (a4 : FVec Ideal S3x128x64 .f32) (a5 : FVec Ideal S64 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, a1 i = ((0 : ℝ) : EReal) ∨ a1 i = ((1 : ℝ) : EReal)) := by
  have h0 := congrFun h (fun d => d.elim0)
  dsimp only [Cert.Pre_finite_inputs.fn, Cert.Pre_finite_inputs.fn_part1, Cert.Pre_finite_inputs.fn_part2, andi] at h0
  obtain ⟨h28, hA01⟩ := IntOp.andi_eq_one.1 h0
  obtain ⟨h23, hb2⟩ := IntOp.andi_eq_one.1 h28
  obtain ⟨h18, hW2⟩ := IntOp.andi_eq_one.1 h23
  obtain ⟨h13, hb1⟩ := IntOp.andi_eq_one.1 h18
  obtain ⟨h8, hW1⟩ := IntOp.andi_eq_one.1 h13
  obtain ⟨hx, hA⟩ := IntOp.andi_eq_one.1 h8
  exact ⟨fun i => real_of_abs_lt (a0 i) (Host.reduce_andi_all _ _ _ _ _ hx i),
    fun i => real_of_abs_lt (a1 i) (Host.reduce_andi_all _ _ _ _ _ hA i),
    fun i => real_of_abs_lt (a2 i) (Host.reduce_andi_all _ _ _ _ _ hW1 i),
    fun i => real_of_abs_lt (a3 i) (Host.reduce_andi_all _ _ _ _ _ hb1 i),
    fun i => real_of_abs_lt (a4 i) (Host.reduce_andi_all _ _ _ _ _ hW2 i),
    fun i => real_of_abs_lt (a5 i) (Host.reduce_andi_all _ _ _ _ _ hb2 i),
    fun i => zero_or_one_of (a1 i) (Host.reduce_andi_all _ _ _ _ _ hA01 i)⟩

end Cert.PreFacts

end
-- ==== Proof.Claims.lean ====
/-
  The five claims.  The three frames are the generated ones (the reference's is its run with the results dropped);
  the idealization rewrote nothing, so `preserves` is trivial.  For the value claim: under the precondition every
  input entry is a real number and every adjacency entry is 0 or 1; the kernel's two result arrays are the real
  convolution `outK` of every graph and its log-softmax `lsmK` (the dense arrangement), the reference's are `outR`
  and `lsmR` of the same real arrays (the edge arrangement), and the two arrangements are one function over ℝ.
-/
import proofs.«126667_g78520592106144_cont_sun_c4_372_13_alg».proof.Defs
import proofs.«126667_g78520592106144_cont_sun_c4_372_13_alg».proof.Proof.Gen.Kernel.Frame
import proofs.«126667_g78520592106144_cont_sun_c4_372_13_alg».proof.Proof.Gen.KernelIdeal.Frame
import proofs.«126667_g78520592106144_cont_sun_c4_372_13_alg».proof.Proof.Gen.KernelIdeal.Value
import proofs.«126667_g78520592106144_cont_sun_c4_372_13_alg».proof.Proof.Gen.Pre_finite_inputs
import proofs.«126667_g78520592106144_cont_sun_c4_372_13_alg».proof.Proof.RefRun
import proofs.«126667_g78520592106144_cont_sun_c4_372_13_alg».proof.Proof.ReadP
import proofs.«126667_g78520592106144_cont_sun_c4_372_13_alg».proof.Proof.RFinal
import proofs.«126667_g78520592106144_cont_sun_c4_372_13_alg».proof.Proof.OutArray
import proofs.«126667_g78520592106144_cont_sun_c4_372_13_alg».proof.Proof.PreFacts
import proofs.«126667_g78520592106144_cont_sun_c4_372_13_alg».proof.Proof.Spec

noncomputable section

namespace Cert.Proof.Claims

open Idealize.ShloMosaic Idealize.ShloMosaic.TcCoe Idealize.SL.Sem Idealize.ShloMosaic.ValueIdx
open Cert.KernelIdeal.OutArray

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- An adjacency entry that is `0` or `1` as an extended real is `0` or `1` as the real number it holds. -/
theorem r3_zero_or_one {n0 n1 n2 : Nat} (a : (⟨3, ![n0, n1, n2]⟩ : Shape).Idx → EReal)
    (h : ∀ i, a i = ((0 : ℝ) : EReal) ∨ a i = ((1 : ℝ) : EReal)) (i : Fin n0) (j : Fin n1) (k : Fin n2) :
    r3 a i j k = 0 ∨ r3 a i j k = 1 := by
  unfold r3
  rcases h (ix3 i j k) with h0 | h1
  · left; rw [h0, EReal.toReal_coe]
  · right; rw [h1, EReal.toReal_coe]

theorem algebraic : Cert.algebraic_KernelIdeal_ReferenceIdeal := by
  intro m ρ m' ρ' hpre hagree
  have hfacts := fun c => Cert.PreFacts.of_pre _ _ _ _ _ _ (hpre c)
  have hfin : ∀ c, Finite m c := fun c =>
    ⟨(hfacts c).1, (hfacts c).2.1, (hfacts c).2.2.1, (hfacts c).2.2.2.1, (hfacts c).2.2.2.2.1, (hfacts c).2.2.2.2.2.1⟩
  refine ⟨_, _, Cert.KernelIdeal.OutArray.run m ρ hfin, ?_⟩
  refine (θ_run Cert.ReferenceIdeal.defs _ _).mono (fun r h c => ?_) (Cert.ReferenceIdeal.RefRun.run (F := Ideal) m' ρ')
  obtain ⟨h236, h235, hargs⟩ := h c
  obtain ⟨g0, g1, g2, g3, g4, g5⟩ := hagree c
  obtain ⟨f0, f1, f2, f3, f4, f5, f01⟩ := hfacts c
  refine ⟨h236.trans ?_, h235.trans ?_, hargs⟩
  · rw [g0, g1, g2, g3, g4, g5]
    funext i
    obtain ⟨g, r, k, rfl⟩ : ∃ (g : Fin 4) (r : Fin 512) (k : Fin 64), i = ix3 g r k := ⟨i 0, i 1, i 2, eq_ix3 i⟩
    refine (Cert.ReferenceIdeal.RefValue.lsm_apply (r3 _) (r3 _) (r3 _) (r1 _) (r3 _) (r1 _) (r3_zero_or_one _ f01)
      _ _ _ _ _ _ (r3_spec _ f0) (r3_spec _ f1) (r3_spec _ f2) (r1_spec _ f3) (r3_spec _ f4) (r1_spec _ f5) g r k).trans ?_
    rw [← Cert.ChebSpec.outK_eq_outR, ← Cert.ChebSpec.lsmK_eq_lsmR]
    rfl
  · rw [g0, g1, g2, g3, g4, g5]
    funext i
    obtain ⟨g, r, k, rfl⟩ : ∃ (g : Fin 4) (r : Fin 512) (k : Fin 64), i = ix3 g r k := ⟨i 0, i 1, i 2, eq_ix3 i⟩
    refine (Cert.ReferenceIdeal.RefValue.out_apply (r3 _) (r3 _) (r3 _) (r1 _) (r3 _) (r1 _) (r3_zero_or_one _ f01)
      _ _ _ _ _ _ (r3_spec _ f0) (r3_spec _ f1) (r3_spec _ f2) (r1_spec _ f3) (r3_spec _ f4) (r1_spec _ f5) g r k).trans ?_
    rw [← Cert.ChebSpec.outK_eq_outR]
    rfl

end Cert.Proof.Claims

end
-- ==== Proof.lean ====
/-
  The certificate of a two-layer Chebyshev graph convolution (order 3, relu between the layers, a row-wise log-softmax at
  the end) computed per graph with dense matrix products, against the same network written over an explicit edge list
  with gathers and scatter-adds: equal results as extended reals on finite inputs whose adjacency entries are 0 or 1.

  The road: the precondition makes every input entry a real number (Proof/PreFacts); the kernel's body on real blocks is
  the real dense arrangement (Proof/KFinal and the modules under it) and the two result arrays are its values graph by
  graph (Proof/OutArray); the reference's run ends with each result at its stage (Proof/RefRun), which at an index is the
  real edge arrangement (Proof/RFinal and the modules under it); the two arrangements are one function over ℝ
  (Proof/Spec); the five claims are assembled in Proof/Claims.
-/
import proofs.«126667_g78520592106144_cont_sun_c4_372_13_alg».proof.Defs
import proofs.«126667_g78520592106144_cont_sun_c4_372_13_alg».proof.Proof.Gen.Kernel
import proofs.«126667_g78520592106144_cont_sun_c4_372_13_alg».proof.Proof.Gen.Kernel.Skeleton
import proofs.«126667_g78520592106144_cont_sun_c4_372_13_alg».proof.Proof.Gen.Kernel.Launch
import proofs.«126667_g78520592106144_cont_sun_c4_372_13_alg».proof.Proof.Gen.Kernel.Points
import proofs.«126667_g78520592106144_cont_sun_c4_372_13_alg».proof.Proof.Gen.Kernel.Frame
import proofs.«126667_g78520592106144_cont_sun_c4_372_13_alg».proof.Proof.Gen.KernelIdeal
import proofs.«126667_g78520592106144_cont_sun_c4_372_13_alg».proof.Proof.Gen.KernelIdeal.Skeleton
import proofs.«126667_g78520592106144_cont_sun_c4_372_13_alg».proof.Proof.Gen.KernelIdeal.Launch
import proofs.«126667_g78520592106144_cont_sun_c4_372_13_alg».proof.Proof.Gen.KernelIdeal.Points
import proofs.«126667_g78520592106144_cont_sun_c4_372_13_alg».proof.Proof.Gen.KernelIdeal.Frame
import proofs.«126667_g78520592106144_cont_sun_c4_372_13_alg».proof.Proof.Gen.KernelIdeal.Value
import proofs.«126667_g78520592106144_cont_sun_c4_372_13_alg».proof.Proof.Gen.ReferenceIdeal
import proofs.«126667_g78520592106144_cont_sun_c4_372_13_alg».proof.Proof.Gen.Pre_finite_inputs
import proofs.«126667_g78520592106144_cont_sun_c4_372_13_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
